-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x512 : Shape := ⟨3, ![8, 128, 512]⟩
abbrev S_ : Shape := ⟨0, ![]⟩

class Facts : Prop where
  bcast_S_S8x128x512 : S_.BroadcastsInDim S8x128x512 (![] : Fin 0 → Fin S8x128x512.rank)
  reducesTo_S8x128x512_S_d0_1_2 : S8x128x512.ReducesTo [0, 1, 2] S_
  h_S_ : 0 < S_.numel

variable [Facts]

def fn {F : FTy → Type} [FloatOps F] (main_arg0 : FVec F S8x128x512 .f32) (main_arg1 : FVec F S8x128x512 .f32) : IVec S_ 1 :=
  let main_v0 : FVec F S8x128x512 .f32 := Host.absf main_arg0
  let main_cst : FVec F S_ .f32 := constant S_ .f32 0x7F800000#32
  let main_v1 : FVec F S8x128x512 .f32 := broadcastInDim S8x128x512 ![] bcast_S_S8x128x512 main_cst
  let main_v2 : IVec S8x128x512 1 := cmpf .olt main_v0 main_v1
  let main_c : IVec S_ 1 := constantI S_ 1 1#1
  let main_v3 : IVec S_ 1 := (fun x v => Host.reduce IntOp.andi x v reducesTo_S8x128x512_S_d0_1_2 h_S_) main_v2 main_c
  let main_v4 : FVec F S8x128x512 .f32 := Host.absf main_arg1
  let main_cst_0 : FVec F S_ .f32 := constant S_ .f32 0x7F800000#32
  let main_v5 : FVec F S8x128x512 .f32 := broadcastInDim S8x128x512 ![] bcast_S_S8x128x512 main_cst_0
  let main_v6 : IVec S8x128x512 1 := cmpf .olt main_v4 main_v5
  let main_c_1 : IVec S_ 1 := constantI S_ 1 1#1
  let main_v7 : IVec S_ 1 := (fun x v => Host.reduce IntOp.andi x v reducesTo_S8x128x512_S_d0_1_2 h_S_) main_v6 main_c_1
  let main_v8 : IVec S_ 1 := andi main_v3 main_v7
  main_v8
-- ==== Kernel.lean ====
abbrev S8x128x512 : Shape := ⟨3, ![8, 128, 512]⟩
abbrev S128x1 : Shape := ⟨2, ![128, 1]⟩
abbrev S2x8x128 : Shape := ⟨3, ![2, 8, 128]⟩
abbrev S1x64x128 : Shape := ⟨3, ![1, 64, 128]⟩
abbrev S1x128x128 : Shape := ⟨3, ![1, 128, 128]⟩
abbrev S64x1 : Shape := ⟨2, ![64, 1]⟩
abbrev S1x8x128 : Shape := ⟨3, ![1, 8, 128]⟩
abbrev S64x128 : Shape := ⟨2, ![64, 128]⟩
abbrev S128x128 : Shape := ⟨2, ![128, 128]⟩
abbrev S64x1x128 : Shape := ⟨3, ![64, 1, 128]⟩
abbrev S64x128x128 : Shape := ⟨3, ![64, 128, 128]⟩
abbrev S64 : Shape := ⟨1, ![64]⟩
abbrev S128 : Shape := ⟨1, ![128]⟩
abbrev S1x128 : Shape := ⟨2, ![1, 128]⟩
abbrev S1x1x128 : Shape := ⟨3, ![1, 1, 128]⟩
abbrev S_ : Shape := ⟨0, ![]⟩
abbrev S2x1x128 : Shape := ⟨3, ![2, 1, 128]⟩
abbrev S2x128 : Shape := ⟨2, ![2, 128]⟩

abbrev nBuf : Space → Nat
  | .hbm => 17
  | .vmem => 18
  | .smem => 0
  | _ => 0

abbrev bufTy : (tb : Table) → Fin (tcTables nBuf tb) → BufTy
  | .hbm, ⟨0, _⟩ => ⟨S8x128x512, .f32⟩
  | .hbm, ⟨1, _⟩ => ⟨S8x128x512, .f32⟩
  | .hbm, ⟨2, _⟩ => ⟨S128x1, .f32⟩
  | .hbm, ⟨3, _⟩ => ⟨S2x8x128, .f32⟩
  | .hbm, ⟨4, _⟩ => ⟨S128, .f32⟩
  | .hbm, ⟨5, _⟩ => ⟨S_, .f32⟩
  | .hbm, ⟨6, _⟩ => ⟨S128, .f32⟩
  | .hbm, ⟨7, _⟩ => ⟨S128, .i1⟩
  | .hbm, ⟨8, _⟩ => ⟨S2x1x128, .f32⟩
  | .hbm, ⟨9, _⟩ => ⟨S2x128, .f32⟩
  | .hbm, ⟨10, _⟩ => ⟨S_, .f32⟩
  | .hbm, ⟨11, _⟩ => ⟨S2x128, .f32⟩
  | .hbm, ⟨12, _⟩ => ⟨S2x128, .i1⟩
  | .hbm, ⟨13, _⟩ => ⟨S_, .i1⟩
  | .hbm, ⟨14, _⟩ => ⟨S128, .i1⟩
  | .hbm, ⟨15, _⟩ => ⟨S128, .i1⟩
  | .hbm, ⟨16, _⟩ => ⟨S128, .f32⟩
  | .local _ .vmem, ⟨0, _⟩ => ⟨S1x64x128, .f32⟩
  | .local _ .vmem, ⟨1, _⟩ => ⟨S1x64x128, .f32⟩
  | .local _ .vmem, ⟨2, _⟩ => ⟨S1x128x128, .f32⟩
  | .local _ .vmem, ⟨3, _⟩ => ⟨S1x128x128, .f32⟩
  | .local _ .vmem, ⟨4, _⟩ => ⟨S1x64x128, .f32⟩
  | .local _ .vmem, ⟨5, _⟩ => ⟨S1x64x128, .f32⟩
  | .local _ .vmem, ⟨6, _⟩ => ⟨S1x128x128, .f32⟩
  | .local _ .vmem, ⟨7, _⟩ => ⟨S1x128x128, .f32⟩
  | .local _ .vmem, ⟨8, _⟩ => ⟨S64x1, .f32⟩
  | .local _ .vmem, ⟨9, _⟩ => ⟨S64x1, .f32⟩
  | .local _ .vmem, ⟨10, _⟩ => ⟨S1x8x128, .f32⟩
  | .local _ .vmem, ⟨11, _⟩ => ⟨S1x8x128, .f32⟩
  | .local _ .vmem, ⟨12, _⟩ => ⟨S64x128, .f32⟩
  | .local _ .vmem, ⟨13, _⟩ => ⟨S64x128, .f32⟩
  | .local _ .vmem, ⟨14, _⟩ => ⟨S64x1, .f32⟩
  | .local _ .vmem, ⟨15, _⟩ => ⟨S64x1, .f32⟩
  | .local _ .vmem, ⟨16, _⟩ => ⟨S128x1, .f32⟩
  | .local _ .vmem, ⟨17, _⟩ => ⟨S128x1, .f32⟩
  | _, _ => ⟨S8x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v80 : BitVec 1 := Scalar.cmpi .eq arg1 c3_i32
  let v81 : BitVec 32 := Scalar.extui v80
  let c0_i32_43 : BitVec 32 := 0#32
  let v82 : BitVec 1 := Scalar.cmpi .ne v81 c0_i32_43
  v82

def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![c7_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  let c0_i32_0 : BitVec 32 := 0#32
  ![c7_i32.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![c7_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  let c0_i32_0 : BitVec 32 := 0#32
  ![c7_i32.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S64x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  natLt_1_32 : 1 < 32
  bitsLt_bf16_f32 : FTy.bits .bf16 < FTy.bits .f32
  transposes_S128x128_p1_0_S128x128 : S128x128.Transposes [1, 0] S128x128
  shapeCasts_S64x128_S64x1x128 : S64x128.ShapeCasts S64x1x128
  shapeCasts_S128x128_S1x128x128 : S128x128.ShapeCasts S1x128x128
  broadcasts_S64x1x128_S64x128x128 : S64x1x128.Broadcasts S64x128x128
  broadcasts_S1x128x128_S64x128x128 : S1x128x128.Broadcasts S64x128x128
  reduces_S64x128x128_S64x128 : S64x128x128.Reduces [2] S64x128
  reduces_S64x128_S64 : S64x128.Reduces [1] S64
  shapeCasts_S64_S64x1 : S64.ShapeCasts S64x1
  reduces_S128x128_S128 : S128x128.Reduces [1] S128
  shapeCasts_S128_S128x1 : S128.ShapeCasts S128x1
  transposes_S128x1_p1_0_S1x128 : S128x1.Transposes [1, 0] S1x128
  iota_S64x128_d0_w32 : S64x128.Iotas .tc 32 [0]
  iota_S64x128_d1_w32 : S64x128.Iotas .tc 32 [1]
  broadcasts_S1x128_S64x128 : S1x128.Broadcasts S64x128
  broadcasts_S64x1_S64x128 : S64x1.Broadcasts S64x128
  reduces_S64x128_S128 : S64x128.Reduces [0] S128
  shapeCasts_S128_S1x1x128 : S128.ShapeCasts S1x1x128
  shapeCasts_S1x1x128_S1x1x128 : S1x1x128.ShapeCasts S1x1x128
  broadcasts_S1x1x128_S1x8x128 : S1x1x128.Broadcasts S1x8x128
  inb_S1x8x128_S1x8x128_0_0_0 : ∀ a, (![0, 0, 0] : Fin 3 → Nat) a + S1x8x128.size a ≤ S1x8x128.size a
  h_S1x8x128 : 0 < S1x8x128.numel
  shapeCasts_S128x1_S128 : S128x1.ShapeCasts S128
  bcast_S_S128 : S_.BroadcastsInDim S128 (![] : Fin 0 → Fin S128.rank)
  slices_S2x8x128_S2x1x128_0_0_0 : S2x8x128.Slices ![0, 0, 0] S2x1x128
  shapeCasts_S2x1x128_S2x128 : S2x1x128.ShapeCasts S2x128
  bcast_S_S2x128 : S_.BroadcastsInDim S2x128 (![] : Fin 0 → Fin S2x128.rank)
  reducesTo_S2x128_S128_d0 : S2x128.ReducesTo [0] S128
  h_S_ : 0 < S_.numel
  dot_S64x128_S128x128_S64x128_1_0_0_1_n_n_wf : DotDims.WF S64x128 S128x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128.size a ≤ S8x128x512.size a
  hwx0_0 : ∀ i : grid0.Coords, EltTy.bits .f32 = 32 ∨ (Rect.block (s := S8x128x512) S1x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S8x128x512.size a
  hwx0_1 : ∀ i : grid0.Coords, EltTy.bits .f32 = 32 ∨ (Rect.block (s := S8x128x512) S1x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x128.size a ≤ S8x128x512.size a
  hwx0_2 : ∀ i : grid0.Coords, EltTy.bits .f32 = 32 ∨ (Rect.block (s := S8x128x512) S1x64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x128.size a ≤ S8x128x512.size a
  hwx0_3 : ∀ i : grid0.Coords, EltTy.bits .f32 = 32 ∨ (Rect.block (s := S8x128x512) S1x128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S128x1.size a
  hwx0_4 : ∀ i : grid0.Coords, EltTy.bits .f32 = 32 ∨ (Rect.block (s := S128x1) S64x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S2x8x128.size a
  hwx0_5 : ∀ i : grid0.Coords, EltTy.bits .f32 = 32 ∨ (Rect.block (s := S2x8x128) S1x8x128.size (cc0_transform_5 i) (hinb0_5 i)).WholeWords (EltTy.packing .f32)

variable [Facts₀]

def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

abbrev win0_0 : Pipeline.Window sig grid0 :=
  Pipeline.Window.ofSpec (Memref.whole main_arg0) S1x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x64x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S64x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x128x512 : Shape := ⟨3, ![8, 128, 512]⟩
abbrev S_ : Shape := ⟨0, ![]⟩
abbrev S8x128x1x512 : Shape := ⟨4, ![8, 128, 1, 512]⟩
abbrev S8x1x128x512 : Shape := ⟨4, ![8, 1, 128, 512]⟩
abbrev S8x128x128x512 : Shape := ⟨4, ![8, 128, 128, 512]⟩
abbrev S8x128x128 : Shape := ⟨3, ![8, 128, 128]⟩
abbrev S8x128 : Shape := ⟨2, ![8, 128]⟩
abbrev S128x128 : Shape := ⟨2, ![128, 128]⟩
abbrev S1x128x128 : Shape := ⟨3, ![1, 128, 128]⟩
abbrev S8x1x128 : Shape := ⟨3, ![8, 1, 128]⟩
abbrev S8x128x1 : Shape := ⟨3, ![8, 128, 1]⟩
abbrev S1x128 : Shape := ⟨2, ![1, 128]⟩
abbrev S128 : Shape := ⟨1, ![128]⟩

abbrev nBuf : Space → Nat
  | .hbm => 63
  | .vmem => 0
  | .smem => 0
  | _ => 0

abbrev bufTy : (tb : Table) → Fin (tcTables nBuf tb) → BufTy
  | .hbm, ⟨0, _⟩ => ⟨S8x128x512, .f32⟩
  | .hbm, ⟨1, _⟩ => ⟨S8x128x512, .f32⟩
  | .hbm, ⟨2, _⟩ => ⟨S_, .f32⟩
  | .hbm, ⟨3, _⟩ => ⟨S8x128x512, .f32⟩
  | .hbm, ⟨4, _⟩ => ⟨S8x128x512, .i1⟩
  | .hbm, ⟨5, _⟩ => ⟨S8x128x1x512, .i1⟩
  | .hbm, ⟨6, _⟩ => ⟨S8x1x128x512, .i1⟩
  | .hbm, ⟨7, _⟩ => ⟨S8x128x128x512, .i1⟩
  | .hbm, ⟨8, _⟩ => ⟨S8x128x128x512, .i1⟩
  | .hbm, ⟨9, _⟩ => ⟨S8x128x128x512, .i1⟩
  | .hbm, ⟨10, _⟩ => ⟨S8x128x1x512, .f32⟩
  | .hbm, ⟨11, _⟩ => ⟨S8x1x128x512, .f32⟩
  | .hbm, ⟨12, _⟩ => ⟨S8x128x128x512, .f32⟩
  | .hbm, ⟨13, _⟩ => ⟨S8x128x128x512, .f32⟩
  | .hbm, ⟨14, _⟩ => ⟨S8x128x128x512, .f32⟩
  | .hbm, ⟨15, _⟩ => ⟨S8x128x128x512, .f32⟩
  | .hbm, ⟨16, _⟩ => ⟨S8x128x128x512, .i32⟩
  | .hbm, ⟨17, _⟩ => ⟨S_, .i32⟩
  | .hbm, ⟨18, _⟩ => ⟨S8x128x128, .i32⟩
  | .hbm, ⟨19, _⟩ => ⟨S8x128x128, .f32⟩
  | .hbm, ⟨20, _⟩ => ⟨S8x128x128x512, .f32⟩
  | .hbm, ⟨21, _⟩ => ⟨S8x128x128x512, .f32⟩
  | .hbm, ⟨22, _⟩ => ⟨S_, .f32⟩
  | .hbm, ⟨23, _⟩ => ⟨S8x128x128, .f32⟩
  | .hbm, ⟨24, _⟩ => ⟨S8x128x128, .f32⟩
  | .hbm, ⟨25, _⟩ => ⟨S8x128x512, .i32⟩
  | .hbm, ⟨26, _⟩ => ⟨S_, .i32⟩
  | .hbm, ⟨27, _⟩ => ⟨S8x128, .i32⟩
  | .hbm, ⟨28, _⟩ => ⟨S8x128, .f32⟩
  | .hbm, ⟨29, _⟩ => ⟨S8x128x512, .f32⟩
  | .hbm, ⟨30, _⟩ => ⟨S8x128x512, .f32⟩
  | .hbm, ⟨31, _⟩ => ⟨S_, .f32⟩
  | .hbm, ⟨32, _⟩ => ⟨S8x128, .f32⟩
  | .hbm, ⟨33, _⟩ => ⟨S8x128, .f32⟩
  | .hbm, ⟨34, _⟩ => ⟨S_, .f32⟩
  | .hbm, ⟨35, _⟩ => ⟨S8x128x128, .f32⟩
  | .hbm, ⟨36, _⟩ => ⟨S8x128x128, .i1⟩
  | .hbm, ⟨37, _⟩ => ⟨S128x128, .i32⟩
  | .hbm, ⟨38, _⟩ => ⟨S128x128, .i32⟩
  | .hbm, ⟨39, _⟩ => ⟨S_, .i32⟩
  | .hbm, ⟨40, _⟩ => ⟨S128x128, .i32⟩
  | .hbm, ⟨41, _⟩ => ⟨S128x128, .i32⟩
  | .hbm, ⟨42, _⟩ => ⟨S128x128, .i1⟩
  | .hbm, ⟨43, _⟩ => ⟨S1x128x128, .i1⟩
  | .hbm, ⟨44, _⟩ => ⟨S1x128x128, .i1⟩
  | .hbm, ⟨45, _⟩ => ⟨S8x128x128, .i1⟩
  | .hbm, ⟨46, _⟩ => ⟨S8x128x128, .i1⟩
  | .hbm, ⟨47, _⟩ => ⟨S8x1x128, .f32⟩
  | .hbm, ⟨48, _⟩ => ⟨S8x128x1, .f32⟩
  | .hbm, ⟨49, _⟩ => ⟨S8x128x128, .f32⟩
  | .hbm, ⟨50, _⟩ => ⟨S8x128x128, .f32⟩
  | .hbm, ⟨51, _⟩ => ⟨S8x128x128, .i1⟩
  | .hbm, ⟨52, _⟩ => ⟨S8x128x128, .i1⟩
  | .hbm, ⟨53, _⟩ => ⟨S8x128x128, .i1⟩
  | .hbm, ⟨54, _⟩ => ⟨S8x128x128, .i1⟩
  | .hbm, ⟨55, _⟩ => ⟨S_, .i1⟩
  | .hbm, ⟨56, _⟩ => ⟨S8x128, .i1⟩
  | .hbm, ⟨57, _⟩ => ⟨S_, .i1⟩
  | .hbm, ⟨58, _⟩ => ⟨S8x128, .i1⟩
  | .hbm, ⟨59, _⟩ => ⟨S8x128, .i1⟩
  | .hbm, ⟨60, _⟩ => ⟨S1x128, .i1⟩
  | .hbm, ⟨61, _⟩ => ⟨S128, .i1⟩
  | .hbm, ⟨62, _⟩ => ⟨S128, .f32⟩
  | _, _ => ⟨S8x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c_4 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_c_5 : Ref sig .tc := ⟨.hbm, 55, rfl⟩
abbrev main_v46 : Ref sig .tc := ⟨.hbm, 56, rfl⟩
abbrev main_c_6 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩

abbrev nD : Nat := 1
abbrev τ : Topo := Topo.v7x

variable {F : FTy → Type} [FloatOps F]

class Facts₀ : Prop where
  bcast_S_S8x128x512 : S_.BroadcastsInDim S8x128x512 (![] : Fin 0 → Fin S8x128x512.rank)
  bcast_S8x128x512_S8x128x1x512_0_1_3 : S8x128x512.BroadcastsInDim S8x128x1x512 (![0, 1, 3] : Fin 3 → Fin S8x128x1x512.rank)
  bcast_S8x128x512_S8x1x128x512_0_2_3 : S8x128x512.BroadcastsInDim S8x1x128x512 (![0, 2, 3] : Fin 3 → Fin S8x1x128x512.rank)
  bcast_S8x128x1x512_S8x128x128x512_0_1_2_3 : S8x128x1x512.BroadcastsInDim S8x128x128x512 (![0, 1, 2, 3] : Fin 4 → Fin S8x128x128x512.rank)
  bcast_S8x1x128x512_S8x128x128x512_0_1_2_3 : S8x1x128x512.BroadcastsInDim S8x128x128x512 (![0, 1, 2, 3] : Fin 4 → Fin S8x128x128x512.rank)
  natLt_1_32 : 1 < 32
  reducesTo_S8x128x128x512_S8x128x128_d3 : S8x128x128x512.ReducesTo [3] S8x128x128
  h_S_ : 0 < S_.numel
  reducesTo_S8x128x512_S8x128_d2 : S8x128x512.ReducesTo [2] S8x128
  bcast_S_S8x128x128 : S_.BroadcastsInDim S8x128x128 (![] : Fin 0 → Fin S8x128x128.rank)
  bcast_S_S128x128 : S_.BroadcastsInDim S128x128 (![] : Fin 0 → Fin S128x128.rank)
  bcast_S128x128_S1x128x128_1_2 : S128x128.BroadcastsInDim S1x128x128 (![1, 2] : Fin 2 → Fin S1x128x128.rank)
  bcast_S1x128x128_S8x128x128_0_1_2 : S1x128x128.BroadcastsInDim S8x128x128 (![0, 1, 2] : Fin 3 → Fin S8x128x128.rank)
  bcast_S8x128_S8x1x128_0_2 : S8x128.BroadcastsInDim S8x1x128 (![0, 2] : Fin 2 → Fin S8x1x128.rank)
  bcast_S8x128_S8x128x1_0_1 : S8x128.BroadcastsInDim S8x128x1 (![0, 1] : Fin 2 → Fin S8x128x1.rank)
  bcast_S8x1x128_S8x128x128_0_1_2 : S8x1x128.BroadcastsInDim S8x128x128 (![0, 1, 2] : Fin 3 → Fin S8x128x128.rank)
  bcast_S8x128x1_S8x128x128_0_1_2 : S8x128x1.BroadcastsInDim S8x128x128 (![0, 1, 2] : Fin 3 → Fin S8x128x128.rank)
  reducesTo_S8x128x128_S8x128_d2 : S8x128x128.ReducesTo [2] S8x128
  reducesTo_S8x128x128_S8x128_d1 : S8x128x128.ReducesTo [1] S8x128
  slices_S8x128_S1x128_7_0 : S8x128.Slices ![7, 0] S1x128
  shapeCasts_S1x128_S128 : S1x128.ShapeCasts S128

variable [Facts₀]

class Facts : Prop extends Facts₀ where

variable [Facts]
-- ==== Proof.Kernel.Base.lean ====
/-
  The grid of the kernel and its two branch conditions in closed form; at which grid points each
  window is live; and the twelve memrefs the body is called with (four input blocks, two result
  blocks, six accumulators).
-/
import proofs.«140321_j78700980732218_2_alg».proof.Proof.Gen.Kernel.Launch
import proofs.«140321_j78700980732218_2_alg».proof.Proof.Gen.Kernel.Skeleton
import proofs.«140321_j78700980732218_2_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two branch conditions of the body, as functions of the grid point

The grid is 2 × 4: the first coordinate picks a half of the 128 rows, the second walks the four
column chunks. The accumulators are cleared when the second coordinate is 0 and the results are
written when it is 3. -/

/-- "This is the first column chunk": the condition under which the body clears its accumulators. -/
abbrev condFirst (i : grid0.Coords) : Prop :=
  (Scalar.cmpi .ne (Scalar.extui (Scalar.cmpi .eq (BitVec.ofNat 32 (i 1).val) 0#32)) 0#32) = 1#1
/-- It holds exactly at the points ≡ 0 (mod 4). -/
theorem condFirst_iff : ∀ t : Fin cfg0.N, condFirst (grid0.coords t) ↔ t.val % 4 = 0 :=
  (by decide +kernel : ∀ t : Fin grid0.N, condFirst (grid0.coords t) ↔ t.val % 4 = 0)

/-- "This is the last column chunk": the condition under which the body writes its two results. -/
abbrev condLast (i : grid0.Coords) : Prop := k0_cond2 i = 1#1
/-- It holds exactly at the points ≡ 3 (mod 4). -/
theorem condLast_iff : ∀ t : Fin cfg0.N, condLast (grid0.coords t) ↔ t.val % 4 = 3 :=
  (by decide +kernel : ∀ t : Fin grid0.N, condLast (grid0.coords t) ↔ t.val % 4 = 3)

/-! ## Where the windows are live -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Away from the last chunk the two result windows are idle and are not written back. -/
theorem idle4 : ∀ t : Fin cfg0.N, ¬condLast (grid0.coords t) → cfg0.idle 4 (grid0.coords t) = true := by decide +kernel
theorem idle5 : ∀ t : Fin cfg0.N, ¬condLast (grid0.coords t) → cfg0.idle 5 (grid0.coords t) = true := by decide +kernel
theorem noFlush4 : ∀ t : Fin cfg0.N, ¬condLast (grid0.coords t) → (cfg0.win 4).flush t = false := by decide +kernel
theorem noFlush5 : ∀ t : Fin cfg0.N, ¬condLast (grid0.coords t) → (cfg0.win 5).flush t = false := by decide +kernel
/-- At the last chunk they are live. -/
theorem live4 : ∀ t : Fin cfg0.N, condLast (grid0.coords t) → cfg0.idle 4 (grid0.coords t) = false := by decide +kernel
theorem live5 : ∀ t : Fin cfg0.N, condLast (grid0.coords t) → cfg0.idle 5 (grid0.coords t) = false := by decide +kernel

/-! ## The memrefs the body is called with -/

abbrev ms0 (t : Fin cfg0.N) : Memref sig .tc .vmem S1x64x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x64x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x8x128 .f32 := win0_5.stage (cfg0.slots t 5)
abbrev hs5 (t : Fin cfg0.N) : (ms5 t).IsWhole := hstage0_5 ((cfg0.slots t 5).cast nbuf0_5)
/-- The six accumulators: whole scoped buffers of the kernel's own. -/
abbrev sc0 : Memref sig .tc .vmem S64x128 .f32 := Memref.whole cc0_scratch0
abbrev sc1 : Memref sig .tc .vmem S64x128 .f32 := Memref.whole cc0_scratch1
abbrev sc2 : Memref sig .tc .vmem S64x1 .f32 := Memref.whole cc0_scratch2
abbrev sc3 : Memref sig .tc .vmem S64x1 .f32 := Memref.whole cc0_scratch3
abbrev sc4 : Memref sig .tc .vmem S128x1 .f32 := Memref.whole cc0_scratch4
abbrev sc5 : Memref sig .tc .vmem S128x1 .f32 := Memref.whole cc0_scratch5

end Cert.Kernel.Hand

end
-- ==== Proof.Kernel.RunA.lean ====
/-
  The kernel body run at a first column chunk.
-/
import proofs.«140321_j78700980732218_2_alg».proof.Proof.Kernel.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body run at a first column chunk that is not a last one (the accumulators, found at anything, are cleared and then added to; the two result blocks are handed back untouched): what its stores leave in each buffer it writes, as the list of
    stored pieces (last first), together with the proof that from whole memrefs at the stated contents the body
    runs to its continuation with exactly those pieces written. The lists are found by running the body. -/
noncomputable def bodyRunA (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : condFirst i) (hc1 : ¬condLast i)
    (x0 : Vec F S1x64x128 .f32) (x1 : Vec F S1x128x128 .f32) (x2 : Vec F S1x64x128 .f32) (x3 : Vec F S1x128x128 .f32) :
    Σ' (LS0 : List (View.Piece (Elt F) S64x128 .f32)), Σ' (LS1 : List (View.Piece (Elt F) S64x128 .f32)), Σ' (LS2 : List (View.Piece (Elt F) S64x1 .f32)), Σ' (LS3 : List (View.Piece (Elt F) S64x1 .f32)), Σ' (LS4 : List (View.Piece (Elt F) S128x1 .f32)), { LS5 : List (View.Piece (Elt F) S128x1 .f32) //
      ∀ (xi4 : Vec F S64x1 .f32) (xi5 : Vec F S1x8x128 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare xi4
            ∗ owns (c : Thread nD τ) arg7 fullShare xi5
            ∗ (∃ d, owns (c : Thread nD τ) arg8 fullShare d)
            ∗ (∃ d, owns (c : Thread nD τ) arg9 fullShare d)
            ∗ (∃ d, owns (c : Thread nD τ) arg10 fullShare d)
            ∗ (∃ d, owns (c : Thread nD τ) arg11 fullShare d)
            ∗ (∃ d, owns (c : Thread nD τ) arg12 fullShare d)
            ∗ (∃ d, owns (c : Thread nD τ) arg13 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare xi4
                ∗ owns (c : Thread nD τ) arg7 fullShare xi5
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)
                ∗ (∃ f, arg11.view.loc (c : Thread nD τ) ↦[arg11.view.set]{fullShare} arg11.view.writes (Elt F) f LS3)
                ∗ (∃ f, arg12.view.loc (c : Thread nD τ) ↦[arg12.view.set]{fullShare} arg12.view.writes (Elt F) f LS4)
                ∗ (∃ f, arg13.view.loc (c : Thread nD τ) ↦[arg13.view.set]{fullShare} arg13.view.writes (Elt F) f LS5)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun xi4 xi5 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.Kernel.Hand

end
-- ==== Proof.Kernel.RunB.lean ====
/-
  The kernel body run at a middle column chunk.
-/
import proofs.«140321_j78700980732218_2_alg».proof.Proof.Kernel.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body run at a middle column chunk (the accumulators, found at the contents the previous chunk left, are added to; the two result blocks are handed back untouched): what its stores leave in each buffer it writes, as the list of
    stored pieces (last first), together with the proof that from whole memrefs at the stated contents the body
    runs to its continuation with exactly those pieces written. The lists are found by running the body. -/
noncomputable def bodyRunB (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : ¬condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) :
    Σ' (LS0 : List (View.Piece (Elt F) S64x128 .f32)), Σ' (LS1 : List (View.Piece (Elt F) S64x128 .f32)), Σ' (LS2 : List (View.Piece (Elt F) S64x1 .f32)), Σ' (LS3 : List (View.Piece (Elt F) S64x1 .f32)), Σ' (LS4 : List (View.Piece (Elt F) S128x1 .f32)), { LS5 : List (View.Piece (Elt F) S128x1 .f32) //
      ∀ (xi4 : Vec F S64x1 .f32) (xi5 : Vec F S1x8x128 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare xi4
            ∗ owns (c : Thread nD τ) arg7 fullShare xi5
            ∗ owns (c : Thread nD τ) arg8 fullShare xs0
            ∗ owns (c : Thread nD τ) arg9 fullShare xs1
            ∗ owns (c : Thread nD τ) arg10 fullShare xs2
            ∗ owns (c : Thread nD τ) arg11 fullShare xs3
            ∗ owns (c : Thread nD τ) arg12 fullShare xs4
            ∗ owns (c : Thread nD τ) arg13 fullShare xs5
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare xi4
                ∗ owns (c : Thread nD τ) arg7 fullShare xi5
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)
                ∗ (∃ f, arg11.view.loc (c : Thread nD τ) ↦[arg11.view.set]{fullShare} arg11.view.writes (Elt F) f LS3)
                ∗ (∃ f, arg12.view.loc (c : Thread nD τ) ↦[arg12.view.set]{fullShare} arg12.view.writes (Elt F) f LS4)
                ∗ (∃ f, arg13.view.loc (c : Thread nD τ) ↦[arg13.view.set]{fullShare} arg13.view.writes (Elt F) f LS5)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun xi4 xi5 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2; obtain rfl := harg11.eq_unread hfs3; obtain rfl := harg12.eq_unread hfs4; obtain rfl := harg13.eq_unread hfs5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.Kernel.Hand

end
-- ==== Proof.Kernel.RunC.lean ====
/-
  The kernel body run at a last column chunk.
-/
import proofs.«140321_j78700980732218_2_alg».proof.Proof.Kernel.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body run at a last column chunk (the accumulators are added to one last time and the two result blocks are written from them): what its stores leave in each buffer it writes, as the list of
    stored pieces (last first), together with the proof that from whole memrefs at the stated contents the body
    runs to its continuation with exactly those pieces written. The lists are found by running the body. -/
noncomputable def bodyRunC (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) :
    Σ' (L4 : List (View.Piece (Elt F) S64x1 .f32)), Σ' (L5 : List (View.Piece (Elt F) S1x8x128 .f32)), Σ' (LS0 : List (View.Piece (Elt F) S64x128 .f32)), Σ' (LS1 : List (View.Piece (Elt F) S64x128 .f32)), Σ' (LS2 : List (View.Piece (Elt F) S64x1 .f32)), Σ' (LS3 : List (View.Piece (Elt F) S64x1 .f32)), Σ' (LS4 : List (View.Piece (Elt F) S128x1 .f32)), { LS5 : List (View.Piece (Elt F) S128x1 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ (∃ d, owns (c : Thread nD τ) arg6 fullShare d)
            ∗ (∃ d, owns (c : Thread nD τ) arg7 fullShare d)
            ∗ owns (c : Thread nD τ) arg8 fullShare xs0
            ∗ owns (c : Thread nD τ) arg9 fullShare xs1
            ∗ owns (c : Thread nD τ) arg10 fullShare xs2
            ∗ owns (c : Thread nD τ) arg11 fullShare xs3
            ∗ owns (c : Thread nD τ) arg12 fullShare xs4
            ∗ owns (c : Thread nD τ) arg13 fullShare xs5
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)
                ∗ (∃ f, arg11.view.loc (c : Thread nD τ) ↦[arg11.view.set]{fullShare} arg11.view.writes (Elt F) f LS3)
                ∗ (∃ f, arg12.view.loc (c : Thread nD τ) ↦[arg12.view.set]{fullShare} arg12.view.writes (Elt F) f LS4)
                ∗ (∃ f, arg13.view.loc (c : Thread nD τ) ↦[arg13.view.set]{fullShare} arg13.view.writes (Elt F) f LS5)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg8.eq_unread hfs0; obtain rfl := harg9.eq_unread hfs1; obtain rfl := harg10.eq_unread hfs2; obtain rfl := harg11.eq_unread hfs3; obtain rfl := harg12.eq_unread hfs4; obtain rfl := harg13.eq_unread hfs5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.Kernel.Hand

end
-- ==== Proof.Kernel.Launch.lean ====
/-
  The launch of the program whose six windows stand on four arrays: two input windows read each
  argument array, so each argument's points-to is split in two half shares at the region's entry
  and joined again at its exit; then the thirteen host operations after the region run on the
  launch contents with the two result arrays as the pipeline left them.
-/
import proofs.«140321_j78700980732218_2_alg».proof.Proof.Kernel.Base
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch contents -/

/-- Core `c`'s buffers at launch, as a valuation; -/
abbrev W0 (c : Dev nD) : Valuation τ sig (Elt F) := fun b => m (c, b)
/-- the same read at a TensorCore reference: what the region finds (no host operation precedes it). -/
abbrev V (c : Dev nD) (b : Ref sig .tc) : Buf (Elt F) ((c : Thread nD τ).loc b) := W0 m c (Proc.devRef .tc b)

/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- The pipeline library's algebra is the whole of the certificate's. -/
abbrev EP : Emb (UR sig nD τ) (MT nD τ sig Unit (Elt F) ℕ (UR sig nD τ) ℕ) := emb₁
/-- What rides beside the buffers: the core owing nothing. -/
abbrev R (c : Dev nD) : sProp 𝕄 := iprop(∃ W, owes (c : Thread nD τ) (0 : CellTallies nD τ sig Unit) W)

/-! ## The four arrays behind the six windows

Windows 0 and 1 both read the first argument, windows 2 and 3 both read the second; windows 4 and 5
write the two result arrays. Each argument's full share is dealt in two halves, one per window. -/

/-- The distinct arrays behind the windows, listed. -/
theorem arrBufs_eq (c : Dev nD) (A : (b : Ref sig .tc) → Buf (Elt F) ((c : Thread nD τ).loc b)) :
    (Pipeline.arrBufs (Ix := Unit) (Name := ℕ) (U := UR sig nD τ) (Lvl := ℕ) spec0 c A : sProp 𝕄)
      = iprop((((c : Thread nD τ).loc main_arg0) ↦{fullShare} A main_arg0) ∗ (((c : Thread nD τ).loc main_arg1) ↦{fullShare} A main_arg1)
          ∗ (((c : Thread nD τ).loc main_v0_0) ↦{fullShare} A main_v0_0) ∗ (((c : Thread nD τ).loc main_v0_1) ↦{fullShare} A main_v0_1)) := by
  unfold Pipeline.arrBufs
  exact Idealize.SL.BI.bigSep_eq_bigSepL_of_eq [main_arg0, main_arg1, main_v0_0, main_v0_1] (by decide) (by decide) _

/-- A whole buffer's points-to splits in its two half shares, -/
theorem halves (ℓ : Loc nD τ sig) (f : Buf (Elt F) ℓ) :
    (ℓ ↦{fullShare} f : sProp 𝕄) ⊢ iprop((ℓ ↦{fullShare.left} f) ∗ ℓ ↦{fullShare.right} f) :=
  (Idealize.ShloMosaic.pointsTo_share (PosShare.mem_left_op_right fullShare)).1
/-- and the two halves at the same contents join again. -/
theorem join_halves (ℓ : Loc nD τ sig) (f : Buf (Elt F) ℓ) :
    iprop((ℓ ↦{fullShare.left} f) ∗ ℓ ↦{fullShare.right} f) ⊢ (ℓ ↦{fullShare} f : sProp 𝕄) :=
  (Idealize.ShloMosaic.pointsTo_share (PosShare.mem_left_op_right fullShare)).2

/-- Two whole buffers split in their halves at once, whatever rides along. -/
theorem halves2 (ℓ₁ ℓ₂ : Loc nD τ sig) (f : Buf (Elt F) ℓ₁) (g : Buf (Elt F) ℓ₂) (Q : sProp 𝕄) :
    iprop((ℓ₁ ↦{fullShare} f) ∗ (ℓ₂ ↦{fullShare} g) ∗ Q)
      ⊢ iprop(((ℓ₁ ↦{fullShare.left} f) ∗ ℓ₁ ↦{fullShare.right} f) ∗ ((ℓ₂ ↦{fullShare.left} g) ∗ ℓ₂ ↦{fullShare.right} g) ∗ Q) := by
  iintro ⟨H0, H1, HQ⟩
  isplitl [H0]; · iapply (halves (F := F) ℓ₁ f); iexact H0
  isplitl [H1]; · iapply (halves (F := F) ℓ₂ g); iexact H1
  iexact HQ

section Launch

variable (dats : (p : Fin 1) → (c : Dev nD) → Dat τ (Elt F) Unit ℕ (UR sig nD τ) ℕ (cfgs p) c)

/-- The windows' arrays at contents `G`, one by one, at the shares the proof data names. -/
theorem arrays_eq (c : Dev nD) (G : (w : Fin cfg0.W) → Buf (Elt F) ((cfg0.win w).arr.view.loc (c : Thread nD τ)))
    (hq0 : (dats 0 c).q 0 = fullShare.left) (hq1 : (dats 0 c).q 1 = fullShare.right)
    (hq2 : (dats 0 c).q 2 = fullShare.left) (hq3 : (dats 0 c).q 3 = fullShare.right) :
    ((dats 0 c).arrays G : sProp 𝕄)
      = iprop((((c : Thread nD τ).loc main_arg0) ↦{fullShare.left} G 0) ∗ (((c : Thread nD τ).loc main_arg0) ↦{fullShare.right} G 1)
          ∗ (((c : Thread nD τ).loc main_arg1) ↦{fullShare.left} G 2) ∗ (((c : Thread nD τ).loc main_arg1) ↦{fullShare.right} G 3)
          ∗ (((c : Thread nD τ).loc main_v0_0) ↦{fullShare} G 4) ∗ (((c : Thread nD τ).loc main_v0_1) ↦{fullShare} G 5)) := by
  unfold Dat.arrays
  rw [show (bigSep Finset.univ fun w : Fin cfg0.W => (cfg0.win w).arr.view.loc (c : Thread nD τ) ↦[(cfg0.win w).arr.view.set]{(dats 0 c).share w} G w : sProp 𝕄)
        = bigSep Finset.univ fun w : Fin cfg0.W => (((cfg0.win w).arr.view.loc (c : Thread nD τ)) ↦{(dats 0 c).share w} G w : sProp 𝕄)
      from bigSep_congr fun w _ => by rw [(arr_whole0 w).set_eq_univ]]
  rw [bigSep_W0]
  have s0 : (dats 0 c).share 0 = fullShare.left := by unfold Dat.share; exact hq0
  have s1 : (dats 0 c).share 1 = fullShare.right := by unfold Dat.share; exact hq1
  have s2 : (dats 0 c).share 2 = fullShare.left := by unfold Dat.share; exact hq2
  have s3 : (dats 0 c).share 3 = fullShare.right := by unfold Dat.share; exact hq3
  have s4 : (dats 0 c).share 4 = fullShare := rfl
  have s5 : (dats 0 c).share 5 = fullShare := rfl
  rw [s0, s1, s2, s3, s4, s5]

/-- The contents the region leaves: the launch contents with the two result arrays as the pipeline's
    write-backs leave them. -/
def Wn (c : Dev nD) : Valuation τ sig (Elt F) :=
  StableHlo.after [StableHlo.nullary main_v0_0 ((dats 0 c).arrAt 4 cfg0.N), StableHlo.nullary main_v0_1 ((dats 0 c).arrAt 5 cfg0.N)] (W0 m c)

theorem Wn_of_ne (c : Dev nD) (b : Ref sig .tc) (h0 : b ≠ main_v0_0) (h1 : b ≠ main_v0_1) :
    Wn m dats c (Proc.devRef .tc b) = W0 m c (Proc.devRef .tc b) := by
  unfold Wn
  rw [StableHlo.after_cons, StableHlo.after_cons, StableHlo.after_nil, StableHlo.nullary_result_ne _ _ _ _ h1, StableHlo.nullary_result_ne _ _ _ _ h0]

theorem Wn_row (c : Dev nD) : Wn m dats c (Proc.devRef .tc main_v0_0) = (dats 0 c).arrAt 4 cfg0.N := by
  unfold Wn
  rw [StableHlo.after_cons, StableHlo.after_cons, StableHlo.after_nil, StableHlo.nullary_result_ne _ _ _ _ (by decide : main_v0_0 ≠ main_v0_1), StableHlo.nullary_result]

theorem Wn_col (c : Dev nD) : Wn m dats c (Proc.devRef .tc main_v0_1) = (dats 0 c).arrAt 5 cfg0.N := by
  unfold Wn
  rw [StableHlo.after_cons, StableHlo.after_cons, StableHlo.after_nil, StableHlo.nullary_result]

end Launch

section Run

variable (dats : (p : Fin 1) → (c : Dev nD) → Dat τ (Elt F) Unit ℕ (UR sig nD τ) ℕ (cfgs p) c)
  (hA : ∀ c w, (dats 0 c).A w = V m c (Pipeline.arrRef spec0 w))
  (hq0 : ∀ c, (dats 0 c).q 0 = fullShare.left) (hq1 : ∀ c, (dats 0 c).q 1 = fullShare.right)
  (hq2 : ∀ c, (dats 0 c).q 2 = fullShare.left) (hq3 : ∀ c, (dats 0 c).q 3 = fullShare.right)

include hA hq0 hq1 hq2 hq3 in
/-- ENTRY. The launch's unscoped buffers are the windows' arrays at the proof data's entry contents — each
    argument's points-to split in its two half shares — and the buffers that bypass the region. -/
theorem entry_arrays (c : Dev nD) :
    (unscopedBufs c (V m c) : sProp 𝕄)
      ⊢ iprop((dats 0 c).arrays ((dats 0 c).arrAt · 0) ∗ Pipeline.unscopedRest spec0 c (V m c)) := by
  rw [Pipeline.unscopedBufs_split₀ cfgs (0 : Fin 1) winFacts₀0.arr_unscoped c (V m c)]
  refine sep_mono ?_ .rfl
  rw [arrBufs_eq, arrays_eq dats c _ (hq0 c) (hq1 c) (hq2 c) (hq3 c)]
  rw [show (dats 0 c).arrAt 0 0 = V m c main_arg0 from hA c 0, show (dats 0 c).arrAt 1 0 = V m c main_arg0 from hA c 1,
    show (dats 0 c).arrAt 2 0 = V m c main_arg1 from hA c 2, show (dats 0 c).arrAt 3 0 = V m c main_arg1 from hA c 3,
    show (dats 0 c).arrAt 4 0 = V m c main_v0_0 from hA c 4, show (dats 0 c).arrAt 5 0 = V m c main_v0_1 from hA c 5]
  refine (halves2 (F := F) _ _ _ _ _).trans ?_
  iintro ⟨⟨H0l, H0r⟩, ⟨H1l, H1r⟩, H4, H5⟩
  isplitl [H0l]; · iexact H0l
  isplitl [H0r]; · iexact H0r
  isplitl [H1l]; · iexact H1l
  isplitl [H1r]; · iexact H1r
  isplitl [H4]; · iexact H4
  iexact H5

include hA hq0 hq1 hq2 hq3 in
/-- EXIT. The windows' arrays at their final contents — the two halves of each argument joined again, the
    inputs never written — and the bypassing buffers are the unscoped buffers held at the contents the
    region leaves. -/
theorem exit_held (c : Dev nD) :
    iprop((dats 0 c).arrays ((dats 0 c).arrAt · cfg0.N) ∗ Pipeline.unscopedRest spec0 c (V m c))
      ⊢ (StableHlo.held (c : Thread nD τ) (Pipeline.ucRefs τ sig) (Wn m dats c) : sProp 𝕄) := by
  rw [← Pipeline.unscopedBufs_held c (Wn m dats c)]
  rw [Pipeline.unscopedBufs_split₀ cfgs (0 : Fin 1) winFacts₀0.arr_unscoped c _]
  have hrest : (Pipeline.unscopedRest spec0 c (fun b => Wn m dats c (Proc.devRef .tc b)) : sProp 𝕄) = Pipeline.unscopedRest spec0 c (V m c) := by
    unfold Pipeline.unscopedRest
    refine bigSep_congr fun b hb => ?_
    have hb' := (Finset.mem_sdiff.mp hb).2
    have h0 : b ≠ main_v0_0 := fun e => hb' (Finset.mem_image.mpr ⟨4, Finset.mem_univ _, by subst e; rfl⟩)
    have h1 : b ≠ main_v0_1 := fun e => hb' (Finset.mem_image.mpr ⟨5, Finset.mem_univ _, by subst e; rfl⟩)
    beta_reduce
    rw [Wn_of_ne m dats c b h0 h1]
  rw [hrest, arrBufs_eq, arrays_eq dats c _ (hq0 c) (hq1 c) (hq2 c) (hq3 c)]
  rw [show (dats 0 c).arrAt 0 cfg0.N = V m c main_arg0 from ((dats 0 c).arrAt_in 0 rfl _).trans (hA c 0),
    show (dats 0 c).arrAt 1 cfg0.N = V m c main_arg0 from ((dats 0 c).arrAt_in 1 rfl _).trans (hA c 1),
    show (dats 0 c).arrAt 2 cfg0.N = V m c main_arg1 from ((dats 0 c).arrAt_in 2 rfl _).trans (hA c 2),
    show (dats 0 c).arrAt 3 cfg0.N = V m c main_arg1 from ((dats 0 c).arrAt_in 3 rfl _).trans (hA c 3)]
  rw [Wn_of_ne m dats c main_arg0 (by decide) (by decide), Wn_of_ne m dats c main_arg1 (by decide) (by decide), Wn_row, Wn_col]
  iintro ⟨⟨H0l, H0r, H1l, H1r, H4, H5⟩, HZ⟩
  isplitr [HZ]
  · isplitl [H0l H0r]
    · iapply (join_halves (F := F) _ _); isplitl [H0l]; · iexact H0l
      iexact H0r
    isplitl [H1l H1r]
    · iapply (join_halves (F := F) _ _); isplitl [H1l]; · iexact H1l
      iexact H1r
    isplitl [H4]; · iexact H4
    iexact H5
  · iexact HZ

end Run

end Cert.Kernel.Hand

end
-- ==== Proof.Kernel.Cases.lean ====
/-
  What each of the three cases of the body leaves in the buffers it writes: the stored pieces cover
  each buffer, and their read-back is the buffer's contents.
-/
import proofs.«140321_j78700980732218_2_alg».proof.Proof.Kernel.RunC
import proofs.«140321_j78700980732218_2_alg».proof.Proof.Kernel.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold, as one record -/

/-- The two result blocks and the six accumulators: what the body's stores leave behind at a grid point. -/
structure St (F : FTy → Type) [FloatOps F] where
  o4 : Vec F S64x1 .f32
  o5 : Vec F S1x8x128 .f32
  s0 : Vec F S64x128 .f32
  s1 : Vec F S64x128 .f32
  s2 : Vec F S64x1 .f32
  s3 : Vec F S64x1 .f32
  s4 : Vec F S128x1 .f32
  s5 : Vec F S128x1 .f32

/-- One staging buffer of each result window, through which its contents are stated (the choice does not matter). -/
abbrev VO4 : View sig .tc .vmem S64x1 .f32 := (Memref.whole cc0_stg4_0 : Memref sig .tc .vmem S64x1 .f32).view
abbrev VO5 : View sig .tc .vmem S1x8x128 .f32 := (Memref.whole cc0_stg5_0 : Memref sig .tc .vmem S1x8x128 .f32).view

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The pieces case A stores into accumulator `s0` tile it, so they cover it. -/
theorem coverA_s0 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : condFirst i) (hc1 : ¬condLast i)
    (x0 : Vec F S1x64x128 .f32) (x1 : Vec F S1x128x128 .f32) (x2 : Vec F S1x64x128 .f32) (x3 : Vec F S1x128x128 .f32) (y : S64x128.Idx) :
    ∃ pc ∈ (bodyRunA c i arg2 harg2 arg3 harg3 arg4 harg4 arg5 harg5 arg6 harg6 arg7 harg7 arg8 harg8 arg9 harg9 arg10 harg10 arg11 harg11 arg12 harg12 arg13 harg13 hc0 hc1 x0 x1 x2 x3).1, y ∈ pc.1.set :=
  View.cover_of_tiledL (bodyRunA c i arg2 harg2 arg3 harg3 arg4 harg4 arg5 harg5 arg6 harg6 arg7 harg7 arg8 harg8 arg9 harg9 arg10 harg10 arg11 harg11 arg12 harg12 arg13 harg13 hc0 hc1 x0 x1 x2 x3).1 S64x128.size (by sl_kernel_rfl) y

/-- The pieces case A stores into accumulator `s1` tile it, so they cover it. -/
theorem coverA_s1 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : condFirst i) (hc1 : ¬condLast i)
    (x0 : Vec F S1x64x128 .f32) (x1 : Vec F S1x128x128 .f32) (x2 : Vec F S1x64x128 .f32) (x3 : Vec F S1x128x128 .f32) (y : S64x128.Idx) :
    ∃ pc ∈ (bodyRunA c i arg2 harg2 arg3 harg3 arg4 harg4 arg5 harg5 arg6 harg6 arg7 harg7 arg8 harg8 arg9 harg9 arg10 harg10 arg11 harg11 arg12 harg12 arg13 harg13 hc0 hc1 x0 x1 x2 x3).2.1, y ∈ pc.1.set :=
  View.cover_of_tiledL (bodyRunA c i arg2 harg2 arg3 harg3 arg4 harg4 arg5 harg5 arg6 harg6 arg7 harg7 arg8 harg8 arg9 harg9 arg10 harg10 arg11 harg11 arg12 harg12 arg13 harg13 hc0 hc1 x0 x1 x2 x3).2.1 S64x128.size (by sl_kernel_rfl) y

/-- The pieces case A stores into accumulator `s2` tile it, so they cover it. -/
theorem coverA_s2 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : condFirst i) (hc1 : ¬condLast i)
    (x0 : Vec F S1x64x128 .f32) (x1 : Vec F S1x128x128 .f32) (x2 : Vec F S1x64x128 .f32) (x3 : Vec F S1x128x128 .f32) (y : S64x1.Idx) :
    ∃ pc ∈ (bodyRunA c i arg2 harg2 arg3 harg3 arg4 harg4 arg5 harg5 arg6 harg6 arg7 harg7 arg8 harg8 arg9 harg9 arg10 harg10 arg11 harg11 arg12 harg12 arg13 harg13 hc0 hc1 x0 x1 x2 x3).2.2.1, y ∈ pc.1.set :=
  View.cover_of_tiledL (bodyRunA c i arg2 harg2 arg3 harg3 arg4 harg4 arg5 harg5 arg6 harg6 arg7 harg7 arg8 harg8 arg9 harg9 arg10 harg10 arg11 harg11 arg12 harg12 arg13 harg13 hc0 hc1 x0 x1 x2 x3).2.2.1 S64x1.size (by sl_kernel_rfl) y

/-- The pieces case A stores into accumulator `s3` tile it, so they cover it. -/
theorem coverA_s3 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : condFirst i) (hc1 : ¬condLast i)
    (x0 : Vec F S1x64x128 .f32) (x1 : Vec F S1x128x128 .f32) (x2 : Vec F S1x64x128 .f32) (x3 : Vec F S1x128x128 .f32) (y : S64x1.Idx) :
    ∃ pc ∈ (bodyRunA c i arg2 harg2 arg3 harg3 arg4 harg4 arg5 harg5 arg6 harg6 arg7 harg7 arg8 harg8 arg9 harg9 arg10 harg10 arg11 harg11 arg12 harg12 arg13 harg13 hc0 hc1 x0 x1 x2 x3).2.2.2.1, y ∈ pc.1.set :=
  View.cover_of_tiledL (bodyRunA c i arg2 harg2 arg3 harg3 arg4 harg4 arg5 harg5 arg6 harg6 arg7 harg7 arg8 harg8 arg9 harg9 arg10 harg10 arg11 harg11 arg12 harg12 arg13 harg13 hc0 hc1 x0 x1 x2 x3).2.2.2.1 S64x1.size (by sl_kernel_rfl) y

/-- The pieces case A stores into accumulator `s4` tile it, so they cover it. -/
theorem coverA_s4 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : condFirst i) (hc1 : ¬condLast i)
    (x0 : Vec F S1x64x128 .f32) (x1 : Vec F S1x128x128 .f32) (x2 : Vec F S1x64x128 .f32) (x3 : Vec F S1x128x128 .f32) (y : S128x1.Idx) :
    ∃ pc ∈ (bodyRunA c i arg2 harg2 arg3 harg3 arg4 harg4 arg5 harg5 arg6 harg6 arg7 harg7 arg8 harg8 arg9 harg9 arg10 harg10 arg11 harg11 arg12 harg12 arg13 harg13 hc0 hc1 x0 x1 x2 x3).2.2.2.2.1, y ∈ pc.1.set :=
  View.cover_of_tiledL (bodyRunA c i arg2 harg2 arg3 harg3 arg4 harg4 arg5 harg5 arg6 harg6 arg7 harg7 arg8 harg8 arg9 harg9 arg10 harg10 arg11 harg11 arg12 harg12 arg13 harg13 hc0 hc1 x0 x1 x2 x3).2.2.2.2.1 S128x1.size (by sl_kernel_rfl) y

/-- The pieces case A stores into accumulator `s5` tile it, so they cover it. -/
theorem coverA_s5 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : condFirst i) (hc1 : ¬condLast i)
    (x0 : Vec F S1x64x128 .f32) (x1 : Vec F S1x128x128 .f32) (x2 : Vec F S1x64x128 .f32) (x3 : Vec F S1x128x128 .f32) (y : S128x1.Idx) :
    ∃ pc ∈ (bodyRunA c i arg2 harg2 arg3 harg3 arg4 harg4 arg5 harg5 arg6 harg6 arg7 harg7 arg8 harg8 arg9 harg9 arg10 harg10 arg11 harg11 arg12 harg12 arg13 harg13 hc0 hc1 x0 x1 x2 x3).2.2.2.2.2.1, y ∈ pc.1.set :=
  View.cover_of_tiledL (bodyRunA c i arg2 harg2 arg3 harg3 arg4 harg4 arg5 harg5 arg6 harg6 arg7 harg7 arg8 harg8 arg9 harg9 arg10 harg10 arg11 harg11 arg12 harg12 arg13 harg13 hc0 hc1 x0 x1 x2 x3).2.2.2.2.2.1 S128x1.size (by sl_kernel_rfl) y

/-- What case A leaves: each written buffer's pieces read back (the two result blocks are not written: placeholders nothing consults). -/
def stA (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : condFirst i) (hc1 : ¬condLast i)
    (x0 : Vec F S1x64x128 .f32) (x1 : Vec F S1x128x128 .f32) (x2 : Vec F S1x64x128 .f32) (x3 : Vec F S1x128x128 .f32) : St F where
  o4 := VO4.read (Elt F) VO4.junk
  o5 := VO5.read (Elt F) VO5.junk
  s0 := sc0.view.read (Elt F) (sc0.view.writes (Elt F) sc0.view.junk (bodyRunA c i arg2 harg2 arg3 harg3 arg4 harg4 arg5 harg5 arg6 harg6 arg7 harg7 arg8 harg8 arg9 harg9 arg10 harg10 arg11 harg11 arg12 harg12 arg13 harg13 hc0 hc1 x0 x1 x2 x3).1)
  s1 := sc1.view.read (Elt F) (sc1.view.writes (Elt F) sc1.view.junk (bodyRunA c i arg2 harg2 arg3 harg3 arg4 harg4 arg5 harg5 arg6 harg6 arg7 harg7 arg8 harg8 arg9 harg9 arg10 harg10 arg11 harg11 arg12 harg12 arg13 harg13 hc0 hc1 x0 x1 x2 x3).2.1)
  s2 := sc2.view.read (Elt F) (sc2.view.writes (Elt F) sc2.view.junk (bodyRunA c i arg2 harg2 arg3 harg3 arg4 harg4 arg5 harg5 arg6 harg6 arg7 harg7 arg8 harg8 arg9 harg9 arg10 harg10 arg11 harg11 arg12 harg12 arg13 harg13 hc0 hc1 x0 x1 x2 x3).2.2.1)
  s3 := sc3.view.read (Elt F) (sc3.view.writes (Elt F) sc3.view.junk (bodyRunA c i arg2 harg2 arg3 harg3 arg4 harg4 arg5 harg5 arg6 harg6 arg7 harg7 arg8 harg8 arg9 harg9 arg10 harg10 arg11 harg11 arg12 harg12 arg13 harg13 hc0 hc1 x0 x1 x2 x3).2.2.2.1)
  s4 := sc4.view.read (Elt F) (sc4.view.writes (Elt F) sc4.view.junk (bodyRunA c i arg2 harg2 arg3 harg3 arg4 harg4 arg5 harg5 arg6 harg6 arg7 harg7 arg8 harg8 arg9 harg9 arg10 harg10 arg11 harg11 arg12 harg12 arg13 harg13 hc0 hc1 x0 x1 x2 x3).2.2.2.2.1)
  s5 := sc5.view.read (Elt F) (sc5.view.writes (Elt F) sc5.view.junk (bodyRunA c i arg2 harg2 arg3 harg3 arg4 harg4 arg5 harg5 arg6 harg6 arg7 harg7 arg8 harg8 arg9 harg9 arg10 harg10 arg11 harg11 arg12 harg12 arg13 harg13 hc0 hc1 x0 x1 x2 x3).2.2.2.2.2.1)

/-- The pieces case B stores into accumulator `s0` tile it, so they cover it. -/
theorem coverB_s0 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : ¬condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) (y : S64x128.Idx) :
    ∃ pc ∈ (bodyRunB c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).1, y ∈ pc.1.set :=
  View.cover_of_tiledL (bodyRunB c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).1 S64x128.size (by sl_kernel_rfl) y

/-- The pieces case B stores into accumulator `s1` tile it, so they cover it. -/
theorem coverB_s1 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : ¬condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) (y : S64x128.Idx) :
    ∃ pc ∈ (bodyRunB c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.1, y ∈ pc.1.set :=
  View.cover_of_tiledL (bodyRunB c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.1 S64x128.size (by sl_kernel_rfl) y

/-- The pieces case B stores into accumulator `s2` tile it, so they cover it. -/
theorem coverB_s2 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : ¬condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) (y : S64x1.Idx) :
    ∃ pc ∈ (bodyRunB c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.1, y ∈ pc.1.set :=
  View.cover_of_tiledL (bodyRunB c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.1 S64x1.size (by sl_kernel_rfl) y

/-- The pieces case B stores into accumulator `s3` tile it, so they cover it. -/
theorem coverB_s3 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : ¬condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) (y : S64x1.Idx) :
    ∃ pc ∈ (bodyRunB c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.1, y ∈ pc.1.set :=
  View.cover_of_tiledL (bodyRunB c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.1 S64x1.size (by sl_kernel_rfl) y

/-- The pieces case B stores into accumulator `s4` tile it, so they cover it. -/
theorem coverB_s4 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : ¬condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) (y : S128x1.Idx) :
    ∃ pc ∈ (bodyRunB c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.2.1, y ∈ pc.1.set :=
  View.cover_of_tiledL (bodyRunB c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.2.1 S128x1.size (by sl_kernel_rfl) y

/-- The pieces case B stores into accumulator `s5` tile it, so they cover it. -/
theorem coverB_s5 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : ¬condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) (y : S128x1.Idx) :
    ∃ pc ∈ (bodyRunB c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.2.2.1, y ∈ pc.1.set :=
  View.cover_of_tiledL (bodyRunB c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.2.2.1 S128x1.size (by sl_kernel_rfl) y

/-- What case B leaves: each written buffer's pieces read back (the two result blocks are not written: placeholders nothing consults). -/
def stB (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : ¬condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) : St F where
  o4 := VO4.read (Elt F) VO4.junk
  o5 := VO5.read (Elt F) VO5.junk
  s0 := sc0.view.read (Elt F) (sc0.view.writes (Elt F) sc0.view.junk (bodyRunB c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).1)
  s1 := sc1.view.read (Elt F) (sc1.view.writes (Elt F) sc1.view.junk (bodyRunB c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.1)
  s2 := sc2.view.read (Elt F) (sc2.view.writes (Elt F) sc2.view.junk (bodyRunB c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.1)
  s3 := sc3.view.read (Elt F) (sc3.view.writes (Elt F) sc3.view.junk (bodyRunB c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.1)
  s4 := sc4.view.read (Elt F) (sc4.view.writes (Elt F) sc4.view.junk (bodyRunB c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.2.1)
  s5 := sc5.view.read (Elt F) (sc5.view.writes (Elt F) sc5.view.junk (bodyRunB c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.2.2.1)

/-- The pieces case C stores into result block `o4` tile it, so they cover it. -/
theorem coverC_o4 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) (y : S64x1.Idx) :
    ∃ pc ∈ (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).1, y ∈ pc.1.set :=
  View.cover_of_tiledL (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).1 S64x1.size (by sl_kernel_rfl) y

/-- The pieces case C stores into result block `o5` tile it, so they cover it. -/
theorem coverC_o5 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) (y : S1x8x128.Idx) :
    ∃ pc ∈ (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.1, y ∈ pc.1.set :=
  View.cover_of_tiledL (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.1 S1x8x128.size (by sl_kernel_rfl) y

/-- The pieces case C stores into accumulator `s0` tile it, so they cover it. -/
theorem coverC_s0 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) (y : S64x128.Idx) :
    ∃ pc ∈ (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.1, y ∈ pc.1.set :=
  View.cover_of_tiledL (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.1 S64x128.size (by sl_kernel_rfl) y

/-- The pieces case C stores into accumulator `s1` tile it, so they cover it. -/
theorem coverC_s1 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) (y : S64x128.Idx) :
    ∃ pc ∈ (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.1, y ∈ pc.1.set :=
  View.cover_of_tiledL (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.1 S64x128.size (by sl_kernel_rfl) y

/-- The pieces case C stores into accumulator `s2` tile it, so they cover it. -/
theorem coverC_s2 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) (y : S64x1.Idx) :
    ∃ pc ∈ (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.2.1, y ∈ pc.1.set :=
  View.cover_of_tiledL (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.2.1 S64x1.size (by sl_kernel_rfl) y

/-- The pieces case C stores into accumulator `s3` tile it, so they cover it. -/
theorem coverC_s3 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) (y : S64x1.Idx) :
    ∃ pc ∈ (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.2.2.1, y ∈ pc.1.set :=
  View.cover_of_tiledL (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.2.2.1 S64x1.size (by sl_kernel_rfl) y

/-- The pieces case C stores into accumulator `s4` tile it, so they cover it. -/
theorem coverC_s4 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) (y : S128x1.Idx) :
    ∃ pc ∈ (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.2.2.2.1, y ∈ pc.1.set :=
  View.cover_of_tiledL (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.2.2.2.1 S128x1.size (by sl_kernel_rfl) y

/-- The pieces case C stores into accumulator `s5` tile it, so they cover it. -/
theorem coverC_s5 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) (y : S128x1.Idx) :
    ∃ pc ∈ (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.2.2.2.2.1, y ∈ pc.1.set :=
  View.cover_of_tiledL (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.2.2.2.2.1 S128x1.size (by sl_kernel_rfl) y

/-- What case C leaves: each written buffer's pieces read back. -/
def stC (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) : St F where
  o4 := VO4.read (Elt F) (VO4.writes (Elt F) VO4.junk (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).1)
  o5 := VO5.read (Elt F) (VO5.writes (Elt F) VO5.junk (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.1)
  s0 := sc0.view.read (Elt F) (sc0.view.writes (Elt F) sc0.view.junk (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.1)
  s1 := sc1.view.read (Elt F) (sc1.view.writes (Elt F) sc1.view.junk (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.1)
  s2 := sc2.view.read (Elt F) (sc2.view.writes (Elt F) sc2.view.junk (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.2.1)
  s3 := sc3.view.read (Elt F) (sc3.view.writes (Elt F) sc3.view.junk (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.2.2.1)
  s4 := sc4.view.read (Elt F) (sc4.view.writes (Elt F) sc4.view.junk (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.2.2.2.1)
  s5 := sc5.view.read (Elt F) (sc5.view.writes (Elt F) sc5.view.junk (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.2.2.2.2.1)

end Cert.Kernel.Hand

end
-- ==== Proof.Kernel.Points.lean ====
/-
  What the buffers hold point by point: the recursion over the grid points, the region's invariant
  carrying the six accumulators, and the pipeline's proof data.
-/
import proofs.«140321_j78700980732218_2_alg».proof.Proof.Kernel.Cases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## Point by point -/

/-- THE ACCUMULATION. What the result blocks and the accumulators hold after the body at position `n`: the
    case the closed forms select there, run at the point's memrefs and input blocks, over what the point
    before left in the accumulators (a first chunk clears them and looks at nothing). -/
def stAt (c : Dev nD) : (n : ℕ) → n < cfg0.N → St F
  | 0, hn => stA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) sc0 (Memref.isWhole_whole _) sc1 (Memref.isWhole_whole _) sc2 (Memref.isWhole_whole _) sc3 (Memref.isWhole_whole _) sc4 (Memref.isWhole_whole _) sc5 (Memref.isWhole_whole _) ((condFirst_iff ⟨0, hn⟩).mpr (Nat.zero_mod _)) (fun h => (fun h => by (try dsimp only at h); omega) ((condLast_iff ⟨0, hn⟩).mp h)) (iblk m c 0 ⟨0, hn⟩) (iblk m c 1 ⟨0, hn⟩) (iblk m c 2 ⟨0, hn⟩) (iblk m c 3 ⟨0, hn⟩)
  | n + 1, hn =>
    if h0 : (n + 1) % 4 = 0 then
      if h1 : (n + 1) % 4 = 3 then
        False.elim (by omega)
      else
        stA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) sc0 (Memref.isWhole_whole _) sc1 (Memref.isWhole_whole _) sc2 (Memref.isWhole_whole _) sc3 (Memref.isWhole_whole _) sc4 (Memref.isWhole_whole _) sc5 (Memref.isWhole_whole _) ((condFirst_iff ⟨n + 1, hn⟩).mpr h0) (fun h => h1 ((condLast_iff ⟨n + 1, hn⟩).mp h)) (iblk m c 0 ⟨n + 1, hn⟩) (iblk m c 1 ⟨n + 1, hn⟩) (iblk m c 2 ⟨n + 1, hn⟩) (iblk m c 3 ⟨n + 1, hn⟩)
    else
      if h1 : (n + 1) % 4 = 3 then
        stC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) sc0 (Memref.isWhole_whole _) sc1 (Memref.isWhole_whole _) sc2 (Memref.isWhole_whole _) sc3 (Memref.isWhole_whole _) sc4 (Memref.isWhole_whole _) sc5 (Memref.isWhole_whole _) (fun h => h0 ((condFirst_iff ⟨n + 1, hn⟩).mp h)) ((condLast_iff ⟨n + 1, hn⟩).mpr h1) (iblk m c 0 ⟨n + 1, hn⟩) (iblk m c 1 ⟨n + 1, hn⟩) (iblk m c 2 ⟨n + 1, hn⟩) (iblk m c 3 ⟨n + 1, hn⟩) (stAt c n (Nat.lt_of_succ_lt hn)).s0 (stAt c n (Nat.lt_of_succ_lt hn)).s1 (stAt c n (Nat.lt_of_succ_lt hn)).s2 (stAt c n (Nat.lt_of_succ_lt hn)).s3 (stAt c n (Nat.lt_of_succ_lt hn)).s4 (stAt c n (Nat.lt_of_succ_lt hn)).s5
      else
        stB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) sc0 (Memref.isWhole_whole _) sc1 (Memref.isWhole_whole _) sc2 (Memref.isWhole_whole _) sc3 (Memref.isWhole_whole _) sc4 (Memref.isWhole_whole _) sc5 (Memref.isWhole_whole _) (fun h => h0 ((condFirst_iff ⟨n + 1, hn⟩).mp h)) (fun h => h1 ((condLast_iff ⟨n + 1, hn⟩).mp h)) (iblk m c 0 ⟨n + 1, hn⟩) (iblk m c 1 ⟨n + 1, hn⟩) (iblk m c 2 ⟨n + 1, hn⟩) (iblk m c 3 ⟨n + 1, hn⟩) (stAt c n (Nat.lt_of_succ_lt hn)).s0 (stAt c n (Nat.lt_of_succ_lt hn)).s1 (stAt c n (Nat.lt_of_succ_lt hn)).s2 (stAt c n (Nat.lt_of_succ_lt hn)).s3 (stAt c n (Nat.lt_of_succ_lt hn)).s4 (stAt c n (Nat.lt_of_succ_lt hn)).s5

/-- `stAt` at a first chunk. -/
theorem stAt_A (c : Dev nD) (t : Fin cfg0.N) (h0 : t.val % 4 = 0) (h1 : ¬t.val % 4 = 3) :
    stAt m c t.val t.isLt = stA c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _) sc4 (Memref.isWhole_whole _) sc5 (Memref.isWhole_whole _) ((condFirst_iff t).mpr h0) (fun h => h1 ((condLast_iff t).mp h)) (iblk m c 0 t) (iblk m c 1 t) (iblk m c 2 t) (iblk m c 3 t) := by
  obtain ⟨n, hn⟩ := t
  cases n with
  | zero => exact rfl
  | succ n => exact (dif_pos h0).trans ((dif_neg h1).trans rfl)

/-- `stAt` at a middle chunk: over what the point before left. -/
theorem stAt_B (c : Dev nD) (t : Fin cfg0.N) (h0 : ¬t.val % 4 = 0) (h1 : ¬t.val % 4 = 3) :
    stAt m c t.val t.isLt = stB c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _) sc4 (Memref.isWhole_whole _) sc5 (Memref.isWhole_whole _) (fun h => h0 ((condFirst_iff t).mp h)) (fun h => h1 ((condLast_iff t).mp h)) (iblk m c 0 t) (iblk m c 1 t) (iblk m c 2 t) (iblk m c 3 t) (stAt m c (t.val - 1) (Nat.lt_of_le_of_lt (Nat.sub_le _ _) t.isLt)).s0 (stAt m c (t.val - 1) (Nat.lt_of_le_of_lt (Nat.sub_le _ _) t.isLt)).s1 (stAt m c (t.val - 1) (Nat.lt_of_le_of_lt (Nat.sub_le _ _) t.isLt)).s2 (stAt m c (t.val - 1) (Nat.lt_of_le_of_lt (Nat.sub_le _ _) t.isLt)).s3 (stAt m c (t.val - 1) (Nat.lt_of_le_of_lt (Nat.sub_le _ _) t.isLt)).s4 (stAt m c (t.val - 1) (Nat.lt_of_le_of_lt (Nat.sub_le _ _) t.isLt)).s5 := by
  obtain ⟨n, hn⟩ := t
  cases n with
  | zero => exact (by exfalso; (try dsimp only at h0); exact absurd (Nat.zero_mod _) h0)
  | succ n => exact (dif_neg h0).trans ((dif_neg h1).trans rfl)

/-- `stAt` at a last chunk: over what the point before left. -/
theorem stAt_C (c : Dev nD) (t : Fin cfg0.N) (h0 : ¬t.val % 4 = 0) (h1 : t.val % 4 = 3) :
    stAt m c t.val t.isLt = stC c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _) sc4 (Memref.isWhole_whole _) sc5 (Memref.isWhole_whole _) (fun h => h0 ((condFirst_iff t).mp h)) ((condLast_iff t).mpr h1) (iblk m c 0 t) (iblk m c 1 t) (iblk m c 2 t) (iblk m c 3 t) (stAt m c (t.val - 1) (Nat.lt_of_le_of_lt (Nat.sub_le _ _) t.isLt)).s0 (stAt m c (t.val - 1) (Nat.lt_of_le_of_lt (Nat.sub_le _ _) t.isLt)).s1 (stAt m c (t.val - 1) (Nat.lt_of_le_of_lt (Nat.sub_le _ _) t.isLt)).s2 (stAt m c (t.val - 1) (Nat.lt_of_le_of_lt (Nat.sub_le _ _) t.isLt)).s3 (stAt m c (t.val - 1) (Nat.lt_of_le_of_lt (Nat.sub_le _ _) t.isLt)).s4 (stAt m c (t.val - 1) (Nat.lt_of_le_of_lt (Nat.sub_le _ _) t.isLt)).s5 := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The six accumulators at some contents each: what the launch hands the region and takes back. -/
theorem scopedRest_accs (c : Dev nD) :
    (Pipeline.scopedRest (Ix := Unit) (Name := ℕ) (U := UR sig nD τ) (Lvl := ℕ) (Val := Elt F) spec0 c : sProp 𝕄)
      = iprop((∃ d, owns (c : Thread nD τ) sc0 fullShare d) ∗ (∃ d, owns (c : Thread nD τ) sc1 fullShare d) ∗ (∃ d, owns (c : Thread nD τ) sc2 fullShare d)
          ∗ (∃ d, owns (c : Thread nD τ) sc3 fullShare d) ∗ (∃ d, owns (c : Thread nD τ) sc4 fullShare d) ∗ (∃ d, owns (c : Thread nD τ) sc5 fullShare d)) := by
  rw [scopedRest0_eq]; simp only [sc0, sc1, sc2, sc3, sc4, sc5, owns_whole]; try rfl

/-- The invariant before position `n`: before the first point the accumulators at anything; afterwards each at
    what the point before left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) sc0 fullShare (stAt m c n hn).s0 ∗ owns (c : Thread nD τ) sc1 fullShare (stAt m c n hn).s1
      ∗ owns (c : Thread nD τ) sc2 fullShare (stAt m c n hn).s2 ∗ owns (c : Thread nD τ) sc3 fullShare (stAt m c n hn).s3
      ∗ owns (c : Thread nD τ) sc4 fullShare (stAt m c n hn).s4 ∗ owns (c : Thread nD τ) sc5 fullShare (stAt m c n hn).s5)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) sc0 fullShare (stAt m c n hn).s0 ∗ owns (c : Thread nD τ) sc1 fullShare (stAt m c n hn).s1
      ∗ owns (c : Thread nD τ) sc2 fullShare (stAt m c n hn).s2 ∗ owns (c : Thread nD τ) sc3 fullShare (stAt m c n hn).s3
      ∗ owns (c : Thread nD τ) sc4 fullShare (stAt m c n hn).s4 ∗ owns (c : Thread nD τ) sc5 fullShare (stAt m c n hn).s5) := rfl

theorem PhiS_pos (c : Dev nD) (n : ℕ) (h : n ≤ cfg0.N) (hz : n ≠ 0) :
    PhiS m c n h = iprop(owns (c : Thread nD τ) sc0 fullShare (stAt m c (n - 1) (by omega)).s0 ∗ owns (c : Thread nD τ) sc1 fullShare (stAt m c (n - 1) (by omega)).s1
      ∗ owns (c : Thread nD τ) sc2 fullShare (stAt m c (n - 1) (by omega)).s2 ∗ owns (c : Thread nD τ) sc3 fullShare (stAt m c (n - 1) (by omega)).s3
      ∗ owns (c : Thread nD τ) sc4 fullShare (stAt m c (n - 1) (by omega)).s4 ∗ owns (c : Thread nD τ) sc5 fullShare (stAt m c (n - 1) (by omega)).s5) := by
  cases n with
  | zero => exact absurd rfl hz
  | succ n => rfl

/-! ## The pipeline's proof data -/

/-- The proof data on core `c`: the arrays as the region finds them; after the body at point `t` each input's
    buffer at its block and the results' at `stAt`; the invariant `PhiS`; each argument's share dealt in
    halves between the two windows that read it; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (stAt m c t.val t.isLt).o4
    | ⟨5, _⟩ => (stAt m c t.val t.isLt).o5
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (stAt m c t.val t.isLt).o4 := by dsimp only [dats]
theorem after5 (c : Dev nD) (t : Fin cfg0.N) : (dats m 0 c).after 5 t = (stAt m c t.val t.isLt).o5 := by dsimp only [dats]

/-- Every input window is fetched at every point: its staging buffer holds its block when the body runs. -/
theorem before0 (c : Dev nD) (t : Fin cfg0.N) (d) : (dats m 0 c).before 0 t d = iblk m c 0 t := by
  unfold Dat.before; rw [if_pos (fetch0_0 t)]; rfl
theorem before1 (c : Dev nD) (t : Fin cfg0.N) (d) : (dats m 0 c).before 1 t d = iblk m c 1 t := by
  unfold Dat.before; rw [if_pos (fetch0_1 t)]; rfl
theorem before2 (c : Dev nD) (t : Fin cfg0.N) (d) : (dats m 0 c).before 2 t d = iblk m c 2 t := by
  unfold Dat.before; rw [if_pos (fetch0_2 t)]; rfl
theorem before3 (c : Dev nD) (t : Fin cfg0.N) (d) : (dats m 0 c).before 3 t d = iblk m c 3 t := by
  unfold Dat.before; rw [if_pos (fetch0_3 t)]; rfl

end Cert.Kernel.Hand

end
-- ==== Proof.Kernel.Body0.lean ====
/-
  What the body is called with at a grid point, and what it returns.
-/
import proofs.«140321_j78700980732218_2_alg».proof.Proof.Kernel.Points

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

end Cert.Kernel.Hand

end
-- ==== Proof.Kernel.BodyA0.lean ====
/-
  The body obligation at the very first grid point.
-/
import proofs.«140321_j78700980732218_2_alg».proof.Proof.Kernel.Body0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at the very first point: a first column chunk, the accumulators found at anything. -/
theorem sound_body_first0 (c : Dev nD) (t : Fin cfg0.N) (h0 : t.val % 4 = 0) (h1 : ¬t.val % 4 = 3) (hz : t.val = 0) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [Dat.leavesExact_idle (dats m 0 c) 4 t (idle4 t (fun h => h1 ((condLast_iff t).mp h))) (noFlush4 t (fun h => h1 ((condLast_iff t).mp h)))]
  rw [Dat.leavesExact_idle (dats m 0 c) 5 t (idle5 t (fun h => h1 ((condLast_iff t).mp h))) (noFlush5 t (fun h => h1 ((condLast_iff t).mp h)))]
  rw [stAt_A m c t h0 h1]
  unfold stA; (try dsimp only)
  rw [PhiS_castSucc m c t, PhiS_zero m c _ _ hz, scopedRest_accs]
  iintro ⟨⟨HS0, HS1, HS2, HS3, HS4, HS5⟩, Ho, ⟨%d0, H0⟩, ⟨%d1, H1⟩, ⟨%d2, H2⟩, ⟨%d3, H3⟩, ⟨%d4, H4⟩, ⟨%d5, H5⟩⟩
  iapply ((bodyRunA c (grid0.coords t) _ _ _ _ _ _ _ _ _ _ _ _ _ _ _ _ _ _ _ _ _ _ _ _ ((condFirst_iff t).mpr h0) (fun h => h1 ((condLast_iff t).mp h)) (iblk m c 0 t) (iblk m c 1 t) (iblk m c 2 t) (iblk m c 3 t)).2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, ⟨%es0, HS0⟩, ⟨%es1, HS1⟩, ⟨%es2, HS2⟩, ⟨%es3, HS3⟩, ⟨%es4, HS4⟩, ⟨%es5, HS5⟩⟩
  isplitl [HS0 HS1 HS2 HS3 HS4 HS5]
  · isplitl [HS0]
    · unfold owns; iexists _; isplitr
      swap; · iexact HS0
      ipureintro; exact View.read_writes_of_cover _ _ _ _ _ (coverA_s0 c _ _ _ _ _ _ _ _ _ _ _ _ _ _ _ _ _ _ _ _ _ _ _ _ _ _ _ _ _ _ _)
    isplitl [HS1]
    · unfold owns; iexists _; isplitr
      swap; · iexact HS1
      ipureintro; exact View.read_writes_of_cover _ _ _ _ _ (coverA_s1 c _ _ _ _ _ _ _ _ _ _ _ _ _ _ _ _ _ _ _ _ _ _ _ _ _ _ _ _ _ _ _)
    isplitl [HS2]
    · unfold owns; iexists _; isplitr
      swap; · iexact HS2
      ipureintro; exact View.read_writes_of_cover _ _ _ _ _ (coverA_s2 c _ _ _ _ _ _ _ _ _ _ _ _ _ _ _ _ _ _ _ _ _ _ _ _ _ _ _ _ _ _ _)
    isplitl [HS3]
    · unfold owns; iexists _; isplitr
      swap; · iexact HS3
      ipureintro; exact View.read_writes_of_cover _ _ _ _ _ (coverA_s3 c _ _ _ _ _ _ _ _ _ _ _ _ _ _ _ _ _ _ _ _ _ _ _ _ _ _ _ _ _ _ _)
    isplitl [HS4]
    · unfold owns; iexists _; isplitr
      swap; · iexact HS4
      ipureintro; exact View.read_writes_of_cover _ _ _ _ _ (coverA_s4 c _ _ _ _ _ _ _ _ _ _ _ _ _ _ _ _ _ _ _ _ _ _ _ _ _ _ _ _ _ _ _)
    unfold owns; iexists _; isplitr
    swap; · iexact HS5
    ipureintro; exact View.read_writes_of_cover _ _ _ _ _ (coverA_s5 c _ _ _ _ _ _ _ _ _ _ _ _ _ _ _ _ _ _ _ _ _ _ _ _ _ _ _ _ _ _ _)
  isplitl [Ho]; · iexact Ho
  isplitl [H0]; · iexact H0
  isplitl [H1]; · iexact H1
  isplitl [H2]; · iexact H2
  isplitl [H3]; · iexact H3
  isplitl [H4]; · iexists _; iexact H4
  iexists _; iexact H5

end Cert.Kernel.Hand

end
-- ==== Proof.Kernel.BodyA1.lean ====
/-
  The body obligation at a later first column chunk.
-/
import proofs.«140321_j78700980732218_2_alg».proof.Proof.Kernel.Body0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at a later first column chunk: the accumulators found at what the point before left, cleared and added to. -/
theorem sound_body_first (c : Dev nD) (t : Fin cfg0.N) (h0 : t.val % 4 = 0) (h1 : ¬t.val % 4 = 3) (hz : ¬t.val = 0) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [Dat.leavesExact_idle (dats m 0 c) 4 t (idle4 t (fun h => h1 ((condLast_iff t).mp h))) (noFlush4 t (fun h => h1 ((condLast_iff t).mp h)))]
  rw [Dat.leavesExact_idle (dats m 0 c) 5 t (idle5 t (fun h => h1 ((condLast_iff t).mp h))) (noFlush5 t (fun h => h1 ((condLast_iff t).mp h)))]
  rw [stAt_A m c t h0 h1]
  unfold stA; (try dsimp only)
  rw [PhiS_castSucc m c t, PhiS_pos m c _ _ hz]
  iintro ⟨⟨HS0, HS1, HS2, HS3, HS4, HS5⟩, Ho, ⟨%d0, H0⟩, ⟨%d1, H1⟩, ⟨%d2, H2⟩, ⟨%d3, H3⟩, ⟨%d4, H4⟩, ⟨%d5, H5⟩⟩
  iapply ((bodyRunA c (grid0.coords t) _ _ _ _ _ _ _ _ _ _ _ _ _ _ _ _ _ _ _ _ _ _ _ _ ((condFirst_iff t).mpr h0) (fun h => h1 ((condLast_iff t).mp h)) (iblk m c 0 t) (iblk m c 1 t) (iblk m c 2 t) (iblk m c 3 t)).2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexists _; iexact HS0
  isplitl [HS1]; · iexists _; iexact HS1
  isplitl [HS2]; · iexists _; iexact HS2
  isplitl [HS3]; · iexists _; iexact HS3
  isplitl [HS4]; · iexists _; iexact HS4
  isplitl [HS5]; · iexists _; iexact HS5
  iintro ⟨H0, H1, H2, H3, H4, H5, ⟨%es0, HS0⟩, ⟨%es1, HS1⟩, ⟨%es2, HS2⟩, ⟨%es3, HS3⟩, ⟨%es4, HS4⟩, ⟨%es5, HS5⟩⟩
  isplitl [HS0 HS1 HS2 HS3 HS4 HS5]
  · isplitl [HS0]
    · unfold owns; iexists _; isplitr
      swap; · iexact HS0
      ipureintro; exact View.read_writes_of_cover _ _ _ _ _ (coverA_s0 c _ _ _ _ _ _ _ _ _ _ _ _ _ _ _ _ _ _ _ _ _ _ _ _ _ _ _ _ _ _ _)
    isplitl [HS1]
    · unfold owns; iexists _; isplitr
      swap; · iexact HS1
      ipureintro; exact View.read_writes_of_cover _ _ _ _ _ (coverA_s1 c _ _ _ _ _ _ _ _ _ _ _ _ _ _ _ _ _ _ _ _ _ _ _ _ _ _ _ _ _ _ _)
    isplitl [HS2]
    · unfold owns; iexists _; isplitr
      swap; · iexact HS2
      ipureintro; exact View.read_writes_of_cover _ _ _ _ _ (coverA_s2 c _ _ _ _ _ _ _ _ _ _ _ _ _ _ _ _ _ _ _ _ _ _ _ _ _ _ _ _ _ _ _)
    isplitl [HS3]
    · unfold owns; iexists _; isplitr
      swap; · iexact HS3
      ipureintro; exact View.read_writes_of_cover _ _ _ _ _ (coverA_s3 c _ _ _ _ _ _ _ _ _ _ _ _ _ _ _ _ _ _ _ _ _ _ _ _ _ _ _ _ _ _ _)
    isplitl [HS4]
    · unfold owns; iexists _; isplitr
      swap; · iexact HS4
      ipureintro; exact View.read_writes_of_cover _ _ _ _ _ (coverA_s4 c _ _ _ _ _ _ _ _ _ _ _ _ _ _ _ _ _ _ _ _ _ _ _ _ _ _ _ _ _ _ _)
    unfold owns; iexists _; isplitr
    swap; · iexact HS5
    ipureintro; exact View.read_writes_of_cover _ _ _ _ _ (coverA_s5 c _ _ _ _ _ _ _ _ _ _ _ _ _ _ _ _ _ _ _ _ _ _ _ _ _ _ _ _ _ _ _)
  isplitl [Ho]; · iexact Ho
  isplitl [H0]; · iexact H0
  isplitl [H1]; · iexact H1
  isplitl [H2]; · iexact H2
  isplitl [H3]; · iexact H3
  isplitl [H4]; · iexists _; iexact H4
  iexists _; iexact H5

end Cert.Kernel.Hand

end
-- ==== Proof.Kernel.BodyB.lean ====
/-
  The body obligation at a middle column chunk.
-/
import proofs.«140321_j78700980732218_2_alg».proof.Proof.Kernel.Body0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at a middle column chunk: the accumulators added to, the result blocks handed back untouched. -/
theorem sound_body_middle (c : Dev nD) (t : Fin cfg0.N) (h0 : ¬t.val % 4 = 0) (h1 : ¬t.val % 4 = 3) (hz : ¬t.val = 0) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [Dat.leavesExact_idle (dats m 0 c) 4 t (idle4 t (fun h => h1 ((condLast_iff t).mp h))) (noFlush4 t (fun h => h1 ((condLast_iff t).mp h)))]
  rw [Dat.leavesExact_idle (dats m 0 c) 5 t (idle5 t (fun h => h1 ((condLast_iff t).mp h))) (noFlush5 t (fun h => h1 ((condLast_iff t).mp h)))]
  rw [stAt_B m c t h0 h1]
  unfold stB; (try dsimp only)
  rw [PhiS_castSucc m c t, PhiS_pos m c _ _ hz]
  iintro ⟨⟨HS0, HS1, HS2, HS3, HS4, HS5⟩, Ho, ⟨%d0, H0⟩, ⟨%d1, H1⟩, ⟨%d2, H2⟩, ⟨%d3, H3⟩, ⟨%d4, H4⟩, ⟨%d5, H5⟩⟩
  iapply ((bodyRunB c (grid0.coords t) _ _ _ _ _ _ _ _ _ _ _ _ _ _ _ _ _ _ _ _ _ _ _ _ (fun h => h0 ((condFirst_iff t).mp h)) (fun h => h1 ((condLast_iff t).mp h)) (iblk m c 0 t) (iblk m c 1 t) (iblk m c 2 t) (iblk m c 3 t) _ _ _ _ _ _).2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, ⟨%es0, HS0⟩, ⟨%es1, HS1⟩, ⟨%es2, HS2⟩, ⟨%es3, HS3⟩, ⟨%es4, HS4⟩, ⟨%es5, HS5⟩⟩
  isplitl [HS0 HS1 HS2 HS3 HS4 HS5]
  · isplitl [HS0]
    · unfold owns; iexists _; isplitr
      swap; · iexact HS0
      ipureintro; exact View.read_writes_of_cover _ _ _ _ _ (coverB_s0 c _ _ _ _ _ _ _ _ _ _ _ _ _ _ _ _ _ _ _ _ _ _ _ _ _ _ _ _ _ _ _ _ _ _ _ _ _)
    isplitl [HS1]
    · unfold owns; iexists _; isplitr
      swap; · iexact HS1
      ipureintro; exact View.read_writes_of_cover _ _ _ _ _ (coverB_s1 c _ _ _ _ _ _ _ _ _ _ _ _ _ _ _ _ _ _ _ _ _ _ _ _ _ _ _ _ _ _ _ _ _ _ _ _ _)
    isplitl [HS2]
    · unfold owns; iexists _; isplitr
      swap; · iexact HS2
      ipureintro; exact View.read_writes_of_cover _ _ _ _ _ (coverB_s2 c _ _ _ _ _ _ _ _ _ _ _ _ _ _ _ _ _ _ _ _ _ _ _ _ _ _ _ _ _ _ _ _ _ _ _ _ _)
    isplitl [HS3]
    · unfold owns; iexists _; isplitr
      swap; · iexact HS3
      ipureintro; exact View.read_writes_of_cover _ _ _ _ _ (coverB_s3 c _ _ _ _ _ _ _ _ _ _ _ _ _ _ _ _ _ _ _ _ _ _ _ _ _ _ _ _ _ _ _ _ _ _ _ _ _)
    isplitl [HS4]
    · unfold owns; iexists _; isplitr
      swap; · iexact HS4
      ipureintro; exact View.read_writes_of_cover _ _ _ _ _ (coverB_s4 c _ _ _ _ _ _ _ _ _ _ _ _ _ _ _ _ _ _ _ _ _ _ _ _ _ _ _ _ _ _ _ _ _ _ _ _ _)
    unfold owns; iexists _; isplitr
    swap; · iexact HS5
    ipureintro; exact View.read_writes_of_cover _ _ _ _ _ (coverB_s5 c _ _ _ _ _ _ _ _ _ _ _ _ _ _ _ _ _ _ _ _ _ _ _ _ _ _ _ _ _ _ _ _ _ _ _ _ _)
  isplitl [Ho]; · iexact Ho
  isplitl [H0]; · iexact H0
  isplitl [H1]; · iexact H1
  isplitl [H2]; · iexact H2
  isplitl [H3]; · iexact H3
  isplitl [H4]; · iexists _; iexact H4
  iexists _; iexact H5

end Cert.Kernel.Hand

end
-- ==== Proof.Kernel.BodyC.lean ====
/-
  The body obligation at a last column chunk.
-/
import proofs.«140321_j78700980732218_2_alg».proof.Proof.Kernel.Body0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at a last column chunk: the accumulators added to one last time and the two result blocks written. -/
theorem sound_body_last (c : Dev nD) (t : Fin cfg0.N) (h0 : ¬t.val % 4 = 0) (h1 : t.val % 4 = 3) (hz : ¬t.val = 0) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t ((condLast_iff t).mpr h1)], after4]
  rw [show (dats m 0 c).leavesExact 5 t = owns (c : Thread nD τ) (ms5 t) fullShare ((dats m 0 c).after 5 t) from by
    unfold Dat.leavesExact; rw [live5 t ((condLast_iff t).mpr h1)], after5]
  rw [stAt_C m c t h0 h1]
  unfold stC; (try dsimp only)
  rw [PhiS_castSucc m c t, PhiS_pos m c _ _ hz]
  iintro ⟨⟨HS0, HS1, HS2, HS3, HS4, HS5⟩, Ho, ⟨%d0, H0⟩, ⟨%d1, H1⟩, ⟨%d2, H2⟩, ⟨%d3, H3⟩, ⟨%d4, H4⟩, ⟨%d5, H5⟩⟩
  iapply ((bodyRunC c (grid0.coords t) _ _ _ _ _ _ _ _ _ _ _ _ _ _ _ _ _ _ _ _ _ _ _ _ (fun h => h0 ((condFirst_iff t).mp h)) ((condLast_iff t).mpr h1) (iblk m c 0 t) (iblk m c 1 t) (iblk m c 2 t) (iblk m c 3 t) _ _ _ _ _ _).2.2.2.2.2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, ⟨%e4, H4⟩, ⟨%e5, H5⟩, ⟨%es0, HS0⟩, ⟨%es1, HS1⟩, ⟨%es2, HS2⟩, ⟨%es3, HS3⟩, ⟨%es4, HS4⟩, ⟨%es5, HS5⟩⟩
  isplitl [HS0 HS1 HS2 HS3 HS4 HS5]
  · isplitl [HS0]
    · unfold owns; iexists _; isplitr
      swap; · iexact HS0
      ipureintro; exact View.read_writes_of_cover _ _ _ _ _ (coverC_s0 c _ _ _ _ _ _ _ _ _ _ _ _ _ _ _ _ _ _ _ _ _ _ _ _ _ _ _ _ _ _ _ _ _ _ _ _ _)
    isplitl [HS1]
    · unfold owns; iexists _; isplitr
      swap; · iexact HS1
      ipureintro; exact View.read_writes_of_cover _ _ _ _ _ (coverC_s1 c _ _ _ _ _ _ _ _ _ _ _ _ _ _ _ _ _ _ _ _ _ _ _ _ _ _ _ _ _ _ _ _ _ _ _ _ _)
    isplitl [HS2]
    · unfold owns; iexists _; isplitr
      swap; · iexact HS2
      ipureintro; exact View.read_writes_of_cover _ _ _ _ _ (coverC_s2 c _ _ _ _ _ _ _ _ _ _ _ _ _ _ _ _ _ _ _ _ _ _ _ _ _ _ _ _ _ _ _ _ _ _ _ _ _)
    isplitl [HS3]
    · unfold owns; iexists _; isplitr
      swap; · iexact HS3
      ipureintro; exact View.read_writes_of_cover _ _ _ _ _ (coverC_s3 c _ _ _ _ _ _ _ _ _ _ _ _ _ _ _ _ _ _ _ _ _ _ _ _ _ _ _ _ _ _ _ _ _ _ _ _ _)
    isplitl [HS4]
    · unfold owns; iexists _; isplitr
      swap; · iexact HS4
      ipureintro; exact View.read_writes_of_cover _ _ _ _ _ (coverC_s4 c _ _ _ _ _ _ _ _ _ _ _ _ _ _ _ _ _ _ _ _ _ _ _ _ _ _ _ _ _ _ _ _ _ _ _ _ _)
    unfold owns; iexists _; isplitr
    swap; · iexact HS5
    ipureintro; exact View.read_writes_of_cover _ _ _ _ _ (coverC_s5 c _ _ _ _ _ _ _ _ _ _ _ _ _ _ _ _ _ _ _ _ _ _ _ _ _ _ _ _ _ _ _ _ _ _ _ _ _)
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (coverC_o4 c _ _ _ _ _ _ _ _ _ _ _ _ _ _ _ _ _ _ _ _ _ _ _ _ _ _ _ _ _ _ _ _ _ _ _ _ _)
  unfold owns; iexists _; isplitr
  swap; · iexact H5
  ipureintro; exact View.read_writes_of_cover _ _ _ _ _ (coverC_o5 c _ _ _ _ _ _ _ _ _ _ _ _ _ _ _ _ _ _ _ _ _ _ _ _ _ _ _ _ _ _ _ _ _ _ _ _ _)

end Cert.Kernel.Hand

end
-- ==== Proof.Kernel.Body.lean ====
/-
  The body obligation at every grid point, by cases on the two branch conditions.
-/
import proofs.«140321_j78700980732218_2_alg».proof.Proof.Kernel.BodyA0
import proofs.«140321_j78700980732218_2_alg».proof.Proof.Kernel.BodyA1
import proofs.«140321_j78700980732218_2_alg».proof.Proof.Kernel.BodyB
import proofs.«140321_j78700980732218_2_alg».proof.Proof.Kernel.BodyC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point: the closed forms say which of the cases the point is in. -/
theorem sound_body (c : Dev nD) (t : Fin cfg0.N) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  by_cases h0 : t.val % 4 = 0
  · have h1 : ¬t.val % 4 = 3 := by omega
    by_cases hz : t.val = 0
    · exact sound_body_first0 m c t h0 h1 hz
    · exact sound_body_first m c t h0 h1 hz
  · have hz : ¬t.val = 0 := by omega
    by_cases h1 : t.val % 4 = 3
    · exact sound_body_last m c t h0 h1 hz
    · exact sound_body_middle m c t h0 h1 hz

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.scopedRest (Ix := Unit) (Name := ℕ) (U := UR sig nD τ) (Lvl := ℕ) (Val := Elt F) spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the accumulators back, their contents forgotten. -/
theorem hout (c : Dev nD) : (dats m 0 c).Φ (Fin.last cfg0.N) ⊢ Pipeline.scopedRest (Ix := Unit) (Name := ℕ) (U := UR sig nD τ) (Lvl := ℕ) (Val := Elt F) spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 8 := N_0; omega), scopedRest_accs]
  iintro ⟨HS0, HS1, HS2, HS3, HS4, HS5⟩
  isplitl [HS0]; · iexists _; iexact HS0
  isplitl [HS1]; · iexists _; iexact HS1
  isplitl [HS2]; · iexists _; iexact HS2
  isplitl [HS3]; · iexists _; iexact HS3
  isplitl [HS4]; · iexists _; iexact HS4
  iexists _; iexact HS5

end Cert.Kernel.Hand

end
-- ==== Proof.Kernel.Run.lean ====
/-
  The run of @main: the kernel region, entered from the launch contents and left with the two result
  arrays written, then the thirteen host operations on what the region left; every weakly fair
  execution terminates without a fault, the arguments end unchanged, and every unscoped buffer —
  the result among them — ends at the operations' value of the region's two result arrays.
-/
import proofs.«140321_j78700980732218_2_alg».proof.Proof.Kernel.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as two segments: the region, then the thirteen host operations -/

/-- The host operations after the region allocate nothing. -/
theorem hostOps1_fresh : ∀ op ∈ (hostOps1 : List (HloOp τ sig (Elt F))), op.fresh = ∅ := by
  intro _ h; (repeat (cases h with | head => rfl | tail _ h => ?_)); exact nomatch h

/-- THE HOST SEGMENT: the thirteen operations over the unscoped buffers, from the contents the region leaves. -/
def seg1 : Pipeline.HostSeg (Name := ℕ) (U := UR sig nD τ) (pcfgs (F := F)) defs₀ Variants.none L lv :=
  Pipeline.HostSeg.ofOps _ _ _ _ _ (Pipeline.ucRefs τ sig) hostOps1
    (fun op h => Pipeline.sub_ucRefs op ((List.forall_iff_forall_mem.mp hostOps1_sub) op h)) hostOps1_fresh (Wn m (dats m)) R

/-- What is left at the end: every unscoped buffer at the contents after the host operations. -/
abbrev Tn (c : Dev nD) : sProp 𝕄 :=
  StableHlo.held (c : Thread nD τ) (Pipeline.ucRefs τ sig) (StableHlo.after hostOps1 (Wn m (dats m) c))

set_option backward.isDefEq.respectTransparency.types false in
/-- THE REGION: entered from the launch contents — each argument's points-to dealt in halves to the two windows
    that read it, the accumulators into the invariant, the other buffers bypassing —, left with the halves joined
    again and the two result arrays as the pipeline wrote them. -/
def reg0 : Pipeline.RegionSeg (pcfgs (F := F)) adm (dats m) () defs₀ Variants.none L lv 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (Wn m (dats m) c) ∗ R c)
  X c := iprop(emp)
  Y c := iprop(emp)
  Z c := Pipeline.unscopedRest spec0 c (V m c)
  hentry c := by
    rw [show StableHlo.held (c : Thread nD τ) (Pipeline.ucRefs τ sig) (W0 m c) = unscopedBufs c (V m c) from (Pipeline.unscopedBufs_held c _).symm]
    have hsplit := entry_arrays m (dats m) (A_eq m) (fun _ => rfl) (fun _ => rfl) (fun _ => rfl) (fun _ => rfl) c
    iintro ⟨⟨Hub, HO⟩, -, -⟩
    ihave H := hsplit $$ Hub
    icases H with ⟨Ha, HZ⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact HZ
  hin c := by
    iintro ⟨-, -, Hr⟩
    iapply (hin m c); iexact Hr
  hout c := by
    rw [Pipeline.ownSems0_none nD τ sig (Elt F) Unit ℕ (UR sig nD τ) ℕ c]
    refine (hout m c).trans ?_
    iintro Hr
    isplitr; · iempintro
    isplitr; · iempintro
    iexact Hr
  hexit c := by
    have hx := exit_held m (dats m) (A_eq m) (fun _ => rfl) (fun _ => rfl) (fun _ => rfl) (fun _ => rfl) c
    iintro ⟨Ha, HO, -, HZ⟩
    imodintro
    isplitr [HO]
    · iapply hx; isplitl [Ha]; · iexact Ha
      iexact HZ
    · unfold Pipeline.Dat.owesAt Pipeline.owesWithin
      icases HO with ⟨%W, -, HO⟩; iexists W; iexact HO

/-- @main as the list of the two. -/
abbrev segs : List (Pipeline.Seg (pcfgs (F := F)) adm (dats m) () defs₀ Variants.none L lv) := [.region (reg0 m), .host (seg1 m)]

/-- The launch element: the pipeline library's at the staging cells. -/
def u₀ : UR sig nD τ := initOf (Pipeline.cells cfgs cellOf_inj) (Pipeline.launchToks cfgs cellOf_inj)

/-- The final state: every unscoped buffer of every core at the contents after the host operations. -/
def QC : PUnit × MemSt nD τ sig (Elt F) → Prop := fun r =>
  ∀ c : Dev nD, ∀ b ∈ Pipeline.ucRefs τ sig, r.2.mem (c, b) = StableHlo.after hostOps1 (Wn m (dats m) c) b

set_option backward.isDefEq.respectTransparency.types false in
/-- At the compiled mesh, at any float instance, from any memory with zero counters: every weakly fair execution
    of @main terminates, nothing faulting, and every unscoped buffer ends at the contents the thirteen host
    operations compute from the launch contents with the two result arrays as the pipeline wrote them. -/
theorem run_main : θ_run defs (onTc (τ := τ) (main (F := F))) (s₀ m ρ) (QC m) :=
  Pipeline.θ_run_regions_kit (pcfgs (F := F)) adm (dats m) () cellOf_inj EP defs₀ Variants.none L lv m ρ main (segs m)
    (fun c Q => by rw [main_segs adm (dats m) () Variants.none L lv (seg1 m) (reg0 m) rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tn m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c) from Pipeline.unscopedBufs_held c (W0 m c)]
      iintro ⟨⟨Hh, -, HO, -, -, -⟩, -⟩
      imodintro
      isplitl [Hh]; · iexact Hh
      iexists ∅; iexact HO)
    (QY := fun c s => ∀ b ∈ Pipeline.ucRefs τ sig, s.mem (c, b) = StableHlo.after hostOps1 (Wn m (dats m) c) b)
    (hfin := fun c s' => by
      dsimp only [Tn]; unfold StableHlo.held
      iintro ⟨Hh, HSI⟩
      ihave Hr := (pointsTo_read_all (Pipeline.ucRefs τ sig) (fun b => ((c : Thread nD τ).1, b)) (fun b => StableHlo.after hostOps1 (Wn m (dats m) c) b) s') $$ [Hh HSI]
      · isplitl [Hh] <;> iassumption
      icases Hr with ⟨%ha, HSI⟩
      imodintro
      isplitr; · ipureintro; exact ha
      iexact HSI)
    (hQ := fun _ h => h)

/-! ## What the run says of the arguments and of the result -/

/-- No host operation after the region writes an argument, and the region leaves the arguments as launched. -/
theorem kept (b : Ref sig .tc) (hb : b ≠ main_v1 ∧ b ≠ main_cst ∧ b ≠ main_v2 ∧ b ≠ main_v3 ∧ b ≠ main_v4 ∧ b ≠ main_v5 ∧ b ≠ main_cst_0 ∧ b ≠ main_v6 ∧ b ≠ main_v7 ∧ b ≠ main_c ∧ b ≠ main_v8 ∧ b ≠ main_v9 ∧ b ≠ main_v10)
    (h0 : b ≠ main_v0_0) (h1 : b ≠ main_v0_1) (c : Dev nD) :
    StableHlo.after hostOps1 (Wn m (dats m) c) (Proc.devRef .tc b) = m ((c : Thread nD τ).loc b) := by
  obtain ⟨g1, g2, g3, g4, g5, g6, g7, g8, g9, g10, g11, g12, g13⟩ := hb
  rw [StableHlo.after_of_forall_not_mem (b := Proc.devRef .tc b) hostOps1 _ (by
    intro op hop
    simp only [List.mem_cons, List.mem_nil_iff, or_false] at hop
    rcases hop with rfl | rfl | rfl | rfl | rfl | rfl | rfl | rfl | rfl | rfl | rfl | rfl | rfl <;>
      simp only [StableHlo.unary_writes, StableHlo.binary_writes, StableHlo.nullary_writes, StableHlo.reshape_writes, Finset.mem_singleton] <;>
      exact StableHlo.devRef_ne_of_ne ‹_›), Wn_of_ne m (dats m) c b h0 h1]

/-- THE FRAME: @main runs, nothing faulting, and both argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (Finset.mem_filter.mpr ⟨StableHlo.devRef_mem_tcRefs main_arg0, by decide⟩)).trans (kept m main_arg0 (by decide) (by decide) (by decide) c),
     (h c _ (Finset.mem_filter.mpr ⟨StableHlo.devRef_mem_tcRefs main_arg1, by decide⟩)).trans (kept m main_arg1 (by decide) (by decide) (by decide) c)⟩)
    (run_main m ρ)

end Cert.Kernel.Hand

end
-- ==== Proof.KernelIdeal.Base.lean ====
/-
  The grid of the kernel and its two branch conditions in closed form; at which grid points each
  window is live; and the twelve memrefs the body is called with (four input blocks, two result
  blocks, six accumulators).
-/
import proofs.«140321_j78700980732218_2_alg».proof.Proof.Gen.KernelIdeal.Launch
import proofs.«140321_j78700980732218_2_alg».proof.Proof.Gen.KernelIdeal.Skeleton
import proofs.«140321_j78700980732218_2_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two branch conditions of the body, as functions of the grid point

The grid is 2 × 4: the first coordinate picks a half of the 128 rows, the second walks the four
column chunks. The accumulators are cleared when the second coordinate is 0 and the results are
written when it is 3. -/

/-- "This is the first column chunk": the condition under which the body clears its accumulators. -/
abbrev condFirst (i : grid0.Coords) : Prop :=
  (Scalar.cmpi .ne (Scalar.extui (Scalar.cmpi .eq (BitVec.ofNat 32 (i 1).val) 0#32)) 0#32) = 1#1
/-- It holds exactly at the points ≡ 0 (mod 4). -/
theorem condFirst_iff : ∀ t : Fin cfg0.N, condFirst (grid0.coords t) ↔ t.val % 4 = 0 :=
  (by decide +kernel : ∀ t : Fin grid0.N, condFirst (grid0.coords t) ↔ t.val % 4 = 0)

/-- "This is the last column chunk": the condition under which the body writes its two results. -/
abbrev condLast (i : grid0.Coords) : Prop := k0_cond2 i = 1#1
/-- It holds exactly at the points ≡ 3 (mod 4). -/
theorem condLast_iff : ∀ t : Fin cfg0.N, condLast (grid0.coords t) ↔ t.val % 4 = 3 :=
  (by decide +kernel : ∀ t : Fin grid0.N, condLast (grid0.coords t) ↔ t.val % 4 = 3)

/-! ## Where the windows are live -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Away from the last chunk the two result windows are idle and are not written back. -/
theorem idle4 : ∀ t : Fin cfg0.N, ¬condLast (grid0.coords t) → cfg0.idle 4 (grid0.coords t) = true := by decide +kernel
theorem idle5 : ∀ t : Fin cfg0.N, ¬condLast (grid0.coords t) → cfg0.idle 5 (grid0.coords t) = true := by decide +kernel
theorem noFlush4 : ∀ t : Fin cfg0.N, ¬condLast (grid0.coords t) → (cfg0.win 4).flush t = false := by decide +kernel
theorem noFlush5 : ∀ t : Fin cfg0.N, ¬condLast (grid0.coords t) → (cfg0.win 5).flush t = false := by decide +kernel
/-- At the last chunk they are live. -/
theorem live4 : ∀ t : Fin cfg0.N, condLast (grid0.coords t) → cfg0.idle 4 (grid0.coords t) = false := by decide +kernel
theorem live5 : ∀ t : Fin cfg0.N, condLast (grid0.coords t) → cfg0.idle 5 (grid0.coords t) = false := by decide +kernel

/-! ## The memrefs the body is called with -/

abbrev ms0 (t : Fin cfg0.N) : Memref sig .tc .vmem S1x64x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x64x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x8x128 .f32 := win0_5.stage (cfg0.slots t 5)
abbrev hs5 (t : Fin cfg0.N) : (ms5 t).IsWhole := hstage0_5 ((cfg0.slots t 5).cast nbuf0_5)
/-- The six accumulators: whole scoped buffers of the kernel's own. -/
abbrev sc0 : Memref sig .tc .vmem S64x128 .f32 := Memref.whole cc0_scratch0
abbrev sc1 : Memref sig .tc .vmem S64x128 .f32 := Memref.whole cc0_scratch1
abbrev sc2 : Memref sig .tc .vmem S64x1 .f32 := Memref.whole cc0_scratch2
abbrev sc3 : Memref sig .tc .vmem S64x1 .f32 := Memref.whole cc0_scratch3
abbrev sc4 : Memref sig .tc .vmem S128x1 .f32 := Memref.whole cc0_scratch4
abbrev sc5 : Memref sig .tc .vmem S128x1 .f32 := Memref.whole cc0_scratch5

end Cert.KernelIdeal.Hand

end
-- ==== Proof.KernelIdeal.RunA.lean ====
/-
  The kernel body run at a first column chunk.
-/
import proofs.«140321_j78700980732218_2_alg».proof.Proof.KernelIdeal.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body run at a first column chunk that is not a last one (the accumulators, found at anything, are cleared and then added to; the two result blocks are handed back untouched): what its stores leave in each buffer it writes, as the list of
    stored pieces (last first), together with the proof that from whole memrefs at the stated contents the body
    runs to its continuation with exactly those pieces written. The lists are found by running the body. -/
noncomputable def bodyRunA (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : condFirst i) (hc1 : ¬condLast i)
    (x0 : Vec F S1x64x128 .f32) (x1 : Vec F S1x128x128 .f32) (x2 : Vec F S1x64x128 .f32) (x3 : Vec F S1x128x128 .f32) :
    Σ' (LS0 : List (View.Piece (Elt F) S64x128 .f32)), Σ' (LS1 : List (View.Piece (Elt F) S64x128 .f32)), Σ' (LS2 : List (View.Piece (Elt F) S64x1 .f32)), Σ' (LS3 : List (View.Piece (Elt F) S64x1 .f32)), Σ' (LS4 : List (View.Piece (Elt F) S128x1 .f32)), { LS5 : List (View.Piece (Elt F) S128x1 .f32) //
      ∀ (xi4 : Vec F S64x1 .f32) (xi5 : Vec F S1x8x128 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare xi4
            ∗ owns (c : Thread nD τ) arg7 fullShare xi5
            ∗ (∃ d, owns (c : Thread nD τ) arg8 fullShare d)
            ∗ (∃ d, owns (c : Thread nD τ) arg9 fullShare d)
            ∗ (∃ d, owns (c : Thread nD τ) arg10 fullShare d)
            ∗ (∃ d, owns (c : Thread nD τ) arg11 fullShare d)
            ∗ (∃ d, owns (c : Thread nD τ) arg12 fullShare d)
            ∗ (∃ d, owns (c : Thread nD τ) arg13 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare xi4
                ∗ owns (c : Thread nD τ) arg7 fullShare xi5
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)
                ∗ (∃ f, arg11.view.loc (c : Thread nD τ) ↦[arg11.view.set]{fullShare} arg11.view.writes (Elt F) f LS3)
                ∗ (∃ f, arg12.view.loc (c : Thread nD τ) ↦[arg12.view.set]{fullShare} arg12.view.writes (Elt F) f LS4)
                ∗ (∃ f, arg13.view.loc (c : Thread nD τ) ↦[arg13.view.set]{fullShare} arg13.view.writes (Elt F) f LS5)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun xi4 xi5 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Hand

end
-- ==== Proof.KernelIdeal.RunB.lean ====
/-
  The kernel body run at a middle column chunk.
-/
import proofs.«140321_j78700980732218_2_alg».proof.Proof.KernelIdeal.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body run at a middle column chunk (the accumulators, found at the contents the previous chunk left, are added to; the two result blocks are handed back untouched): what its stores leave in each buffer it writes, as the list of
    stored pieces (last first), together with the proof that from whole memrefs at the stated contents the body
    runs to its continuation with exactly those pieces written. The lists are found by running the body. -/
noncomputable def bodyRunB (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : ¬condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) :
    Σ' (LS0 : List (View.Piece (Elt F) S64x128 .f32)), Σ' (LS1 : List (View.Piece (Elt F) S64x128 .f32)), Σ' (LS2 : List (View.Piece (Elt F) S64x1 .f32)), Σ' (LS3 : List (View.Piece (Elt F) S64x1 .f32)), Σ' (LS4 : List (View.Piece (Elt F) S128x1 .f32)), { LS5 : List (View.Piece (Elt F) S128x1 .f32) //
      ∀ (xi4 : Vec F S64x1 .f32) (xi5 : Vec F S1x8x128 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare xi4
            ∗ owns (c : Thread nD τ) arg7 fullShare xi5
            ∗ owns (c : Thread nD τ) arg8 fullShare xs0
            ∗ owns (c : Thread nD τ) arg9 fullShare xs1
            ∗ owns (c : Thread nD τ) arg10 fullShare xs2
            ∗ owns (c : Thread nD τ) arg11 fullShare xs3
            ∗ owns (c : Thread nD τ) arg12 fullShare xs4
            ∗ owns (c : Thread nD τ) arg13 fullShare xs5
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare xi4
                ∗ owns (c : Thread nD τ) arg7 fullShare xi5
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)
                ∗ (∃ f, arg11.view.loc (c : Thread nD τ) ↦[arg11.view.set]{fullShare} arg11.view.writes (Elt F) f LS3)
                ∗ (∃ f, arg12.view.loc (c : Thread nD τ) ↦[arg12.view.set]{fullShare} arg12.view.writes (Elt F) f LS4)
                ∗ (∃ f, arg13.view.loc (c : Thread nD τ) ↦[arg13.view.set]{fullShare} arg13.view.writes (Elt F) f LS5)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun xi4 xi5 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2; obtain rfl := harg11.eq_unread hfs3; obtain rfl := harg12.eq_unread hfs4; obtain rfl := harg13.eq_unread hfs5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Hand

end
-- ==== Proof.KernelIdeal.RunC.lean ====
/-
  The kernel body run at a last column chunk.
-/
import proofs.«140321_j78700980732218_2_alg».proof.Proof.KernelIdeal.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body run at a last column chunk (the accumulators are added to one last time and the two result blocks are written from them): what its stores leave in each buffer it writes, as the list of
    stored pieces (last first), together with the proof that from whole memrefs at the stated contents the body
    runs to its continuation with exactly those pieces written. The lists are found by running the body. -/
noncomputable def bodyRunC (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) :
    Σ' (L4 : List (View.Piece (Elt F) S64x1 .f32)), Σ' (L5 : List (View.Piece (Elt F) S1x8x128 .f32)), Σ' (LS0 : List (View.Piece (Elt F) S64x128 .f32)), Σ' (LS1 : List (View.Piece (Elt F) S64x128 .f32)), Σ' (LS2 : List (View.Piece (Elt F) S64x1 .f32)), Σ' (LS3 : List (View.Piece (Elt F) S64x1 .f32)), Σ' (LS4 : List (View.Piece (Elt F) S128x1 .f32)), { LS5 : List (View.Piece (Elt F) S128x1 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ (∃ d, owns (c : Thread nD τ) arg6 fullShare d)
            ∗ (∃ d, owns (c : Thread nD τ) arg7 fullShare d)
            ∗ owns (c : Thread nD τ) arg8 fullShare xs0
            ∗ owns (c : Thread nD τ) arg9 fullShare xs1
            ∗ owns (c : Thread nD τ) arg10 fullShare xs2
            ∗ owns (c : Thread nD τ) arg11 fullShare xs3
            ∗ owns (c : Thread nD τ) arg12 fullShare xs4
            ∗ owns (c : Thread nD τ) arg13 fullShare xs5
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)
                ∗ (∃ f, arg11.view.loc (c : Thread nD τ) ↦[arg11.view.set]{fullShare} arg11.view.writes (Elt F) f LS3)
                ∗ (∃ f, arg12.view.loc (c : Thread nD τ) ↦[arg12.view.set]{fullShare} arg12.view.writes (Elt F) f LS4)
                ∗ (∃ f, arg13.view.loc (c : Thread nD τ) ↦[arg13.view.set]{fullShare} arg13.view.writes (Elt F) f LS5)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg8.eq_unread hfs0; obtain rfl := harg9.eq_unread hfs1; obtain rfl := harg10.eq_unread hfs2; obtain rfl := harg11.eq_unread hfs3; obtain rfl := harg12.eq_unread hfs4; obtain rfl := harg13.eq_unread hfs5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Hand

end
-- ==== Proof.KernelIdeal.Launch.lean ====
/-
  The launch of the program whose six windows stand on four arrays: two input windows read each
  argument array, so each argument's points-to is split in two half shares at the region's entry
  and joined again at its exit; then the thirteen host operations after the region run on the
  launch contents with the two result arrays as the pipeline left them.
-/
import proofs.«140321_j78700980732218_2_alg».proof.Proof.KernelIdeal.Base
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch contents -/

/-- Core `c`'s buffers at launch, as a valuation; -/
abbrev W0 (c : Dev nD) : Valuation τ sig (Elt F) := fun b => m (c, b)
/-- the same read at a TensorCore reference: what the region finds (no host operation precedes it). -/
abbrev V (c : Dev nD) (b : Ref sig .tc) : Buf (Elt F) ((c : Thread nD τ).loc b) := W0 m c (Proc.devRef .tc b)

/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- The pipeline library's algebra is the whole of the certificate's. -/
abbrev EP : Emb (UR sig nD τ) (MT nD τ sig Unit (Elt F) ℕ (UR sig nD τ) ℕ) := emb₁
/-- What rides beside the buffers: the core owing nothing. -/
abbrev R (c : Dev nD) : sProp 𝕄 := iprop(∃ W, owes (c : Thread nD τ) (0 : CellTallies nD τ sig Unit) W)

/-! ## The four arrays behind the six windows

Windows 0 and 1 both read the first argument, windows 2 and 3 both read the second; windows 4 and 5
write the two result arrays. Each argument's full share is dealt in two halves, one per window. -/

/-- The distinct arrays behind the windows, listed. -/
theorem arrBufs_eq (c : Dev nD) (A : (b : Ref sig .tc) → Buf (Elt F) ((c : Thread nD τ).loc b)) :
    (Pipeline.arrBufs (Ix := Unit) (Name := ℕ) (U := UR sig nD τ) (Lvl := ℕ) spec0 c A : sProp 𝕄)
      = iprop((((c : Thread nD τ).loc main_arg0) ↦{fullShare} A main_arg0) ∗ (((c : Thread nD τ).loc main_arg1) ↦{fullShare} A main_arg1)
          ∗ (((c : Thread nD τ).loc main_v0_0) ↦{fullShare} A main_v0_0) ∗ (((c : Thread nD τ).loc main_v0_1) ↦{fullShare} A main_v0_1)) := by
  unfold Pipeline.arrBufs
  exact Idealize.SL.BI.bigSep_eq_bigSepL_of_eq [main_arg0, main_arg1, main_v0_0, main_v0_1] (by decide) (by decide) _

/-- A whole buffer's points-to splits in its two half shares, -/
theorem halves (ℓ : Loc nD τ sig) (f : Buf (Elt F) ℓ) :
    (ℓ ↦{fullShare} f : sProp 𝕄) ⊢ iprop((ℓ ↦{fullShare.left} f) ∗ ℓ ↦{fullShare.right} f) :=
  (Idealize.ShloMosaic.pointsTo_share (PosShare.mem_left_op_right fullShare)).1
/-- and the two halves at the same contents join again. -/
theorem join_halves (ℓ : Loc nD τ sig) (f : Buf (Elt F) ℓ) :
    iprop((ℓ ↦{fullShare.left} f) ∗ ℓ ↦{fullShare.right} f) ⊢ (ℓ ↦{fullShare} f : sProp 𝕄) :=
  (Idealize.ShloMosaic.pointsTo_share (PosShare.mem_left_op_right fullShare)).2

/-- Two whole buffers split in their halves at once, whatever rides along. -/
theorem halves2 (ℓ₁ ℓ₂ : Loc nD τ sig) (f : Buf (Elt F) ℓ₁) (g : Buf (Elt F) ℓ₂) (Q : sProp 𝕄) :
    iprop((ℓ₁ ↦{fullShare} f) ∗ (ℓ₂ ↦{fullShare} g) ∗ Q)
      ⊢ iprop(((ℓ₁ ↦{fullShare.left} f) ∗ ℓ₁ ↦{fullShare.right} f) ∗ ((ℓ₂ ↦{fullShare.left} g) ∗ ℓ₂ ↦{fullShare.right} g) ∗ Q) := by
  iintro ⟨H0, H1, HQ⟩
  isplitl [H0]; · iapply (halves (F := F) ℓ₁ f); iexact H0
  isplitl [H1]; · iapply (halves (F := F) ℓ₂ g); iexact H1
  iexact HQ

section Launch

variable (dats : (p : Fin 1) → (c : Dev nD) → Dat τ (Elt F) Unit ℕ (UR sig nD τ) ℕ (cfgs p) c)

/-- The windows' arrays at contents `G`, one by one, at the shares the proof data names. -/
theorem arrays_eq (c : Dev nD) (G : (w : Fin cfg0.W) → Buf (Elt F) ((cfg0.win w).arr.view.loc (c : Thread nD τ)))
    (hq0 : (dats 0 c).q 0 = fullShare.left) (hq1 : (dats 0 c).q 1 = fullShare.right)
    (hq2 : (dats 0 c).q 2 = fullShare.left) (hq3 : (dats 0 c).q 3 = fullShare.right) :
    ((dats 0 c).arrays G : sProp 𝕄)
      = iprop((((c : Thread nD τ).loc main_arg0) ↦{fullShare.left} G 0) ∗ (((c : Thread nD τ).loc main_arg0) ↦{fullShare.right} G 1)
          ∗ (((c : Thread nD τ).loc main_arg1) ↦{fullShare.left} G 2) ∗ (((c : Thread nD τ).loc main_arg1) ↦{fullShare.right} G 3)
          ∗ (((c : Thread nD τ).loc main_v0_0) ↦{fullShare} G 4) ∗ (((c : Thread nD τ).loc main_v0_1) ↦{fullShare} G 5)) := by
  unfold Dat.arrays
  rw [show (bigSep Finset.univ fun w : Fin cfg0.W => (cfg0.win w).arr.view.loc (c : Thread nD τ) ↦[(cfg0.win w).arr.view.set]{(dats 0 c).share w} G w : sProp 𝕄)
        = bigSep Finset.univ fun w : Fin cfg0.W => (((cfg0.win w).arr.view.loc (c : Thread nD τ)) ↦{(dats 0 c).share w} G w : sProp 𝕄)
      from bigSep_congr fun w _ => by rw [(arr_whole0 w).set_eq_univ]]
  rw [bigSep_W0]
  have s0 : (dats 0 c).share 0 = fullShare.left := by unfold Dat.share; exact hq0
  have s1 : (dats 0 c).share 1 = fullShare.right := by unfold Dat.share; exact hq1
  have s2 : (dats 0 c).share 2 = fullShare.left := by unfold Dat.share; exact hq2
  have s3 : (dats 0 c).share 3 = fullShare.right := by unfold Dat.share; exact hq3
  have s4 : (dats 0 c).share 4 = fullShare := rfl
  have s5 : (dats 0 c).share 5 = fullShare := rfl
  rw [s0, s1, s2, s3, s4, s5]

/-- The contents the region leaves: the launch contents with the two result arrays as the pipeline's
    write-backs leave them. -/
def Wn (c : Dev nD) : Valuation τ sig (Elt F) :=
  StableHlo.after [StableHlo.nullary main_v0_0 ((dats 0 c).arrAt 4 cfg0.N), StableHlo.nullary main_v0_1 ((dats 0 c).arrAt 5 cfg0.N)] (W0 m c)

theorem Wn_of_ne (c : Dev nD) (b : Ref sig .tc) (h0 : b ≠ main_v0_0) (h1 : b ≠ main_v0_1) :
    Wn m dats c (Proc.devRef .tc b) = W0 m c (Proc.devRef .tc b) := by
  unfold Wn
  rw [StableHlo.after_cons, StableHlo.after_cons, StableHlo.after_nil, StableHlo.nullary_result_ne _ _ _ _ h1, StableHlo.nullary_result_ne _ _ _ _ h0]

theorem Wn_row (c : Dev nD) : Wn m dats c (Proc.devRef .tc main_v0_0) = (dats 0 c).arrAt 4 cfg0.N := by
  unfold Wn
  rw [StableHlo.after_cons, StableHlo.after_cons, StableHlo.after_nil, StableHlo.nullary_result_ne _ _ _ _ (by decide : main_v0_0 ≠ main_v0_1), StableHlo.nullary_result]

theorem Wn_col (c : Dev nD) : Wn m dats c (Proc.devRef .tc main_v0_1) = (dats 0 c).arrAt 5 cfg0.N := by
  unfold Wn
  rw [StableHlo.after_cons, StableHlo.after_cons, StableHlo.after_nil, StableHlo.nullary_result]

end Launch

section Run

variable (dats : (p : Fin 1) → (c : Dev nD) → Dat τ (Elt F) Unit ℕ (UR sig nD τ) ℕ (cfgs p) c)
  (hA : ∀ c w, (dats 0 c).A w = V m c (Pipeline.arrRef spec0 w))
  (hq0 : ∀ c, (dats 0 c).q 0 = fullShare.left) (hq1 : ∀ c, (dats 0 c).q 1 = fullShare.right)
  (hq2 : ∀ c, (dats 0 c).q 2 = fullShare.left) (hq3 : ∀ c, (dats 0 c).q 3 = fullShare.right)

include hA hq0 hq1 hq2 hq3 in
/-- ENTRY. The launch's unscoped buffers are the windows' arrays at the proof data's entry contents — each
    argument's points-to split in its two half shares — and the buffers that bypass the region. -/
theorem entry_arrays (c : Dev nD) :
    (unscopedBufs c (V m c) : sProp 𝕄)
      ⊢ iprop((dats 0 c).arrays ((dats 0 c).arrAt · 0) ∗ Pipeline.unscopedRest spec0 c (V m c)) := by
  rw [Pipeline.unscopedBufs_split₀ cfgs (0 : Fin 1) winFacts₀0.arr_unscoped c (V m c)]
  refine sep_mono ?_ .rfl
  rw [arrBufs_eq, arrays_eq dats c _ (hq0 c) (hq1 c) (hq2 c) (hq3 c)]
  rw [show (dats 0 c).arrAt 0 0 = V m c main_arg0 from hA c 0, show (dats 0 c).arrAt 1 0 = V m c main_arg0 from hA c 1,
    show (dats 0 c).arrAt 2 0 = V m c main_arg1 from hA c 2, show (dats 0 c).arrAt 3 0 = V m c main_arg1 from hA c 3,
    show (dats 0 c).arrAt 4 0 = V m c main_v0_0 from hA c 4, show (dats 0 c).arrAt 5 0 = V m c main_v0_1 from hA c 5]
  refine (halves2 (F := F) _ _ _ _ _).trans ?_
  iintro ⟨⟨H0l, H0r⟩, ⟨H1l, H1r⟩, H4, H5⟩
  isplitl [H0l]; · iexact H0l
  isplitl [H0r]; · iexact H0r
  isplitl [H1l]; · iexact H1l
  isplitl [H1r]; · iexact H1r
  isplitl [H4]; · iexact H4
  iexact H5

include hA hq0 hq1 hq2 hq3 in
/-- EXIT. The windows' arrays at their final contents — the two halves of each argument joined again, the
    inputs never written — and the bypassing buffers are the unscoped buffers held at the contents the
    region leaves. -/
theorem exit_held (c : Dev nD) :
    iprop((dats 0 c).arrays ((dats 0 c).arrAt · cfg0.N) ∗ Pipeline.unscopedRest spec0 c (V m c))
      ⊢ (StableHlo.held (c : Thread nD τ) (Pipeline.ucRefs τ sig) (Wn m dats c) : sProp 𝕄) := by
  rw [← Pipeline.unscopedBufs_held c (Wn m dats c)]
  rw [Pipeline.unscopedBufs_split₀ cfgs (0 : Fin 1) winFacts₀0.arr_unscoped c _]
  have hrest : (Pipeline.unscopedRest spec0 c (fun b => Wn m dats c (Proc.devRef .tc b)) : sProp 𝕄) = Pipeline.unscopedRest spec0 c (V m c) := by
    unfold Pipeline.unscopedRest
    refine bigSep_congr fun b hb => ?_
    have hb' := (Finset.mem_sdiff.mp hb).2
    have h0 : b ≠ main_v0_0 := fun e => hb' (Finset.mem_image.mpr ⟨4, Finset.mem_univ _, by subst e; rfl⟩)
    have h1 : b ≠ main_v0_1 := fun e => hb' (Finset.mem_image.mpr ⟨5, Finset.mem_univ _, by subst e; rfl⟩)
    beta_reduce
    rw [Wn_of_ne m dats c b h0 h1]
  rw [hrest, arrBufs_eq, arrays_eq dats c _ (hq0 c) (hq1 c) (hq2 c) (hq3 c)]
  rw [show (dats 0 c).arrAt 0 cfg0.N = V m c main_arg0 from ((dats 0 c).arrAt_in 0 rfl _).trans (hA c 0),
    show (dats 0 c).arrAt 1 cfg0.N = V m c main_arg0 from ((dats 0 c).arrAt_in 1 rfl _).trans (hA c 1),
    show (dats 0 c).arrAt 2 cfg0.N = V m c main_arg1 from ((dats 0 c).arrAt_in 2 rfl _).trans (hA c 2),
    show (dats 0 c).arrAt 3 cfg0.N = V m c main_arg1 from ((dats 0 c).arrAt_in 3 rfl _).trans (hA c 3)]
  rw [Wn_of_ne m dats c main_arg0 (by decide) (by decide), Wn_of_ne m dats c main_arg1 (by decide) (by decide), Wn_row, Wn_col]
  iintro ⟨⟨H0l, H0r, H1l, H1r, H4, H5⟩, HZ⟩
  isplitr [HZ]
  · isplitl [H0l H0r]
    · iapply (join_halves (F := F) _ _); isplitl [H0l]; · iexact H0l
      iexact H0r
    isplitl [H1l H1r]
    · iapply (join_halves (F := F) _ _); isplitl [H1l]; · iexact H1l
      iexact H1r
    isplitl [H4]; · iexact H4
    iexact H5
  · iexact HZ

end Run

end Cert.KernelIdeal.Hand

end
-- ==== Proof.KernelIdeal.Cases.lean ====
/-
  What each of the three cases of the body leaves in the buffers it writes: the stored pieces cover
  each buffer, and their read-back is the buffer's contents.
-/
import proofs.«140321_j78700980732218_2_alg».proof.Proof.KernelIdeal.RunC
import proofs.«140321_j78700980732218_2_alg».proof.Proof.KernelIdeal.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold, as one record -/

/-- The two result blocks and the six accumulators: what the body's stores leave behind at a grid point. -/
structure St (F : FTy → Type) [FloatOps F] where
  o4 : Vec F S64x1 .f32
  o5 : Vec F S1x8x128 .f32
  s0 : Vec F S64x128 .f32
  s1 : Vec F S64x128 .f32
  s2 : Vec F S64x1 .f32
  s3 : Vec F S64x1 .f32
  s4 : Vec F S128x1 .f32
  s5 : Vec F S128x1 .f32

/-- One staging buffer of each result window, through which its contents are stated (the choice does not matter). -/
abbrev VO4 : View sig .tc .vmem S64x1 .f32 := (Memref.whole cc0_stg4_0 : Memref sig .tc .vmem S64x1 .f32).view
abbrev VO5 : View sig .tc .vmem S1x8x128 .f32 := (Memref.whole cc0_stg5_0 : Memref sig .tc .vmem S1x8x128 .f32).view

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The pieces case A stores into accumulator `s0` tile it, so they cover it. -/
theorem coverA_s0 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : condFirst i) (hc1 : ¬condLast i)
    (x0 : Vec F S1x64x128 .f32) (x1 : Vec F S1x128x128 .f32) (x2 : Vec F S1x64x128 .f32) (x3 : Vec F S1x128x128 .f32) (y : S64x128.Idx) :
    ∃ pc ∈ (bodyRunA c i arg2 harg2 arg3 harg3 arg4 harg4 arg5 harg5 arg6 harg6 arg7 harg7 arg8 harg8 arg9 harg9 arg10 harg10 arg11 harg11 arg12 harg12 arg13 harg13 hc0 hc1 x0 x1 x2 x3).1, y ∈ pc.1.set :=
  View.cover_of_tiledL (bodyRunA c i arg2 harg2 arg3 harg3 arg4 harg4 arg5 harg5 arg6 harg6 arg7 harg7 arg8 harg8 arg9 harg9 arg10 harg10 arg11 harg11 arg12 harg12 arg13 harg13 hc0 hc1 x0 x1 x2 x3).1 S64x128.size (by sl_kernel_rfl) y

/-- The pieces case A stores into accumulator `s1` tile it, so they cover it. -/
theorem coverA_s1 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : condFirst i) (hc1 : ¬condLast i)
    (x0 : Vec F S1x64x128 .f32) (x1 : Vec F S1x128x128 .f32) (x2 : Vec F S1x64x128 .f32) (x3 : Vec F S1x128x128 .f32) (y : S64x128.Idx) :
    ∃ pc ∈ (bodyRunA c i arg2 harg2 arg3 harg3 arg4 harg4 arg5 harg5 arg6 harg6 arg7 harg7 arg8 harg8 arg9 harg9 arg10 harg10 arg11 harg11 arg12 harg12 arg13 harg13 hc0 hc1 x0 x1 x2 x3).2.1, y ∈ pc.1.set :=
  View.cover_of_tiledL (bodyRunA c i arg2 harg2 arg3 harg3 arg4 harg4 arg5 harg5 arg6 harg6 arg7 harg7 arg8 harg8 arg9 harg9 arg10 harg10 arg11 harg11 arg12 harg12 arg13 harg13 hc0 hc1 x0 x1 x2 x3).2.1 S64x128.size (by sl_kernel_rfl) y

/-- The pieces case A stores into accumulator `s2` tile it, so they cover it. -/
theorem coverA_s2 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : condFirst i) (hc1 : ¬condLast i)
    (x0 : Vec F S1x64x128 .f32) (x1 : Vec F S1x128x128 .f32) (x2 : Vec F S1x64x128 .f32) (x3 : Vec F S1x128x128 .f32) (y : S64x1.Idx) :
    ∃ pc ∈ (bodyRunA c i arg2 harg2 arg3 harg3 arg4 harg4 arg5 harg5 arg6 harg6 arg7 harg7 arg8 harg8 arg9 harg9 arg10 harg10 arg11 harg11 arg12 harg12 arg13 harg13 hc0 hc1 x0 x1 x2 x3).2.2.1, y ∈ pc.1.set :=
  View.cover_of_tiledL (bodyRunA c i arg2 harg2 arg3 harg3 arg4 harg4 arg5 harg5 arg6 harg6 arg7 harg7 arg8 harg8 arg9 harg9 arg10 harg10 arg11 harg11 arg12 harg12 arg13 harg13 hc0 hc1 x0 x1 x2 x3).2.2.1 S64x1.size (by sl_kernel_rfl) y

/-- The pieces case A stores into accumulator `s3` tile it, so they cover it. -/
theorem coverA_s3 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : condFirst i) (hc1 : ¬condLast i)
    (x0 : Vec F S1x64x128 .f32) (x1 : Vec F S1x128x128 .f32) (x2 : Vec F S1x64x128 .f32) (x3 : Vec F S1x128x128 .f32) (y : S64x1.Idx) :
    ∃ pc ∈ (bodyRunA c i arg2 harg2 arg3 harg3 arg4 harg4 arg5 harg5 arg6 harg6 arg7 harg7 arg8 harg8 arg9 harg9 arg10 harg10 arg11 harg11 arg12 harg12 arg13 harg13 hc0 hc1 x0 x1 x2 x3).2.2.2.1, y ∈ pc.1.set :=
  View.cover_of_tiledL (bodyRunA c i arg2 harg2 arg3 harg3 arg4 harg4 arg5 harg5 arg6 harg6 arg7 harg7 arg8 harg8 arg9 harg9 arg10 harg10 arg11 harg11 arg12 harg12 arg13 harg13 hc0 hc1 x0 x1 x2 x3).2.2.2.1 S64x1.size (by sl_kernel_rfl) y

/-- The pieces case A stores into accumulator `s4` tile it, so they cover it. -/
theorem coverA_s4 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : condFirst i) (hc1 : ¬condLast i)
    (x0 : Vec F S1x64x128 .f32) (x1 : Vec F S1x128x128 .f32) (x2 : Vec F S1x64x128 .f32) (x3 : Vec F S1x128x128 .f32) (y : S128x1.Idx) :
    ∃ pc ∈ (bodyRunA c i arg2 harg2 arg3 harg3 arg4 harg4 arg5 harg5 arg6 harg6 arg7 harg7 arg8 harg8 arg9 harg9 arg10 harg10 arg11 harg11 arg12 harg12 arg13 harg13 hc0 hc1 x0 x1 x2 x3).2.2.2.2.1, y ∈ pc.1.set :=
  View.cover_of_tiledL (bodyRunA c i arg2 harg2 arg3 harg3 arg4 harg4 arg5 harg5 arg6 harg6 arg7 harg7 arg8 harg8 arg9 harg9 arg10 harg10 arg11 harg11 arg12 harg12 arg13 harg13 hc0 hc1 x0 x1 x2 x3).2.2.2.2.1 S128x1.size (by sl_kernel_rfl) y

/-- The pieces case A stores into accumulator `s5` tile it, so they cover it. -/
theorem coverA_s5 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : condFirst i) (hc1 : ¬condLast i)
    (x0 : Vec F S1x64x128 .f32) (x1 : Vec F S1x128x128 .f32) (x2 : Vec F S1x64x128 .f32) (x3 : Vec F S1x128x128 .f32) (y : S128x1.Idx) :
    ∃ pc ∈ (bodyRunA c i arg2 harg2 arg3 harg3 arg4 harg4 arg5 harg5 arg6 harg6 arg7 harg7 arg8 harg8 arg9 harg9 arg10 harg10 arg11 harg11 arg12 harg12 arg13 harg13 hc0 hc1 x0 x1 x2 x3).2.2.2.2.2.1, y ∈ pc.1.set :=
  View.cover_of_tiledL (bodyRunA c i arg2 harg2 arg3 harg3 arg4 harg4 arg5 harg5 arg6 harg6 arg7 harg7 arg8 harg8 arg9 harg9 arg10 harg10 arg11 harg11 arg12 harg12 arg13 harg13 hc0 hc1 x0 x1 x2 x3).2.2.2.2.2.1 S128x1.size (by sl_kernel_rfl) y

/-- What case A leaves: each written buffer's pieces read back (the two result blocks are not written: placeholders nothing consults). -/
def stA (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : condFirst i) (hc1 : ¬condLast i)
    (x0 : Vec F S1x64x128 .f32) (x1 : Vec F S1x128x128 .f32) (x2 : Vec F S1x64x128 .f32) (x3 : Vec F S1x128x128 .f32) : St F where
  o4 := VO4.read (Elt F) VO4.junk
  o5 := VO5.read (Elt F) VO5.junk
  s0 := sc0.view.read (Elt F) (sc0.view.writes (Elt F) sc0.view.junk (bodyRunA c i arg2 harg2 arg3 harg3 arg4 harg4 arg5 harg5 arg6 harg6 arg7 harg7 arg8 harg8 arg9 harg9 arg10 harg10 arg11 harg11 arg12 harg12 arg13 harg13 hc0 hc1 x0 x1 x2 x3).1)
  s1 := sc1.view.read (Elt F) (sc1.view.writes (Elt F) sc1.view.junk (bodyRunA c i arg2 harg2 arg3 harg3 arg4 harg4 arg5 harg5 arg6 harg6 arg7 harg7 arg8 harg8 arg9 harg9 arg10 harg10 arg11 harg11 arg12 harg12 arg13 harg13 hc0 hc1 x0 x1 x2 x3).2.1)
  s2 := sc2.view.read (Elt F) (sc2.view.writes (Elt F) sc2.view.junk (bodyRunA c i arg2 harg2 arg3 harg3 arg4 harg4 arg5 harg5 arg6 harg6 arg7 harg7 arg8 harg8 arg9 harg9 arg10 harg10 arg11 harg11 arg12 harg12 arg13 harg13 hc0 hc1 x0 x1 x2 x3).2.2.1)
  s3 := sc3.view.read (Elt F) (sc3.view.writes (Elt F) sc3.view.junk (bodyRunA c i arg2 harg2 arg3 harg3 arg4 harg4 arg5 harg5 arg6 harg6 arg7 harg7 arg8 harg8 arg9 harg9 arg10 harg10 arg11 harg11 arg12 harg12 arg13 harg13 hc0 hc1 x0 x1 x2 x3).2.2.2.1)
  s4 := sc4.view.read (Elt F) (sc4.view.writes (Elt F) sc4.view.junk (bodyRunA c i arg2 harg2 arg3 harg3 arg4 harg4 arg5 harg5 arg6 harg6 arg7 harg7 arg8 harg8 arg9 harg9 arg10 harg10 arg11 harg11 arg12 harg12 arg13 harg13 hc0 hc1 x0 x1 x2 x3).2.2.2.2.1)
  s5 := sc5.view.read (Elt F) (sc5.view.writes (Elt F) sc5.view.junk (bodyRunA c i arg2 harg2 arg3 harg3 arg4 harg4 arg5 harg5 arg6 harg6 arg7 harg7 arg8 harg8 arg9 harg9 arg10 harg10 arg11 harg11 arg12 harg12 arg13 harg13 hc0 hc1 x0 x1 x2 x3).2.2.2.2.2.1)

/-- The pieces case B stores into accumulator `s0` tile it, so they cover it. -/
theorem coverB_s0 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : ¬condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) (y : S64x128.Idx) :
    ∃ pc ∈ (bodyRunB c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).1, y ∈ pc.1.set :=
  View.cover_of_tiledL (bodyRunB c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).1 S64x128.size (by sl_kernel_rfl) y

/-- The pieces case B stores into accumulator `s1` tile it, so they cover it. -/
theorem coverB_s1 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : ¬condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) (y : S64x128.Idx) :
    ∃ pc ∈ (bodyRunB c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.1, y ∈ pc.1.set :=
  View.cover_of_tiledL (bodyRunB c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.1 S64x128.size (by sl_kernel_rfl) y

/-- The pieces case B stores into accumulator `s2` tile it, so they cover it. -/
theorem coverB_s2 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : ¬condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) (y : S64x1.Idx) :
    ∃ pc ∈ (bodyRunB c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.1, y ∈ pc.1.set :=
  View.cover_of_tiledL (bodyRunB c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.1 S64x1.size (by sl_kernel_rfl) y

/-- The pieces case B stores into accumulator `s3` tile it, so they cover it. -/
theorem coverB_s3 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : ¬condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) (y : S64x1.Idx) :
    ∃ pc ∈ (bodyRunB c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.1, y ∈ pc.1.set :=
  View.cover_of_tiledL (bodyRunB c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.1 S64x1.size (by sl_kernel_rfl) y

/-- The pieces case B stores into accumulator `s4` tile it, so they cover it. -/
theorem coverB_s4 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : ¬condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) (y : S128x1.Idx) :
    ∃ pc ∈ (bodyRunB c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.2.1, y ∈ pc.1.set :=
  View.cover_of_tiledL (bodyRunB c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.2.1 S128x1.size (by sl_kernel_rfl) y

/-- The pieces case B stores into accumulator `s5` tile it, so they cover it. -/
theorem coverB_s5 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : ¬condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) (y : S128x1.Idx) :
    ∃ pc ∈ (bodyRunB c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.2.2.1, y ∈ pc.1.set :=
  View.cover_of_tiledL (bodyRunB c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.2.2.1 S128x1.size (by sl_kernel_rfl) y

/-- What case B leaves: each written buffer's pieces read back (the two result blocks are not written: placeholders nothing consults). -/
def stB (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : ¬condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) : St F where
  o4 := VO4.read (Elt F) VO4.junk
  o5 := VO5.read (Elt F) VO5.junk
  s0 := sc0.view.read (Elt F) (sc0.view.writes (Elt F) sc0.view.junk (bodyRunB c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).1)
  s1 := sc1.view.read (Elt F) (sc1.view.writes (Elt F) sc1.view.junk (bodyRunB c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.1)
  s2 := sc2.view.read (Elt F) (sc2.view.writes (Elt F) sc2.view.junk (bodyRunB c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.1)
  s3 := sc3.view.read (Elt F) (sc3.view.writes (Elt F) sc3.view.junk (bodyRunB c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.1)
  s4 := sc4.view.read (Elt F) (sc4.view.writes (Elt F) sc4.view.junk (bodyRunB c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.2.1)
  s5 := sc5.view.read (Elt F) (sc5.view.writes (Elt F) sc5.view.junk (bodyRunB c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.2.2.1)

/-- The pieces case C stores into result block `o4` tile it, so they cover it. -/
theorem coverC_o4 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) (y : S64x1.Idx) :
    ∃ pc ∈ (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).1, y ∈ pc.1.set :=
  View.cover_of_tiledL (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).1 S64x1.size (by sl_kernel_rfl) y

/-- The pieces case C stores into result block `o5` tile it, so they cover it. -/
theorem coverC_o5 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) (y : S1x8x128.Idx) :
    ∃ pc ∈ (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.1, y ∈ pc.1.set :=
  View.cover_of_tiledL (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.1 S1x8x128.size (by sl_kernel_rfl) y

/-- The pieces case C stores into accumulator `s0` tile it, so they cover it. -/
theorem coverC_s0 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) (y : S64x128.Idx) :
    ∃ pc ∈ (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.1, y ∈ pc.1.set :=
  View.cover_of_tiledL (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.1 S64x128.size (by sl_kernel_rfl) y

/-- The pieces case C stores into accumulator `s1` tile it, so they cover it. -/
theorem coverC_s1 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) (y : S64x128.Idx) :
    ∃ pc ∈ (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.1, y ∈ pc.1.set :=
  View.cover_of_tiledL (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.1 S64x128.size (by sl_kernel_rfl) y

/-- The pieces case C stores into accumulator `s2` tile it, so they cover it. -/
theorem coverC_s2 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) (y : S64x1.Idx) :
    ∃ pc ∈ (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.2.1, y ∈ pc.1.set :=
  View.cover_of_tiledL (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.2.1 S64x1.size (by sl_kernel_rfl) y

/-- The pieces case C stores into accumulator `s3` tile it, so they cover it. -/
theorem coverC_s3 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) (y : S64x1.Idx) :
    ∃ pc ∈ (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.2.2.1, y ∈ pc.1.set :=
  View.cover_of_tiledL (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.2.2.1 S64x1.size (by sl_kernel_rfl) y

/-- The pieces case C stores into accumulator `s4` tile it, so they cover it. -/
theorem coverC_s4 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) (y : S128x1.Idx) :
    ∃ pc ∈ (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.2.2.2.1, y ∈ pc.1.set :=
  View.cover_of_tiledL (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.2.2.2.1 S128x1.size (by sl_kernel_rfl) y

/-- The pieces case C stores into accumulator `s5` tile it, so they cover it. -/
theorem coverC_s5 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) (y : S128x1.Idx) :
    ∃ pc ∈ (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.2.2.2.2.1, y ∈ pc.1.set :=
  View.cover_of_tiledL (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.2.2.2.2.1 S128x1.size (by sl_kernel_rfl) y

/-- What case C leaves: each written buffer's pieces read back. -/
def stC (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) : St F where
  o4 := VO4.read (Elt F) (VO4.writes (Elt F) VO4.junk (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).1)
  o5 := VO5.read (Elt F) (VO5.writes (Elt F) VO5.junk (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.1)
  s0 := sc0.view.read (Elt F) (sc0.view.writes (Elt F) sc0.view.junk (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.1)
  s1 := sc1.view.read (Elt F) (sc1.view.writes (Elt F) sc1.view.junk (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.1)
  s2 := sc2.view.read (Elt F) (sc2.view.writes (Elt F) sc2.view.junk (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.2.1)
  s3 := sc3.view.read (Elt F) (sc3.view.writes (Elt F) sc3.view.junk (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.2.2.1)
  s4 := sc4.view.read (Elt F) (sc4.view.writes (Elt F) sc4.view.junk (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.2.2.2.1)
  s5 := sc5.view.read (Elt F) (sc5.view.writes (Elt F) sc5.view.junk (bodyRunC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).2.2.2.2.2.2.2.1)

end Cert.KernelIdeal.Hand

end
-- ==== Proof.KernelIdeal.Points.lean ====
/-
  What the buffers hold point by point: the recursion over the grid points, the region's invariant
  carrying the six accumulators, and the pipeline's proof data.
-/
import proofs.«140321_j78700980732218_2_alg».proof.Proof.KernelIdeal.Cases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## Point by point -/

/-- THE ACCUMULATION. What the result blocks and the accumulators hold after the body at position `n`: the
    case the closed forms select there, run at the point's memrefs and input blocks, over what the point
    before left in the accumulators (a first chunk clears them and looks at nothing). -/
def stAt (c : Dev nD) : (n : ℕ) → n < cfg0.N → St F
  | 0, hn => stA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) sc0 (Memref.isWhole_whole _) sc1 (Memref.isWhole_whole _) sc2 (Memref.isWhole_whole _) sc3 (Memref.isWhole_whole _) sc4 (Memref.isWhole_whole _) sc5 (Memref.isWhole_whole _) ((condFirst_iff ⟨0, hn⟩).mpr (Nat.zero_mod _)) (fun h => (fun h => by (try dsimp only at h); omega) ((condLast_iff ⟨0, hn⟩).mp h)) (iblk m c 0 ⟨0, hn⟩) (iblk m c 1 ⟨0, hn⟩) (iblk m c 2 ⟨0, hn⟩) (iblk m c 3 ⟨0, hn⟩)
  | n + 1, hn =>
    if h0 : (n + 1) % 4 = 0 then
      if h1 : (n + 1) % 4 = 3 then
        False.elim (by omega)
      else
        stA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) sc0 (Memref.isWhole_whole _) sc1 (Memref.isWhole_whole _) sc2 (Memref.isWhole_whole _) sc3 (Memref.isWhole_whole _) sc4 (Memref.isWhole_whole _) sc5 (Memref.isWhole_whole _) ((condFirst_iff ⟨n + 1, hn⟩).mpr h0) (fun h => h1 ((condLast_iff ⟨n + 1, hn⟩).mp h)) (iblk m c 0 ⟨n + 1, hn⟩) (iblk m c 1 ⟨n + 1, hn⟩) (iblk m c 2 ⟨n + 1, hn⟩) (iblk m c 3 ⟨n + 1, hn⟩)
    else
      if h1 : (n + 1) % 4 = 3 then
        stC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) sc0 (Memref.isWhole_whole _) sc1 (Memref.isWhole_whole _) sc2 (Memref.isWhole_whole _) sc3 (Memref.isWhole_whole _) sc4 (Memref.isWhole_whole _) sc5 (Memref.isWhole_whole _) (fun h => h0 ((condFirst_iff ⟨n + 1, hn⟩).mp h)) ((condLast_iff ⟨n + 1, hn⟩).mpr h1) (iblk m c 0 ⟨n + 1, hn⟩) (iblk m c 1 ⟨n + 1, hn⟩) (iblk m c 2 ⟨n + 1, hn⟩) (iblk m c 3 ⟨n + 1, hn⟩) (stAt c n (Nat.lt_of_succ_lt hn)).s0 (stAt c n (Nat.lt_of_succ_lt hn)).s1 (stAt c n (Nat.lt_of_succ_lt hn)).s2 (stAt c n (Nat.lt_of_succ_lt hn)).s3 (stAt c n (Nat.lt_of_succ_lt hn)).s4 (stAt c n (Nat.lt_of_succ_lt hn)).s5
      else
        stB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) sc0 (Memref.isWhole_whole _) sc1 (Memref.isWhole_whole _) sc2 (Memref.isWhole_whole _) sc3 (Memref.isWhole_whole _) sc4 (Memref.isWhole_whole _) sc5 (Memref.isWhole_whole _) (fun h => h0 ((condFirst_iff ⟨n + 1, hn⟩).mp h)) (fun h => h1 ((condLast_iff ⟨n + 1, hn⟩).mp h)) (iblk m c 0 ⟨n + 1, hn⟩) (iblk m c 1 ⟨n + 1, hn⟩) (iblk m c 2 ⟨n + 1, hn⟩) (iblk m c 3 ⟨n + 1, hn⟩) (stAt c n (Nat.lt_of_succ_lt hn)).s0 (stAt c n (Nat.lt_of_succ_lt hn)).s1 (stAt c n (Nat.lt_of_succ_lt hn)).s2 (stAt c n (Nat.lt_of_succ_lt hn)).s3 (stAt c n (Nat.lt_of_succ_lt hn)).s4 (stAt c n (Nat.lt_of_succ_lt hn)).s5

/-- `stAt` at a first chunk. -/
theorem stAt_A (c : Dev nD) (t : Fin cfg0.N) (h0 : t.val % 4 = 0) (h1 : ¬t.val % 4 = 3) :
    stAt m c t.val t.isLt = stA c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _) sc4 (Memref.isWhole_whole _) sc5 (Memref.isWhole_whole _) ((condFirst_iff t).mpr h0) (fun h => h1 ((condLast_iff t).mp h)) (iblk m c 0 t) (iblk m c 1 t) (iblk m c 2 t) (iblk m c 3 t) := by
  obtain ⟨n, hn⟩ := t
  cases n with
  | zero => exact rfl
  | succ n => exact (dif_pos h0).trans ((dif_neg h1).trans rfl)

/-- `stAt` at a middle chunk: over what the point before left. -/
theorem stAt_B (c : Dev nD) (t : Fin cfg0.N) (h0 : ¬t.val % 4 = 0) (h1 : ¬t.val % 4 = 3) :
    stAt m c t.val t.isLt = stB c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _) sc4 (Memref.isWhole_whole _) sc5 (Memref.isWhole_whole _) (fun h => h0 ((condFirst_iff t).mp h)) (fun h => h1 ((condLast_iff t).mp h)) (iblk m c 0 t) (iblk m c 1 t) (iblk m c 2 t) (iblk m c 3 t) (stAt m c (t.val - 1) (Nat.lt_of_le_of_lt (Nat.sub_le _ _) t.isLt)).s0 (stAt m c (t.val - 1) (Nat.lt_of_le_of_lt (Nat.sub_le _ _) t.isLt)).s1 (stAt m c (t.val - 1) (Nat.lt_of_le_of_lt (Nat.sub_le _ _) t.isLt)).s2 (stAt m c (t.val - 1) (Nat.lt_of_le_of_lt (Nat.sub_le _ _) t.isLt)).s3 (stAt m c (t.val - 1) (Nat.lt_of_le_of_lt (Nat.sub_le _ _) t.isLt)).s4 (stAt m c (t.val - 1) (Nat.lt_of_le_of_lt (Nat.sub_le _ _) t.isLt)).s5 := by
  obtain ⟨n, hn⟩ := t
  cases n with
  | zero => exact (by exfalso; (try dsimp only at h0); exact absurd (Nat.zero_mod _) h0)
  | succ n => exact (dif_neg h0).trans ((dif_neg h1).trans rfl)

/-- `stAt` at a last chunk: over what the point before left. -/
theorem stAt_C (c : Dev nD) (t : Fin cfg0.N) (h0 : ¬t.val % 4 = 0) (h1 : t.val % 4 = 3) :
    stAt m c t.val t.isLt = stC c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _) sc4 (Memref.isWhole_whole _) sc5 (Memref.isWhole_whole _) (fun h => h0 ((condFirst_iff t).mp h)) ((condLast_iff t).mpr h1) (iblk m c 0 t) (iblk m c 1 t) (iblk m c 2 t) (iblk m c 3 t) (stAt m c (t.val - 1) (Nat.lt_of_le_of_lt (Nat.sub_le _ _) t.isLt)).s0 (stAt m c (t.val - 1) (Nat.lt_of_le_of_lt (Nat.sub_le _ _) t.isLt)).s1 (stAt m c (t.val - 1) (Nat.lt_of_le_of_lt (Nat.sub_le _ _) t.isLt)).s2 (stAt m c (t.val - 1) (Nat.lt_of_le_of_lt (Nat.sub_le _ _) t.isLt)).s3 (stAt m c (t.val - 1) (Nat.lt_of_le_of_lt (Nat.sub_le _ _) t.isLt)).s4 (stAt m c (t.val - 1) (Nat.lt_of_le_of_lt (Nat.sub_le _ _) t.isLt)).s5 := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The six accumulators at some contents each: what the launch hands the region and takes back. -/
theorem scopedRest_accs (c : Dev nD) :
    (Pipeline.scopedRest (Ix := Unit) (Name := ℕ) (U := UR sig nD τ) (Lvl := ℕ) (Val := Elt F) spec0 c : sProp 𝕄)
      = iprop((∃ d, owns (c : Thread nD τ) sc0 fullShare d) ∗ (∃ d, owns (c : Thread nD τ) sc1 fullShare d) ∗ (∃ d, owns (c : Thread nD τ) sc2 fullShare d)
          ∗ (∃ d, owns (c : Thread nD τ) sc3 fullShare d) ∗ (∃ d, owns (c : Thread nD τ) sc4 fullShare d) ∗ (∃ d, owns (c : Thread nD τ) sc5 fullShare d)) := by
  rw [scopedRest0_eq]; simp only [sc0, sc1, sc2, sc3, sc4, sc5, owns_whole]; try rfl

/-- The invariant before position `n`: before the first point the accumulators at anything; afterwards each at
    what the point before left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) sc0 fullShare (stAt m c n hn).s0 ∗ owns (c : Thread nD τ) sc1 fullShare (stAt m c n hn).s1
      ∗ owns (c : Thread nD τ) sc2 fullShare (stAt m c n hn).s2 ∗ owns (c : Thread nD τ) sc3 fullShare (stAt m c n hn).s3
      ∗ owns (c : Thread nD τ) sc4 fullShare (stAt m c n hn).s4 ∗ owns (c : Thread nD τ) sc5 fullShare (stAt m c n hn).s5)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) sc0 fullShare (stAt m c n hn).s0 ∗ owns (c : Thread nD τ) sc1 fullShare (stAt m c n hn).s1
      ∗ owns (c : Thread nD τ) sc2 fullShare (stAt m c n hn).s2 ∗ owns (c : Thread nD τ) sc3 fullShare (stAt m c n hn).s3
      ∗ owns (c : Thread nD τ) sc4 fullShare (stAt m c n hn).s4 ∗ owns (c : Thread nD τ) sc5 fullShare (stAt m c n hn).s5) := rfl

theorem PhiS_pos (c : Dev nD) (n : ℕ) (h : n ≤ cfg0.N) (hz : n ≠ 0) :
    PhiS m c n h = iprop(owns (c : Thread nD τ) sc0 fullShare (stAt m c (n - 1) (by omega)).s0 ∗ owns (c : Thread nD τ) sc1 fullShare (stAt m c (n - 1) (by omega)).s1
      ∗ owns (c : Thread nD τ) sc2 fullShare (stAt m c (n - 1) (by omega)).s2 ∗ owns (c : Thread nD τ) sc3 fullShare (stAt m c (n - 1) (by omega)).s3
      ∗ owns (c : Thread nD τ) sc4 fullShare (stAt m c (n - 1) (by omega)).s4 ∗ owns (c : Thread nD τ) sc5 fullShare (stAt m c (n - 1) (by omega)).s5) := by
  cases n with
  | zero => exact absurd rfl hz
  | succ n => rfl

/-! ## The pipeline's proof data -/

/-- The proof data on core `c`: the arrays as the region finds them; after the body at point `t` each input's
    buffer at its block and the results' at `stAt`; the invariant `PhiS`; each argument's share dealt in
    halves between the two windows that read it; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (stAt m c t.val t.isLt).o4
    | ⟨5, _⟩ => (stAt m c t.val t.isLt).o5
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (stAt m c t.val t.isLt).o4 := by dsimp only [dats]
theorem after5 (c : Dev nD) (t : Fin cfg0.N) : (dats m 0 c).after 5 t = (stAt m c t.val t.isLt).o5 := by dsimp only [dats]

/-- Every input window is fetched at every point: its staging buffer holds its block when the body runs. -/
theorem before0 (c : Dev nD) (t : Fin cfg0.N) (d) : (dats m 0 c).before 0 t d = iblk m c 0 t := by
  unfold Dat.before; rw [if_pos (fetch0_0 t)]; rfl
theorem before1 (c : Dev nD) (t : Fin cfg0.N) (d) : (dats m 0 c).before 1 t d = iblk m c 1 t := by
  unfold Dat.before; rw [if_pos (fetch0_1 t)]; rfl
theorem before2 (c : Dev nD) (t : Fin cfg0.N) (d) : (dats m 0 c).before 2 t d = iblk m c 2 t := by
  unfold Dat.before; rw [if_pos (fetch0_2 t)]; rfl
theorem before3 (c : Dev nD) (t : Fin cfg0.N) (d) : (dats m 0 c).before 3 t d = iblk m c 3 t := by
  unfold Dat.before; rw [if_pos (fetch0_3 t)]; rfl

end Cert.KernelIdeal.Hand

end
-- ==== Proof.KernelIdeal.Pieces.lean ====
/-
  What each case of the body leaves in each buffer, as a function of what it found there.

  At every grid point the body adds this chunk's contribution to six running sums; at a first chunk it clears them
  beforehand, so the sums it adds to are zeros; at a last chunk it also computes the two result blocks from the new
  values of the six sums. Each buffer is written by whole-buffer stores, so what a buffer holds afterwards is the last
  store's value, and a load after a store reads that store's value.
-/
import proofs.«140321_j78700980732218_2_alg».proof.Proof.KernelIdeal.Cases
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## A first chunk: each accumulator is cleared, then added to -/

/-- After a first chunk, the count of points confident in both lanes is this chunk's contribution added to zero. -/
theorem stA_s0 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : condFirst i) (hc1 : ¬condLast i)
    (x0 : Vec F S1x64x128 .f32) (x1 : Vec F S1x128x128 .f32) (x2 : Vec F S1x64x128 .f32) (x3 : Vec F S1x128x128 .f32) :
    (stA c i arg2 harg2 arg3 harg3 arg4 harg4 arg5 harg5 arg6 harg6 arg7 harg7 arg8 harg8 arg9 harg9 arg10 harg10 arg11 harg11 arg12 harg12 arg13 harg13 hc0 hc1 x0 x1 x2 x3).s0 = k0_pay22 x2 x3 (k0_pay8 (F := F)) := by
  unfold stA
  dsimp only
  rw [View.read_writes_junk_eq_canon]
  unfold bodyRunA
  dsimp only
  sl_unfold_words
  rw [View.canon_cons_unit_zero (S := S64x128) hz2]
  simp only [View.readCov_unit_zero (S := S64x128) _ hz2, View.readCov_unit_zero (S := S64x1) _ hz2,
    View.readCov_unit_zero (S := S128x1) _ hz2, View.readAt_eq_ld,
    harg2.read_unread, harg3.read_unread, harg4.read_unread, harg5.read_unread, harg6.read_unread, harg7.read_unread,
    harg8.read_unread, harg9.read_unread, harg10.read_unread, harg11.read_unread, harg12.read_unread, harg13.read_unread,
    View.ld_unit_zero (S := S1x64x128) hz3, View.ld_unit_zero (S := S1x128x128) hz3, View.ld_unit_zero (S := S1x8x128) hz3,
    View.ld_unit_zero (S := S64x128) hz2, View.ld_unit_zero (S := S64x1) hz2, View.ld_unit_zero (S := S128x1) hz2]

/-- After a first chunk, the masked sum of distances is this chunk's contribution added to zero. -/
theorem stA_s1 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : condFirst i) (hc1 : ¬condLast i)
    (x0 : Vec F S1x64x128 .f32) (x1 : Vec F S1x128x128 .f32) (x2 : Vec F S1x64x128 .f32) (x3 : Vec F S1x128x128 .f32) :
    (stA c i arg2 harg2 arg3 harg3 arg4 harg4 arg5 harg5 arg6 harg6 arg7 harg7 arg8 harg8 arg9 harg9 arg10 harg10 arg11 harg11 arg12 harg12 arg13 harg13 hc0 hc1 x0 x1 x2 x3).s1 = k0_pay23 (k0_pay14 x0) (k0_pay15 x1) (k0_pay20 x2) (k0_pay21 x3) (k0_pay9 (F := F)) := by
  unfold stA
  dsimp only
  rw [View.read_writes_junk_eq_canon]
  unfold bodyRunA
  dsimp only
  sl_unfold_words
  rw [View.canon_cons_unit_zero (S := S64x128) hz2]
  simp only [View.readCov_unit_zero (S := S64x128) _ hz2, View.readCov_unit_zero (S := S64x1) _ hz2,
    View.readCov_unit_zero (S := S128x1) _ hz2, View.readAt_eq_ld,
    harg2.read_unread, harg3.read_unread, harg4.read_unread, harg5.read_unread, harg6.read_unread, harg7.read_unread,
    harg8.read_unread, harg9.read_unread, harg10.read_unread, harg11.read_unread, harg12.read_unread, harg13.read_unread,
    View.ld_unit_zero (S := S1x64x128) hz3, View.ld_unit_zero (S := S1x128x128) hz3, View.ld_unit_zero (S := S1x8x128) hz3,
    View.ld_unit_zero (S := S64x128) hz2, View.ld_unit_zero (S := S64x1) hz2, View.ld_unit_zero (S := S128x1) hz2]

/-- After a first chunk, the rows' masked confidence sum is this chunk's contribution added to zero. -/
theorem stA_s2 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : condFirst i) (hc1 : ¬condLast i)
    (x0 : Vec F S1x64x128 .f32) (x1 : Vec F S1x128x128 .f32) (x2 : Vec F S1x64x128 .f32) (x3 : Vec F S1x128x128 .f32) :
    (stA c i arg2 harg2 arg3 harg3 arg4 harg4 arg5 harg5 arg6 harg6 arg7 harg7 arg8 harg8 arg9 harg9 arg10 harg10 arg11 harg11 arg12 harg12 arg13 harg13 hc0 hc1 x0 x1 x2 x3).s2 = k0_pay24 (k0_pay16 x2) (k0_pay20 x2) (k0_pay10 (F := F)) := by
  unfold stA
  dsimp only
  rw [View.read_writes_junk_eq_canon]
  unfold bodyRunA
  dsimp only
  sl_unfold_words
  rw [View.canon_cons_unit_zero (S := S64x1) hz2]
  simp only [View.readCov_unit_zero (S := S64x128) _ hz2, View.readCov_unit_zero (S := S64x1) _ hz2,
    View.readCov_unit_zero (S := S128x1) _ hz2, View.readAt_eq_ld,
    harg2.read_unread, harg3.read_unread, harg4.read_unread, harg5.read_unread, harg6.read_unread, harg7.read_unread,
    harg8.read_unread, harg9.read_unread, harg10.read_unread, harg11.read_unread, harg12.read_unread, harg13.read_unread,
    View.ld_unit_zero (S := S1x64x128) hz3, View.ld_unit_zero (S := S1x128x128) hz3, View.ld_unit_zero (S := S1x8x128) hz3,
    View.ld_unit_zero (S := S64x128) hz2, View.ld_unit_zero (S := S64x1) hz2, View.ld_unit_zero (S := S128x1) hz2]

/-- After a first chunk, the rows' confident-point count is this chunk's contribution added to zero. -/
theorem stA_s3 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : condFirst i) (hc1 : ¬condLast i)
    (x0 : Vec F S1x64x128 .f32) (x1 : Vec F S1x128x128 .f32) (x2 : Vec F S1x64x128 .f32) (x3 : Vec F S1x128x128 .f32) :
    (stA c i arg2 harg2 arg3 harg3 arg4 harg4 arg5 harg5 arg6 harg6 arg7 harg7 arg8 harg8 arg9 harg9 arg10 harg10 arg11 harg11 arg12 harg12 arg13 harg13 hc0 hc1 x0 x1 x2 x3).s3 = k0_pay25 (k0_pay20 x2) (k0_pay11 (F := F)) := by
  unfold stA
  dsimp only
  rw [View.read_writes_junk_eq_canon]
  unfold bodyRunA
  dsimp only
  sl_unfold_words
  rw [View.canon_cons_unit_zero (S := S64x1) hz2]
  simp only [View.readCov_unit_zero (S := S64x128) _ hz2, View.readCov_unit_zero (S := S64x1) _ hz2,
    View.readCov_unit_zero (S := S128x1) _ hz2, View.readAt_eq_ld,
    harg2.read_unread, harg3.read_unread, harg4.read_unread, harg5.read_unread, harg6.read_unread, harg7.read_unread,
    harg8.read_unread, harg9.read_unread, harg10.read_unread, harg11.read_unread, harg12.read_unread, harg13.read_unread,
    View.ld_unit_zero (S := S1x64x128) hz3, View.ld_unit_zero (S := S1x128x128) hz3, View.ld_unit_zero (S := S1x8x128) hz3,
    View.ld_unit_zero (S := S64x128) hz2, View.ld_unit_zero (S := S64x1) hz2, View.ld_unit_zero (S := S128x1) hz2]

/-- After a first chunk, the lanes' masked confidence sum is this chunk's contribution added to zero. -/
theorem stA_s4 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : condFirst i) (hc1 : ¬condLast i)
    (x0 : Vec F S1x64x128 .f32) (x1 : Vec F S1x128x128 .f32) (x2 : Vec F S1x64x128 .f32) (x3 : Vec F S1x128x128 .f32) :
    (stA c i arg2 harg2 arg3 harg3 arg4 harg4 arg5 harg5 arg6 harg6 arg7 harg7 arg8 harg8 arg9 harg9 arg10 harg10 arg11 harg11 arg12 harg12 arg13 harg13 hc0 hc1 x0 x1 x2 x3).s4 = k0_pay1 (k0_pay26 (k0_pay17 x3) (k0_pay21 x3) (k0_pay12 (F := F))) := by
  unfold stA
  dsimp only
  rw [View.read_writes_junk_eq_canon]
  unfold bodyRunA
  dsimp only
  sl_unfold_words
  rw [View.canon_cons_unit_zero (S := S128x1) hz2]
  simp only [View.readCov_unit_zero (S := S64x128) _ hz2, View.readCov_unit_zero (S := S64x1) _ hz2,
    View.readCov_unit_zero (S := S128x1) _ hz2, View.readAt_eq_ld,
    harg2.read_unread, harg3.read_unread, harg4.read_unread, harg5.read_unread, harg6.read_unread, harg7.read_unread,
    harg8.read_unread, harg9.read_unread, harg10.read_unread, harg11.read_unread, harg12.read_unread, harg13.read_unread,
    View.ld_unit_zero (S := S1x64x128) hz3, View.ld_unit_zero (S := S1x128x128) hz3, View.ld_unit_zero (S := S1x8x128) hz3,
    View.ld_unit_zero (S := S64x128) hz2, View.ld_unit_zero (S := S64x1) hz2, View.ld_unit_zero (S := S128x1) hz2]

/-- After a first chunk, the lanes' confident-point count is this chunk's contribution added to zero. -/
theorem stA_s5 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : condFirst i) (hc1 : ¬condLast i)
    (x0 : Vec F S1x64x128 .f32) (x1 : Vec F S1x128x128 .f32) (x2 : Vec F S1x64x128 .f32) (x3 : Vec F S1x128x128 .f32) :
    (stA c i arg2 harg2 arg3 harg3 arg4 harg4 arg5 harg5 arg6 harg6 arg7 harg7 arg8 harg8 arg9 harg9 arg10 harg10 arg11 harg11 arg12 harg12 arg13 harg13 hc0 hc1 x0 x1 x2 x3).s5 = k0_pay2 (k0_pay21 x3) (k0_pay13 (F := F)) := by
  unfold stA
  dsimp only
  rw [View.read_writes_junk_eq_canon]
  unfold bodyRunA
  dsimp only
  sl_unfold_words
  rw [View.canon_cons_unit_zero (S := S128x1) hz2]
  simp only [View.readCov_unit_zero (S := S64x128) _ hz2, View.readCov_unit_zero (S := S64x1) _ hz2,
    View.readCov_unit_zero (S := S128x1) _ hz2, View.readAt_eq_ld,
    harg2.read_unread, harg3.read_unread, harg4.read_unread, harg5.read_unread, harg6.read_unread, harg7.read_unread,
    harg8.read_unread, harg9.read_unread, harg10.read_unread, harg11.read_unread, harg12.read_unread, harg13.read_unread,
    View.ld_unit_zero (S := S1x64x128) hz3, View.ld_unit_zero (S := S1x128x128) hz3, View.ld_unit_zero (S := S1x8x128) hz3,
    View.ld_unit_zero (S := S64x128) hz2, View.ld_unit_zero (S := S64x1) hz2, View.ld_unit_zero (S := S128x1) hz2]

/-! ## A middle chunk: each accumulator is added to -/

/-- After a middle chunk, the count of points confident in both lanes is this chunk's contribution added to what was there. -/
theorem stB_s0 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : ¬condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) :
    (stB c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).s0 = k0_pay22 x2 x3 xs0 := by
  unfold stB
  dsimp only
  rw [View.read_writes_junk_eq_canon]
  unfold bodyRunB
  dsimp only
  sl_unfold_words
  rw [View.canon_cons_unit_zero (S := S64x128) hz2]
  simp only [View.readCov_unit_zero (S := S64x128) _ hz2, View.readCov_unit_zero (S := S64x1) _ hz2,
    View.readCov_unit_zero (S := S128x1) _ hz2, View.readAt_eq_ld,
    harg2.read_unread, harg3.read_unread, harg4.read_unread, harg5.read_unread, harg6.read_unread, harg7.read_unread,
    harg8.read_unread, harg9.read_unread, harg10.read_unread, harg11.read_unread, harg12.read_unread, harg13.read_unread,
    View.ld_unit_zero (S := S1x64x128) hz3, View.ld_unit_zero (S := S1x128x128) hz3, View.ld_unit_zero (S := S1x8x128) hz3,
    View.ld_unit_zero (S := S64x128) hz2, View.ld_unit_zero (S := S64x1) hz2, View.ld_unit_zero (S := S128x1) hz2]

/-- After a middle chunk, the masked sum of distances is this chunk's contribution added to what was there. -/
theorem stB_s1 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : ¬condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) :
    (stB c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).s1 = k0_pay23 (k0_pay14 x0) (k0_pay15 x1) (k0_pay20 x2) (k0_pay21 x3) xs1 := by
  unfold stB
  dsimp only
  rw [View.read_writes_junk_eq_canon]
  unfold bodyRunB
  dsimp only
  sl_unfold_words
  rw [View.canon_cons_unit_zero (S := S64x128) hz2]
  simp only [View.readCov_unit_zero (S := S64x128) _ hz2, View.readCov_unit_zero (S := S64x1) _ hz2,
    View.readCov_unit_zero (S := S128x1) _ hz2, View.readAt_eq_ld,
    harg2.read_unread, harg3.read_unread, harg4.read_unread, harg5.read_unread, harg6.read_unread, harg7.read_unread,
    harg8.read_unread, harg9.read_unread, harg10.read_unread, harg11.read_unread, harg12.read_unread, harg13.read_unread,
    View.ld_unit_zero (S := S1x64x128) hz3, View.ld_unit_zero (S := S1x128x128) hz3, View.ld_unit_zero (S := S1x8x128) hz3,
    View.ld_unit_zero (S := S64x128) hz2, View.ld_unit_zero (S := S64x1) hz2, View.ld_unit_zero (S := S128x1) hz2]

/-- After a middle chunk, the rows' masked confidence sum is this chunk's contribution added to what was there. -/
theorem stB_s2 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : ¬condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) :
    (stB c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).s2 = k0_pay24 (k0_pay16 x2) (k0_pay20 x2) xs2 := by
  unfold stB
  dsimp only
  rw [View.read_writes_junk_eq_canon]
  unfold bodyRunB
  dsimp only
  sl_unfold_words
  rw [View.canon_cons_unit_zero (S := S64x1) hz2]
  simp only [View.readCov_unit_zero (S := S64x128) _ hz2, View.readCov_unit_zero (S := S64x1) _ hz2,
    View.readCov_unit_zero (S := S128x1) _ hz2, View.readAt_eq_ld,
    harg2.read_unread, harg3.read_unread, harg4.read_unread, harg5.read_unread, harg6.read_unread, harg7.read_unread,
    harg8.read_unread, harg9.read_unread, harg10.read_unread, harg11.read_unread, harg12.read_unread, harg13.read_unread,
    View.ld_unit_zero (S := S1x64x128) hz3, View.ld_unit_zero (S := S1x128x128) hz3, View.ld_unit_zero (S := S1x8x128) hz3,
    View.ld_unit_zero (S := S64x128) hz2, View.ld_unit_zero (S := S64x1) hz2, View.ld_unit_zero (S := S128x1) hz2]

/-- After a middle chunk, the rows' confident-point count is this chunk's contribution added to what was there. -/
theorem stB_s3 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : ¬condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) :
    (stB c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).s3 = k0_pay25 (k0_pay20 x2) xs3 := by
  unfold stB
  dsimp only
  rw [View.read_writes_junk_eq_canon]
  unfold bodyRunB
  dsimp only
  sl_unfold_words
  rw [View.canon_cons_unit_zero (S := S64x1) hz2]
  simp only [View.readCov_unit_zero (S := S64x128) _ hz2, View.readCov_unit_zero (S := S64x1) _ hz2,
    View.readCov_unit_zero (S := S128x1) _ hz2, View.readAt_eq_ld,
    harg2.read_unread, harg3.read_unread, harg4.read_unread, harg5.read_unread, harg6.read_unread, harg7.read_unread,
    harg8.read_unread, harg9.read_unread, harg10.read_unread, harg11.read_unread, harg12.read_unread, harg13.read_unread,
    View.ld_unit_zero (S := S1x64x128) hz3, View.ld_unit_zero (S := S1x128x128) hz3, View.ld_unit_zero (S := S1x8x128) hz3,
    View.ld_unit_zero (S := S64x128) hz2, View.ld_unit_zero (S := S64x1) hz2, View.ld_unit_zero (S := S128x1) hz2]

/-- After a middle chunk, the lanes' masked confidence sum is this chunk's contribution added to what was there. -/
theorem stB_s4 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : ¬condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) :
    (stB c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).s4 = k0_pay1 (k0_pay26 (k0_pay17 x3) (k0_pay21 x3) xs4) := by
  unfold stB
  dsimp only
  rw [View.read_writes_junk_eq_canon]
  unfold bodyRunB
  dsimp only
  sl_unfold_words
  rw [View.canon_cons_unit_zero (S := S128x1) hz2]
  simp only [View.readCov_unit_zero (S := S64x128) _ hz2, View.readCov_unit_zero (S := S64x1) _ hz2,
    View.readCov_unit_zero (S := S128x1) _ hz2, View.readAt_eq_ld,
    harg2.read_unread, harg3.read_unread, harg4.read_unread, harg5.read_unread, harg6.read_unread, harg7.read_unread,
    harg8.read_unread, harg9.read_unread, harg10.read_unread, harg11.read_unread, harg12.read_unread, harg13.read_unread,
    View.ld_unit_zero (S := S1x64x128) hz3, View.ld_unit_zero (S := S1x128x128) hz3, View.ld_unit_zero (S := S1x8x128) hz3,
    View.ld_unit_zero (S := S64x128) hz2, View.ld_unit_zero (S := S64x1) hz2, View.ld_unit_zero (S := S128x1) hz2]

/-- After a middle chunk, the lanes' confident-point count is this chunk's contribution added to what was there. -/
theorem stB_s5 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : ¬condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) :
    (stB c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).s5 = k0_pay2 (k0_pay21 x3) xs5 := by
  unfold stB
  dsimp only
  rw [View.read_writes_junk_eq_canon]
  unfold bodyRunB
  dsimp only
  sl_unfold_words
  rw [View.canon_cons_unit_zero (S := S128x1) hz2]
  simp only [View.readCov_unit_zero (S := S64x128) _ hz2, View.readCov_unit_zero (S := S64x1) _ hz2,
    View.readCov_unit_zero (S := S128x1) _ hz2, View.readAt_eq_ld,
    harg2.read_unread, harg3.read_unread, harg4.read_unread, harg5.read_unread, harg6.read_unread, harg7.read_unread,
    harg8.read_unread, harg9.read_unread, harg10.read_unread, harg11.read_unread, harg12.read_unread, harg13.read_unread,
    View.ld_unit_zero (S := S1x64x128) hz3, View.ld_unit_zero (S := S1x128x128) hz3, View.ld_unit_zero (S := S1x8x128) hz3,
    View.ld_unit_zero (S := S64x128) hz2, View.ld_unit_zero (S := S64x1) hz2, View.ld_unit_zero (S := S128x1) hz2]

/-! ## A last chunk: each accumulator is added to, and the two results are computed from the new values -/

/-- After a last chunk, the count of points confident in both lanes is this chunk's contribution added to what was there. -/
theorem stC_s0 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) :
    (stC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).s0 = k0_pay22 x2 x3 xs0 := by
  unfold stC
  dsimp only
  rw [View.read_writes_junk_eq_canon]
  unfold bodyRunC
  dsimp only
  sl_unfold_words
  rw [View.canon_cons_unit_zero (S := S64x128) hz2]
  simp only [View.readCov_unit_zero (S := S64x128) _ hz2, View.readCov_unit_zero (S := S64x1) _ hz2,
    View.readCov_unit_zero (S := S128x1) _ hz2, View.readAt_eq_ld,
    harg2.read_unread, harg3.read_unread, harg4.read_unread, harg5.read_unread, harg6.read_unread, harg7.read_unread,
    harg8.read_unread, harg9.read_unread, harg10.read_unread, harg11.read_unread, harg12.read_unread, harg13.read_unread,
    View.ld_unit_zero (S := S1x64x128) hz3, View.ld_unit_zero (S := S1x128x128) hz3, View.ld_unit_zero (S := S1x8x128) hz3,
    View.ld_unit_zero (S := S64x128) hz2, View.ld_unit_zero (S := S64x1) hz2, View.ld_unit_zero (S := S128x1) hz2]

/-- After a last chunk, the masked sum of distances is this chunk's contribution added to what was there. -/
theorem stC_s1 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) :
    (stC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).s1 = k0_pay23 (k0_pay14 x0) (k0_pay15 x1) (k0_pay20 x2) (k0_pay21 x3) xs1 := by
  unfold stC
  dsimp only
  rw [View.read_writes_junk_eq_canon]
  unfold bodyRunC
  dsimp only
  sl_unfold_words
  rw [View.canon_cons_unit_zero (S := S64x128) hz2]
  simp only [View.readCov_unit_zero (S := S64x128) _ hz2, View.readCov_unit_zero (S := S64x1) _ hz2,
    View.readCov_unit_zero (S := S128x1) _ hz2, View.readAt_eq_ld,
    harg2.read_unread, harg3.read_unread, harg4.read_unread, harg5.read_unread, harg6.read_unread, harg7.read_unread,
    harg8.read_unread, harg9.read_unread, harg10.read_unread, harg11.read_unread, harg12.read_unread, harg13.read_unread,
    View.ld_unit_zero (S := S1x64x128) hz3, View.ld_unit_zero (S := S1x128x128) hz3, View.ld_unit_zero (S := S1x8x128) hz3,
    View.ld_unit_zero (S := S64x128) hz2, View.ld_unit_zero (S := S64x1) hz2, View.ld_unit_zero (S := S128x1) hz2]

/-- After a last chunk, the rows' masked confidence sum is this chunk's contribution added to what was there. -/
theorem stC_s2 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) :
    (stC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).s2 = k0_pay24 (k0_pay16 x2) (k0_pay20 x2) xs2 := by
  unfold stC
  dsimp only
  rw [View.read_writes_junk_eq_canon]
  unfold bodyRunC
  dsimp only
  sl_unfold_words
  rw [View.canon_cons_unit_zero (S := S64x1) hz2]
  simp only [View.readCov_unit_zero (S := S64x128) _ hz2, View.readCov_unit_zero (S := S64x1) _ hz2,
    View.readCov_unit_zero (S := S128x1) _ hz2, View.readAt_eq_ld,
    harg2.read_unread, harg3.read_unread, harg4.read_unread, harg5.read_unread, harg6.read_unread, harg7.read_unread,
    harg8.read_unread, harg9.read_unread, harg10.read_unread, harg11.read_unread, harg12.read_unread, harg13.read_unread,
    View.ld_unit_zero (S := S1x64x128) hz3, View.ld_unit_zero (S := S1x128x128) hz3, View.ld_unit_zero (S := S1x8x128) hz3,
    View.ld_unit_zero (S := S64x128) hz2, View.ld_unit_zero (S := S64x1) hz2, View.ld_unit_zero (S := S128x1) hz2]

/-- After a last chunk, the rows' confident-point count is this chunk's contribution added to what was there. -/
theorem stC_s3 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) :
    (stC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).s3 = k0_pay25 (k0_pay20 x2) xs3 := by
  unfold stC
  dsimp only
  rw [View.read_writes_junk_eq_canon]
  unfold bodyRunC
  dsimp only
  sl_unfold_words
  rw [View.canon_cons_unit_zero (S := S64x1) hz2]
  simp only [View.readCov_unit_zero (S := S64x128) _ hz2, View.readCov_unit_zero (S := S64x1) _ hz2,
    View.readCov_unit_zero (S := S128x1) _ hz2, View.readAt_eq_ld,
    harg2.read_unread, harg3.read_unread, harg4.read_unread, harg5.read_unread, harg6.read_unread, harg7.read_unread,
    harg8.read_unread, harg9.read_unread, harg10.read_unread, harg11.read_unread, harg12.read_unread, harg13.read_unread,
    View.ld_unit_zero (S := S1x64x128) hz3, View.ld_unit_zero (S := S1x128x128) hz3, View.ld_unit_zero (S := S1x8x128) hz3,
    View.ld_unit_zero (S := S64x128) hz2, View.ld_unit_zero (S := S64x1) hz2, View.ld_unit_zero (S := S128x1) hz2]

/-- After a last chunk, the lanes' masked confidence sum is this chunk's contribution added to what was there. -/
theorem stC_s4 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) :
    (stC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).s4 = k0_pay1 (k0_pay26 (k0_pay17 x3) (k0_pay21 x3) xs4) := by
  unfold stC
  dsimp only
  rw [View.read_writes_junk_eq_canon]
  unfold bodyRunC
  dsimp only
  sl_unfold_words
  rw [View.canon_cons_unit_zero (S := S128x1) hz2]
  simp only [View.readCov_unit_zero (S := S64x128) _ hz2, View.readCov_unit_zero (S := S64x1) _ hz2,
    View.readCov_unit_zero (S := S128x1) _ hz2, View.readAt_eq_ld,
    harg2.read_unread, harg3.read_unread, harg4.read_unread, harg5.read_unread, harg6.read_unread, harg7.read_unread,
    harg8.read_unread, harg9.read_unread, harg10.read_unread, harg11.read_unread, harg12.read_unread, harg13.read_unread,
    View.ld_unit_zero (S := S1x64x128) hz3, View.ld_unit_zero (S := S1x128x128) hz3, View.ld_unit_zero (S := S1x8x128) hz3,
    View.ld_unit_zero (S := S64x128) hz2, View.ld_unit_zero (S := S64x1) hz2, View.ld_unit_zero (S := S128x1) hz2]

/-- After a last chunk, the lanes' confident-point count is this chunk's contribution added to what was there. -/
theorem stC_s5 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) :
    (stC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).s5 = k0_pay2 (k0_pay21 x3) xs5 := by
  unfold stC
  dsimp only
  rw [View.read_writes_junk_eq_canon]
  unfold bodyRunC
  dsimp only
  sl_unfold_words
  rw [View.canon_cons_unit_zero (S := S128x1) hz2]
  simp only [View.readCov_unit_zero (S := S64x128) _ hz2, View.readCov_unit_zero (S := S64x1) _ hz2,
    View.readCov_unit_zero (S := S128x1) _ hz2, View.readAt_eq_ld,
    harg2.read_unread, harg3.read_unread, harg4.read_unread, harg5.read_unread, harg6.read_unread, harg7.read_unread,
    harg8.read_unread, harg9.read_unread, harg10.read_unread, harg11.read_unread, harg12.read_unread, harg13.read_unread,
    View.ld_unit_zero (S := S1x64x128) hz3, View.ld_unit_zero (S := S1x128x128) hz3, View.ld_unit_zero (S := S1x8x128) hz3,
    View.ld_unit_zero (S := S64x128) hz2, View.ld_unit_zero (S := S64x1) hz2, View.ld_unit_zero (S := S128x1) hz2]

/-- The rows' result block: computed from the six accumulators' new values (the distance sum first, then the count). -/
theorem stC_o4 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) :
    (stC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).o4 = k0_pay6 (BitVec.ofNat 32 (i 0).val)
        (k0_pay23 (k0_pay14 x0) (k0_pay15 x1) (k0_pay20 x2) (k0_pay21 x3) xs1)
        (k0_pay22 x2 x3 xs0)
        (k0_pay24 (k0_pay16 x2) (k0_pay20 x2) xs2)
        (k0_pay25 (k0_pay20 x2) xs3)
        (k0_pay1 (k0_pay26 (k0_pay17 x3) (k0_pay21 x3) xs4))
        (k0_pay2 (k0_pay21 x3) xs5) := by
  unfold stC
  dsimp only
  rw [View.read_writes_junk_eq_canon]
  unfold bodyRunC
  dsimp only
  sl_unfold_words
  rw [View.canon_cons_unit_zero (S := S64x1) hz2]
  simp only [View.readCov_unit_zero (S := S64x128) _ hz2, View.readCov_unit_zero (S := S64x1) _ hz2,
    View.readCov_unit_zero (S := S128x1) _ hz2, View.readAt_eq_ld,
    harg2.read_unread, harg3.read_unread, harg4.read_unread, harg5.read_unread, harg6.read_unread, harg7.read_unread,
    harg8.read_unread, harg9.read_unread, harg10.read_unread, harg11.read_unread, harg12.read_unread, harg13.read_unread,
    View.ld_unit_zero (S := S1x64x128) hz3, View.ld_unit_zero (S := S1x128x128) hz3, View.ld_unit_zero (S := S1x8x128) hz3,
    View.ld_unit_zero (S := S64x128) hz2, View.ld_unit_zero (S := S64x1) hz2, View.ld_unit_zero (S := S128x1) hz2]

/-- The lanes' result block: computed from the same six new values. -/
theorem stC_o5 (c : Dev nD) (i : grid0.Coords) (arg2 : Memref sig .tc .vmem S1x64x128 .f32) (harg2 : arg2.IsWhole) (arg3 : Memref sig .tc .vmem S1x128x128 .f32) (harg3 : arg3.IsWhole) (arg4 : Memref sig .tc .vmem S1x64x128 .f32) (harg4 : arg4.IsWhole) (arg5 : Memref sig .tc .vmem S1x128x128 .f32) (harg5 : arg5.IsWhole) (arg6 : Memref sig .tc .vmem S64x1 .f32) (harg6 : arg6.IsWhole) (arg7 : Memref sig .tc .vmem S1x8x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S128x1 .f32) (harg12 : arg12.IsWhole) (arg13 : Memref sig .tc .vmem S128x1 .f32) (harg13 : arg13.IsWhole) (hc0 : ¬condFirst i) (hc1 : condLast i)
    (x0 : Vec F S1x64x128 .f32) (x1 : Vec F S1x128x128 .f32) (x2 : Vec F S1x64x128 .f32) (x3 : Vec F S1x128x128 .f32) (xs0 : Vec F S64x128 .f32) (xs1 : Vec F S64x128 .f32) (xs2 : Vec F S64x1 .f32) (xs3 : Vec F S64x1 .f32) (xs4 : Vec F S128x1 .f32) (xs5 : Vec F S128x1 .f32) :
    (stC c i arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5).o5 = k0_pay3 (k0_pay7 (BitVec.ofNat 32 (i 0).val)
        (k0_pay23 (k0_pay14 x0) (k0_pay15 x1) (k0_pay20 x2) (k0_pay21 x3) xs1)
        (k0_pay22 x2 x3 xs0)
        (k0_pay24 (k0_pay16 x2) (k0_pay20 x2) xs2)
        (k0_pay25 (k0_pay20 x2) xs3)
        (k0_pay1 (k0_pay26 (k0_pay17 x3) (k0_pay21 x3) xs4))
        (k0_pay2 (k0_pay21 x3) xs5)) := by
  unfold stC
  dsimp only
  rw [View.read_writes_junk_eq_canon]
  unfold bodyRunC
  dsimp only
  sl_unfold_words
  rw [View.canon_cons_unit_zero (S := S1x8x128) hz3]
  simp only [View.readCov_unit_zero (S := S64x128) _ hz2, View.readCov_unit_zero (S := S64x1) _ hz2,
    View.readCov_unit_zero (S := S128x1) _ hz2, View.readAt_eq_ld,
    harg2.read_unread, harg3.read_unread, harg4.read_unread, harg5.read_unread, harg6.read_unread, harg7.read_unread,
    harg8.read_unread, harg9.read_unread, harg10.read_unread, harg11.read_unread, harg12.read_unread, harg13.read_unread,
    View.ld_unit_zero (S := S1x64x128) hz3, View.ld_unit_zero (S := S1x128x128) hz3, View.ld_unit_zero (S := S1x8x128) hz3,
    View.ld_unit_zero (S := S64x128) hz2, View.ld_unit_zero (S := S64x1) hz2, View.ld_unit_zero (S := S128x1) hz2]

end Cert.KernelIdeal.Hand

end
-- ==== Proof.KernelIdeal.Blocks.lean ====
/-
  The four input blocks of the kernel's region, read at an index.

  The grid has eight points; point t is half t / 4 of the 128 lanes and column chunk t % 4 of the 512 points. Every
  input window reads batch 7. Windows 0 and 2 hold the half's 64 lanes of the first and of the second argument;
  windows 1 and 3 hold all 128 lanes of them; all four at the chunk's 128 columns. A block's coordinate on an axis
  is the block index times the block's extent plus the coordinate inside the block, so element (0, r, k) of window
  0's block is the argument at (7, 64 · (t / 4) + r, 128 · (t % 4) + k), and element (0, j, k) of window 1's block
  is the argument at (7, j, 128 · (t % 4) + k). The block indices are the printed index maps, decided once over the
  eight points.
-/
import proofs.«140321_j78700980732218_2_alg».proof.Proof.KernelIdeal.Cases
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]
variable (m : (ℓ : Loc nD τ sig) → Buf (Elt F) ℓ)

/-! ## The grid: eight points, point t = 4 · (half) + (column chunk) -/

/-- A grid point is below 8. -/
theorem t_lt (t : Fin cfg0.N) : t.val < 8 := by
  have h := t.isLt
  have e : cfg0.N = 8 := N_0
  omega

/-- The two grid coordinates of point t: the half t / 4 and the column chunk t % 4. -/
theorem coords_val : ∀ t : Fin cfg0.N, ((grid0.coords t) 0).val = t.val / 4 ∧ ((grid0.coords t) 1).val = t.val % 4 :=
  (by decide +kernel : ∀ t : Fin grid0.N, _)

/-- The printed index maps of the four input windows, decided over the grid: batch 7 always; the half, or 0, on
    the row axis; the column chunk on the column axis. -/
theorem idx_facts : ∀ t : Fin cfg0.N,
    (win0_0.index t (0 : Fin 3) = 7 ∧ win0_0.index t (1 : Fin 3) = t.val / 4 ∧ win0_0.index t (2 : Fin 3) = t.val % 4)
    ∧ (win0_1.index t (0 : Fin 3) = 7 ∧ win0_1.index t (1 : Fin 3) = 0 ∧ win0_1.index t (2 : Fin 3) = t.val % 4)
    ∧ (win0_2.index t (0 : Fin 3) = 7 ∧ win0_2.index t (1 : Fin 3) = t.val / 4 ∧ win0_2.index t (2 : Fin 3) = t.val % 4)
    ∧ (win0_3.index t (0 : Fin 3) = 7 ∧ win0_3.index t (1 : Fin 3) = 0 ∧ win0_3.index t (2 : Fin 3) = t.val % 4) :=
  (by decide +kernel : ∀ t : Fin grid0.N, _)

/-- Row r of the 64 rows point t's half owns: 64 · (t / 4) + r. -/
def rowOf (t : Fin cfg0.N) (r : Fin 64) : Fin 128 := ⟨64 * (t.val / 4) + r.val, by have := t_lt t; have := r.isLt; omega⟩
/-- Column k of point t's chunk of 128 columns: 128 · (t % 4) + k. -/
def colOf (t : Fin cfg0.N) (k : Fin 128) : Fin 512 := ⟨128 * (t.val % 4) + k.val, by have := t_lt t; have := k.isLt; omega⟩

@[simp] theorem rowOf_val (t : Fin cfg0.N) (r : Fin 64) : (rowOf t r).val = 64 * (t.val / 4) + r.val := rfl
@[simp] theorem colOf_val (t : Fin cfg0.N) (k : Fin 128) : (colOf t k).val = 128 * (t.val % 4) + k.val := rfl

/-! ## The four input blocks at an index -/

/-- Window 0: the half's 64 rows of the first argument's batch 7, at the point's column chunk. -/
theorem iblk0_apply (c : Dev nD) (t : Fin cfg0.N) (r : Fin 64) (k : Fin 128) :
    iblk m c 0 t (ix3 (0 : Fin 1) r k) = V m c main_arg0 (ix3 (7 : Fin 8) (rowOf t r) (colOf t k)) := by
  obtain ⟨⟨e0, e1, e2⟩, -, -, -⟩ := idx_facts t
  show V m c main_arg0 (((cfg0.win 0).blk t).view.emb (ix3 (0 : Fin 1) r k)) = _
  refine congrArg (V m c main_arg0) (funext fun a => Fin.ext ?_)
  match a with
  | ⟨0, _⟩ => show win0_0.index t (0 : Fin 3) * 1 + 1 * 0 = 7; omega
  | ⟨1, _⟩ => show win0_0.index t (1 : Fin 3) * 64 + 1 * r.val = 64 * (t.val / 4) + r.val; omega
  | ⟨2, _⟩ => show win0_0.index t (2 : Fin 3) * 128 + 1 * k.val = 128 * (t.val % 4) + k.val; omega

/-- Window 1: all 128 rows of the first argument's batch 7, at the point's column chunk. -/
theorem iblk1_apply (c : Dev nD) (t : Fin cfg0.N) (j : Fin 128) (k : Fin 128) :
    iblk m c 1 t (ix3 (0 : Fin 1) j k) = V m c main_arg0 (ix3 (7 : Fin 8) j (colOf t k)) := by
  obtain ⟨-, ⟨e0, e1, e2⟩, -, -⟩ := idx_facts t
  show V m c main_arg0 (((cfg0.win 1).blk t).view.emb (ix3 (0 : Fin 1) j k)) = _
  refine congrArg (V m c main_arg0) (funext fun a => Fin.ext ?_)
  match a with
  | ⟨0, _⟩ => show win0_1.index t (0 : Fin 3) * 1 + 1 * 0 = 7; omega
  | ⟨1, _⟩ => show win0_1.index t (1 : Fin 3) * 128 + 1 * j.val = j.val; omega
  | ⟨2, _⟩ => show win0_1.index t (2 : Fin 3) * 128 + 1 * k.val = 128 * (t.val % 4) + k.val; omega

/-- Window 2: the half's 64 rows of the second argument's batch 7, at the point's column chunk. -/
theorem iblk2_apply (c : Dev nD) (t : Fin cfg0.N) (r : Fin 64) (k : Fin 128) :
    iblk m c 2 t (ix3 (0 : Fin 1) r k) = V m c main_arg1 (ix3 (7 : Fin 8) (rowOf t r) (colOf t k)) := by
  obtain ⟨-, -, ⟨e0, e1, e2⟩, -⟩ := idx_facts t
  show V m c main_arg1 (((cfg0.win 2).blk t).view.emb (ix3 (0 : Fin 1) r k)) = _
  refine congrArg (V m c main_arg1) (funext fun a => Fin.ext ?_)
  match a with
  | ⟨0, _⟩ => show win0_2.index t (0 : Fin 3) * 1 + 1 * 0 = 7; omega
  | ⟨1, _⟩ => show win0_2.index t (1 : Fin 3) * 64 + 1 * r.val = 64 * (t.val / 4) + r.val; omega
  | ⟨2, _⟩ => show win0_2.index t (2 : Fin 3) * 128 + 1 * k.val = 128 * (t.val % 4) + k.val; omega

/-- Window 3: all 128 rows of the second argument's batch 7, at the point's column chunk. -/
theorem iblk3_apply (c : Dev nD) (t : Fin cfg0.N) (j : Fin 128) (k : Fin 128) :
    iblk m c 3 t (ix3 (0 : Fin 1) j k) = V m c main_arg1 (ix3 (7 : Fin 8) j (colOf t k)) := by
  obtain ⟨-, -, -, ⟨e0, e1, e2⟩⟩ := idx_facts t
  show V m c main_arg1 (((cfg0.win 3).blk t).view.emb (ix3 (0 : Fin 1) j k)) = _
  refine congrArg (V m c main_arg1) (funext fun a => Fin.ext ?_)
  match a with
  | ⟨0, _⟩ => show win0_3.index t (0 : Fin 3) * 1 + 1 * 0 = 7; omega
  | ⟨1, _⟩ => show win0_3.index t (1 : Fin 3) * 128 + 1 * j.val = j.val; omega
  | ⟨2, _⟩ => show win0_3.index t (2 : Fin 3) * 128 + 1 * k.val = 128 * (t.val % 4) + k.val; omega

/-- The first grid coordinate as the 32-bit word the body compares: the half. -/
theorem coord0_word (t : Fin cfg0.N) : BitVec.ofNat 32 ((grid0.coords t) 0).val = BitVec.ofNat 32 (t.val / 4) := by
  rw [(coords_val t).1]
/-- The second grid coordinate as a 32-bit word: the column chunk. -/
theorem coord1_word (t : Fin cfg0.N) : BitVec.ofNat 32 ((grid0.coords t) 1).val = BitVec.ofNat 32 (t.val % 4) := by
  rw [(coords_val t).2]

end Cert.KernelIdeal.Hand
end
-- ==== Proof.KernelIdeal.Pay.lean ====
/-
  The kernel body's values, read one element at a time on the extended reals.

  The body works on a [64, 128] block of rows (lanes i) and a [128, 128] block of all lanes (lanes j), both over the
  same 128 points k. It compares the confidences with a threshold, turns the two bit masks into 0/1 reals, and adds
  to six running sums: the number of points confident in both lanes (a matrix product of the two masks, which on the
  extended reals is the plain contraction over k), the masked sum of |reg i k − reg j k|, and per lane the masked sum
  of the confidences and the number of confident points. Each lemma below says what ONE entry of one of these values
  is, as a formula in the entries of the operands: a change of shape reads the same element under another index, a
  repeat along a new axis forgets that axis's coordinate, a sum along the lanes is a sum over k : Fin 128, and a change
  of float format does nothing.
-/
import proofs.«140321_j78700980732218_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx
open scoped BigOperators

abbrev f01 (b : BitVec 1) : EReal := ((b.toNat : ℝ) : EReal)
abbrev thr : EReal := Ideal.ofBits .f32 0x3F19999A#32
abbrev eps : EReal := Ideal.ofBits .f32 0x3D4CCCCD#32

theorem pay14_apply (v3 : Vec Ideal S1x64x128 .f32) (r : Fin 64) (k : Fin 128) :
    k0_pay14 (F := Ideal) v3 (ix2 r k) = v3 (ix3 (0 : Fin 1) r k) :=
  shapeCast_1ab_ab_apply v3 _ r k

theorem pay15_apply (v5 : Vec Ideal S1x128x128 .f32) (j : Fin 128) (k : Fin 128) :
    k0_pay15 (F := Ideal) v5 (ix2 j k) = v5 (ix3 (0 : Fin 1) j k) :=
  shapeCast_1ab_ab_apply v5 _ j k

theorem pay16_apply (v7 : Vec Ideal S1x64x128 .f32) (r : Fin 64) (k : Fin 128) :
    k0_pay16 (F := Ideal) v7 (ix2 r k) = v7 (ix3 (0 : Fin 1) r k) :=
  shapeCast_1ab_ab_apply v7 _ r k

theorem pay17_apply (v9 : Vec Ideal S1x128x128 .f32) (j : Fin 128) (k : Fin 128) :
    k0_pay17 (F := Ideal) v9 (ix2 j k) = v9 (ix3 (0 : Fin 1) j k) :=
  shapeCast_1ab_ab_apply v9 _ j k

theorem pay18_apply (v7 : Vec Ideal S1x64x128 .f32) (r : Fin 64) (k : Fin 128) :
    k0_pay18 (F := Ideal) v7 (ix2 r k) = Ideal.cmp .ogt (v7 (ix3 (0 : Fin 1) r k)) thr := by
  show Ideal.cmp .ogt (k0_pay16 (F := Ideal) v7 (ix2 r k)) thr = _
  rw [pay16_apply]

theorem pay19_apply (v9 : Vec Ideal S1x128x128 .f32) (j : Fin 128) (k : Fin 128) :
    k0_pay19 (F := Ideal) v9 (ix2 j k) = Ideal.cmp .ogt (v9 (ix3 (0 : Fin 1) j k)) thr := by
  show Ideal.cmp .ogt (k0_pay17 (F := Ideal) v9 (ix2 j k)) thr = _
  rw [pay17_apply]

theorem sitofp_extui_bit (b : BitVec 1) :
    FloatOps.sitofp (F := Ideal) .f32 (b.setWidth 32) = f01 b := by
  show (((b.setWidth 32).toInt : ℝ) : EReal) = ((b.toNat : ℝ) : EReal)
  have h : (b.setWidth 32).toInt = (b.toNat : Int) := by
    rcases BitVec.eq_zero_or_eq_one b with h | h <;> subst h <;> decide
  rw [h, Int.cast_natCast]

theorem pay20_apply (v7 : Vec Ideal S1x64x128 .f32) (r : Fin 64) (k : Fin 128) :
    k0_pay20 (F := Ideal) v7 (ix2 r k) = f01 (k0_pay18 (F := Ideal) v7 (ix2 r k)) :=
  sitofp_extui_bit _

theorem pay21_apply (v9 : Vec Ideal S1x128x128 .f32) (j : Fin 128) (k : Fin 128) :
    k0_pay21 (F := Ideal) v9 (ix2 j k) = f01 (k0_pay19 (F := Ideal) v9 (ix2 j k)) :=
  sitofp_extui_bit _

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the lanes of a `[64, 128]` vector, at row `r`. -/
theorem laneSum64 (x : FVec Ideal S64x128 .f32) (h : S64x128.Reduces [1] S64) (hφ : FKind.Formats .f32)
    (hacc : (0x00000000#32 : BitVec 32) = FKind.add.neutral .f32 hφ) (r : Fin 64) :
    multiReduction .add [1] S64 x 0x00000000#32 h hφ hacc (ix1 r) = ∑ k : Fin 128, x (ix2 r k) := by
  refine (Ideal.multiReduction_add_single x 0x00000000#32 h hφ hacc (ix1 r)).trans ?_
  refine Finset.sum_congr rfl fun k _ => congrArg x ?_
  funext a
  match a with
  | ⟨0, _⟩ => exact Fin.ext rfl
  | ⟨1, _⟩ => exact Fin.ext rfl

/-- The sum along the lanes of a `[128, 128]` vector, at row `j`. -/
theorem laneSum128 (x : FVec Ideal S128x128 .f32) (h : S128x128.Reduces [1] S128) (hφ : FKind.Formats .f32)
    (hacc : (0x00000000#32 : BitVec 32) = FKind.add.neutral .f32 hφ) (j : Fin 128) :
    multiReduction .add [1] S128 x 0x00000000#32 h hφ hacc (ix1 j) = ∑ k : Fin 128, x (ix2 j k) := by
  refine (Ideal.multiReduction_add_single x 0x00000000#32 h hφ hacc (ix1 j)).trans ?_
  refine Finset.sum_congr rfl fun k _ => congrArg x ?_
  funext a
  match a with
  | ⟨0, _⟩ => exact Fin.ext rfl
  | ⟨1, _⟩ => exact Fin.ext rfl

theorem pay24_apply (v8 v16 : FVec Ideal S64x128 .f32) (v50 : Vec Ideal S64x1 .f32) (r : Fin 64) :
    k0_pay24 (F := Ideal) v8 v16 v50 (ix2 r (0 : Fin 1))
      = v50 (ix2 r (0 : Fin 1)) + ∑ k : Fin 128, v8 (ix2 r k) * v16 (ix2 r k) := by
  dsimp only [k0_pay24]
  rw [shapeCast_self, addf_apply]
  refine congrArg (v50 (ix2 r (0 : Fin 1)) + ·) ?_
  refine (shapeCast_a_a1_apply _ _ r 0).trans ?_
  exact laneSum64 (mulf v8 v16) _ _ _ r

theorem pay25_apply (v16 : FVec Ideal S64x128 .f32) (v58 : Vec Ideal S64x1 .f32) (r : Fin 64) :
    k0_pay25 (F := Ideal) v16 v58 (ix2 r (0 : Fin 1))
      = v58 (ix2 r (0 : Fin 1)) + ∑ k : Fin 128, v16 (ix2 r k) := by
  dsimp only [k0_pay25]
  rw [shapeCast_self, addf_apply]
  refine congrArg (v58 (ix2 r (0 : Fin 1)) + ·) ?_
  refine (shapeCast_a_a1_apply _ _ r 0).trans ?_
  exact laneSum64 v16 _ _ _ r

theorem pay1_pay26_apply (v10 v18 : FVec Ideal S128x128 .f32) (v65 : Vec Ideal S128x1 .f32) (j : Fin 128) :
    k0_pay1 (F := Ideal) (k0_pay26 (F := Ideal) v10 v18 v65) (ix2 j (0 : Fin 1))
      = v65 (ix2 j (0 : Fin 1)) + ∑ k : Fin 128, v10 (ix2 j k) * v18 (ix2 j k) := by
  dsimp only [k0_pay1, k0_pay26]
  rw [shapeCast_self, addf_apply]
  refine congrArg (v65 (ix2 j (0 : Fin 1)) + ·) ?_
  refine (shapeCast_a_a1_apply _ _ j 0).trans ?_
  exact laneSum128 (mulf v10 v18) _ _ _ j

theorem pay2_apply (v18 : FVec Ideal S128x128 .f32) (v73 : Vec Ideal S128x1 .f32) (j : Fin 128) :
    k0_pay2 (F := Ideal) v18 v73 (ix2 j (0 : Fin 1))
      = v73 (ix2 j (0 : Fin 1)) + ∑ k : Fin 128, v18 (ix2 j k) := by
  dsimp only [k0_pay2]
  rw [shapeCast_self, addf_apply]
  refine congrArg (v73 (ix2 j (0 : Fin 1)) + ·) ?_
  refine (shapeCast_a_a1_apply _ _ j 0).trans ?_
  exact laneSum128 v18 _ _ _ j

theorem pay8_apply (i : S64x128.Idx) : k0_pay8 (F := Ideal) i = 0 := by
  dsimp only [k0_pay8]
  rw [shapeCast_self]
  exact Ideal.ofBits_zero_f32

theorem pay9_apply (i : S64x128.Idx) : k0_pay9 (F := Ideal) i = 0 := by
  dsimp only [k0_pay9]
  rw [shapeCast_self]
  exact Ideal.ofBits_zero_f32

theorem pay10_apply (i : S64x1.Idx) : k0_pay10 (F := Ideal) i = 0 := by
  dsimp only [k0_pay10]
  rw [shapeCast_self]
  exact Ideal.ofBits_zero_f32

theorem pay11_apply (i : S64x1.Idx) : k0_pay11 (F := Ideal) i = 0 := by
  dsimp only [k0_pay11]
  rw [shapeCast_self]
  exact Ideal.ofBits_zero_f32

theorem pay12_apply (i : S128x1.Idx) : k0_pay12 (F := Ideal) i = 0 := by
  dsimp only [k0_pay12]
  rw [shapeCast_self]
  exact Ideal.ofBits_zero_f32

theorem pay13_apply (i : S128x1.Idx) : k0_pay13 (F := Ideal) i = 0 := by
  dsimp only [k0_pay13]
  rw [shapeCast_self]
  exact Ideal.ofBits_zero_f32

/-- The matrix product's dimension numbers: contract the left operand's axis 1 with the right operand's axis 0. -/
abbrev DD : DotDims S64x128 S128x128 S64x128 := dot_S64x128_S128x128_S64x128_1_0_0_1_n_n

theorem dd_lhs0 (i : S64x128.Idx) (q : DD.contr.Idx) : (DD.lhsIdx i q 0).val = (i 0).val := by
  unfold DotDims.lhsIdx
  rw [dif_neg (show ¬(0 : Fin S64x128.rank) ∈ DD.lhsBatch by decide),
    dif_pos (show (0 : Fin S64x128.rank) ∈ DD.lhsNonContracting by decide)]
  rfl

theorem dd_lhs1 (i : S64x128.Idx) (q : DD.contr.Idx) : (DD.lhsIdx i q 1).val = (q ⟨0, by decide⟩).val :=
  DD.lhsIdx_val_of_single rfl i q

theorem dd_rhs0 (i : S64x128.Idx) (q : DD.contr.Idx) : (DD.rhsIdx i q 0).val = (q ⟨0, by decide⟩).val :=
  DD.rhsIdx_val_of_single rfl i q

theorem dd_rhs1 (i : S64x128.Idx) (q : DD.contr.Idx) : (DD.rhsIdx i q 1).val = (i 1).val := by
  unfold DotDims.rhsIdx
  rw [dif_neg (show ¬(1 : Fin S128x128.rank) ∈ DD.rhsBatch by decide),
    dif_pos (show (1 : Fin S128x128.rank) ∈ DD.rhsNonContracting by decide)]
  rfl

/-- The product into a zero accumulator, read at `(r, j)`: the plain contraction over the shared axis. -/
theorem matmul_zero_apply (A : FVec Ideal S64x128 .bf16) (B : FVec Ideal S128x128 .bf16) (r : Fin 64) (j : Fin 128) :
    matmul DD none A B (constant (F := Ideal) S64x128 .f32 0x00000000#32) (ix2 r j)
      = ∑ k : Fin 128, A (ix2 r k) * B (ix2 k j) := by
  refine (Ideal.matmul_constant_zero_apply DD none A B (ix2 r j)).trans ?_
  rw [← Equiv.sum_comp (contrEquiv1 DD 128 rfl rfl).symm]
  refine Finset.sum_congr rfl fun k _ => ?_
  have hk := contrEquiv1_symm_val DD 128 rfl rfl k
  have el : DD.lhsIdx (ix2 r j) ((contrEquiv1 DD 128 rfl rfl).symm k) = ix2 r k := funext fun a => Fin.ext (by
    match a with
    | ⟨0, _⟩ => exact dd_lhs0 _ _
    | ⟨1, _⟩ => exact (dd_lhs1 _ _).trans hk)
  have er : DD.rhsIdx (ix2 r j) ((contrEquiv1 DD 128 rfl rfl).symm k) = ix2 k j := funext fun a => Fin.ext (by
    match a with
    | ⟨0, _⟩ => exact (dd_rhs0 _ _).trans hk
    | ⟨1, _⟩ => exact dd_rhs1 _ _)
  rw [el, er]

theorem pay22_apply (v7 : Vec Ideal S1x64x128 .f32) (v9 : Vec Ideal S1x128x128 .f32) (v25 : Vec Ideal S64x128 .f32)
    (r : Fin 64) (j : Fin 128) :
    k0_pay22 (F := Ideal) v7 v9 v25 (ix2 r j)
      = v25 (ix2 r j) + ∑ k : Fin 128, k0_pay20 (F := Ideal) v7 (ix2 r k) * k0_pay21 (F := Ideal) v9 (ix2 j k) := by
  dsimp only [k0_pay22]
  rw [shapeCast_self, addf_apply]
  refine congrArg (v25 (ix2 r j) + ·) ?_
  refine (matmul_zero_apply _ _ r j).trans ?_
  refine Finset.sum_congr rfl fun k _ => ?_
  refine congrArg (k0_pay20 (F := Ideal) v7 (ix2 r k) * ·) ?_
  exact transpose_ix2_apply _ _ k j

section Layout
variable {α : Type}

/-- An `[a, c]` array cast to `[a, 1, c]` reads, at `(p, u, s)`, the operand at `(p, s)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (s : Fin c) :
    shapeCast ⟨3, ![a, 1, c]⟩ x h (ix3 p u s) = x (ix2 p s) :=
  shapeCast_apply x h _ _ (by
    have hu : u.val = 0 := by omega
    rw [Shape.rowMajor_val_three, Shape.rowMajor_val_two]
    show p.val * c + s.val = (p.val * 1 + u.val) * c + s.val
    rw [hu, Nat.mul_one, Nat.add_zero])

/-- An `[a, 1, c]` array broadcast to `[a, b, c]` reads, at `(p, q, s)`, the operand at `(p, 0, s)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ v h (ix3 p q s) = v (ix3 p (0 : Fin 1) s) := by
  refine broadcastTo_apply v h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A `[1, b, c]` array broadcast to `[a, b, c]` reads, at `(p, q, s)`, the operand at `(0, q, s)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ v h (ix3 p q s) = v (ix3 (0 : Fin 1) q s) := by
  refine broadcastTo_apply v h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A `[64, 128]` array viewed `[64, 1, 128]` and repeated along the middle axis reads `(r, k)` at `(r, j, k)`. -/
theorem rowBcast_apply (v : S64x128.Idx → α) (hc : S64x128.ShapeCasts S64x1x128)
    (hb : S64x1x128.Broadcasts S64x128x128) (r : Fin 64) (j k : Fin 128) :
    broadcastTo S64x128x128 (shapeCast S64x1x128 v hc) hb (ix3 r j k) = v (ix2 r k) :=
  (broadcastTo_a1c_abc_apply _ hb r j k).trans (shapeCast_ac_a1c_apply v hc r 0 k)

/-- A `[128, 128]` array viewed `[1, 128, 128]` and repeated along the first axis reads `(j, k)` at `(r, j, k)`. -/
theorem colBcast_apply (v : S128x128.Idx → α) (hc : S128x128.ShapeCasts S1x128x128)
    (hb : S1x128x128.Broadcasts S64x128x128) (r : Fin 64) (j k : Fin 128) :
    broadcastTo S64x128x128 (shapeCast S1x128x128 v hc) hb (ix3 r j k) = v (ix2 j k) :=
  (broadcastTo_1bc_abc_apply _ hb r j k).trans (shapeCast_ab_1ab_apply v hc 0 j k)

end Layout

theorem absf_apply {s : Shape} {φ : FTy} (a : FVec Ideal s φ) (i : s.Idx) : absf a i = FloatOps.absf (a i) := rfl

/-- The sum along the last axis of a `[64, 128, 128]` vector, at `(r, j)`. -/
theorem laneSum3 (x : FVec Ideal S64x128x128 .f32) (h : S64x128x128.Reduces [2] S64x128) (hφ : FKind.Formats .f32)
    (hacc : (0x00000000#32 : BitVec 32) = FKind.add.neutral .f32 hφ) (r : Fin 64) (j : Fin 128) :
    multiReduction .add [2] S64x128 x 0x00000000#32 h hφ hacc (ix2 r j) = ∑ k : Fin 128, x (ix3 r j k) := by
  refine (Ideal.multiReduction_add_single x 0x00000000#32 h hφ hacc (ix2 r j)).trans ?_
  refine Finset.sum_congr rfl fun k _ => congrArg x ?_
  funext a
  match a with
  | ⟨0, _⟩ => exact Fin.ext rfl
  | ⟨1, _⟩ => exact Fin.ext rfl
  | ⟨2, _⟩ => exact Fin.ext rfl

theorem pay23_apply (v4 v16 : FVec Ideal S64x128 .f32) (v6 v18 : FVec Ideal S128x128 .f32)
    (v32 : Vec Ideal S64x128 .f32) (r : Fin 64) (j : Fin 128) :
    k0_pay23 (F := Ideal) v4 v6 v16 v18 v32 (ix2 r j)
      = v32 (ix2 r j) + ∑ k : Fin 128,
          FloatOps.absf (F := Ideal) (φ := .f32) (v4 (ix2 r k) - v6 (ix2 j k)) * (v16 (ix2 r k) * v18 (ix2 j k)) := by
  dsimp only [k0_pay23]
  rw [shapeCast_self, addf_apply]
  refine congrArg (v32 (ix2 r j) + ·) ?_
  refine (laneSum3 _ _ _ _ r j).trans ?_
  refine Finset.sum_congr rfl fun k _ => ?_
  rw [mulf_apply, mulf_apply, absf_apply, subf_apply, rowBcast_apply, colBcast_apply, rowBcast_apply, colBcast_apply]

section Words

/-- A one-bit conjunction is 1 exactly when both bits are. -/
theorem andi_eq_one_iff (a b : BitVec 1) : IntOp.andi a b = 1#1 ↔ a = 1#1 ∧ b = 1#1 := by
  revert a b; decide

/-- Exclusive-or with the bit 1 negates a one-bit word. -/
theorem xori_one_eq_one_iff (b : BitVec 1) : IntOp.xori b 1#1 = 1#1 ↔ b ≠ 1#1 := by
  revert b; decide

/-- The integer comparison for equality answers 1 exactly at equal words. -/
theorem cmpi_eq_one_iff {w : ℕ} (x y : BitVec w) : IntOp.cmpi .eq x y = 1#1 ↔ x = y := by
  show BitVec.ofBool (x == y) = 1#1 ↔ x = y
  by_cases h : x = y
  · subst h
    rw [beq_self_eq_true]
    exact iff_of_true (by decide) rfl
  · rw [beq_eq_false_iff_ne.mpr h]
    exact iff_of_false (by decide) h

/-- The global row number `64 c + r` of local row `r` in half `c`, computed in 32-bit words, meets column `j`
    exactly when the numbers are equal: all three are below 128, so nothing wraps. -/
theorem rowWord_eq_iff (c : Fin 2) (r : Fin 64) (j : Fin 128) :
    IntOp.addi (BitVec.ofNat 32 r.val) (Scalar.muli (BitVec.ofNat 32 c.val) 64#32) = BitVec.ofNat 32 j.val
      ↔ 64 * c.val + r.val = j.val := by
  have hr := r.isLt; have hc := c.isLt; have hj := j.isLt
  rw [← BitVec.toNat_inj]
  show (BitVec.ofNat 32 r.val + BitVec.ofNat 32 c.val * 64#32).toNat = (BitVec.ofNat 32 j.val).toNat ↔ _
  simp only [BitVec.toNat_add, BitVec.toNat_mul, BitVec.toNat_ofNat, Nat.reducePow]
  omega

end Words

/-- The row counter of a `[64, 128]` vector reads the row, -/
theorem iota0_apply (h : S64x128.Iotas .tc 32 [0]) (r : Fin 64) (j : Fin 128) :
    iota .tc S64x128 32 [0] h (ix2 r j) = BitVec.ofNat 32 r.val :=
  iota_single_apply .tc S64x128 32 0 h (ix2 r j)

/-- and the column counter the column. -/
theorem iota1_apply (h : S64x128.Iotas .tc 32 [1]) (r : Fin 64) (j : Fin 128) :
    iota .tc S64x128 32 [1] h (ix2 r j) = BitVec.ofNat 32 j.val :=
  iota_single_apply .tc S64x128 32 1 h (ix2 r j)

/-- The pair (row r of half c, lane j) is flagged: the quotient is below the threshold, and the two lanes differ. -/
theorem pay4_apply (c : Fin 2) (v83 v84 : Vec Ideal S64x128 .f32) (r : Fin 64) (j : Fin 128) :
    k0_pay4 (F := Ideal) (BitVec.ofNat 32 c.val) v83 v84 (ix2 r j) = 1#1 ↔
      (Ideal.cmp .olt (Ideal.div (v83 (ix2 r j)) (v84 (ix2 r j))) eps = 1#1 ∧ 64 * c.val + r.val ≠ j.val) := by
  dsimp only [k0_pay4]
  show IntOp.andi (Ideal.cmp .olt (Ideal.div (v83 (ix2 r j)) (v84 (ix2 r j))) eps)
      (IntOp.xori (IntOp.cmpi .eq
        (IntOp.addi (iota .tc S64x128 32 [0] _ (ix2 r j)) (Scalar.muli (BitVec.ofNat 32 c.val) 64#32))
        (iota .tc S64x128 32 [1] _ (ix2 r j))) 1#1) = 1#1 ↔ _
  rw [andi_eq_one_iff, xori_one_eq_one_iff, iota0_apply, iota1_apply, Ne, cmpi_eq_one_iff, rowWord_eq_iff]

section Layout2
variable {α : Type}

/-- An `[a, 1]` column repeated to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout2

/-- Lane j's confidence beats row r's: the column of quotients turned into a row and repeated down the rows,
    against the rows' own quotients repeated along the lanes. -/
theorem pay5_apply (v86 v87 : Vec Ideal S64x1 .f32) (v89 v90 : Vec Ideal S128x1 .f32) (r : Fin 64) (j : Fin 128) :
    k0_pay5 (F := Ideal) v86 v87 v89 v90 (ix2 r j)
      = Ideal.cmp .ogt (Ideal.div (v89 (ix2 j (0 : Fin 1))) (v90 (ix2 j (0 : Fin 1))))
          (Ideal.div (v86 (ix2 r (0 : Fin 1))) (v87 (ix2 r (0 : Fin 1)))) := by
  dsimp only [k0_pay5]
  rw [cmpf_apply, broadcastTo_1b_ab_apply, transpose_ix2_apply, broadcastTo_a1_ab_apply]
  rfl

section Bits

theorem ofBits_one_f32 : Ideal.ofBits .f32 0x3F800000#32 = 1 := IdealRules.sign_bit.ideal_onePat .f32

theorem ofBits_negInf_f32 : Ideal.ofBits .f32 0xFF800000#32 = ⊥ := by simp [Ideal.ofBits, Ideal.ieee]

/-- The comparison "greater than" answers 1 exactly when it holds. -/
theorem cmp_ogt_eq_one_iff (x y : EReal) : Ideal.cmp .ogt x y = 1#1 ↔ y < x := by
  show BitVec.ofBool (decide (y < x)) = 1#1 ↔ y < x
  by_cases h : y < x
  · rw [decide_eq_true h]; exact iff_of_true (by decide) h
  · rw [decide_eq_false h]; exact iff_of_false (by decide) h

/-- The 0/1 real of a bit, when the bit is 1 exactly under a condition `P`. -/
theorem f01_of_iff (b : BitVec 1) (P : Prop) [Decidable P] (h : b = 1#1 ↔ P) :
    f01 b = if P then (1 : EReal) else 0 := by
  by_cases hp : P
  · rw [if_pos hp, h.mpr hp]; simp [f01]
  · rw [if_neg hp, eq_zero_of_ne_one (fun hb => hp (h.mp hb))]; simp [f01]

/-- Choosing 1.0 where a bit is set and 0.0 elsewhere gives a value above 0 exactly where the bit is set. -/
theorem zero_lt_select_iff (c : BitVec 1) :
    (0 : EReal) < Scalar.select c (Scalar.ofBits (F := Ideal) .f32 0x3F800000#32)
        (Scalar.ofBits (F := Ideal) .f32 0x00000000#32) ↔ c = 1#1 := by
  show (0 : EReal) < (if c = 1 then Ideal.ofBits .f32 0x3F800000#32 else Ideal.ofBits .f32 0x00000000#32) ↔ _
  rw [ofBits_one_f32, Ideal.ofBits_zero_f32]
  rcases BitVec.eq_zero_or_eq_one c with h | h
  · subst h
    rw [if_neg (by decide)]
    exact iff_of_false (lt_irrefl _) (by decide)
  · subst h
    rw [if_pos (show (1#1 : BitVec 1) = 1 from rfl)]
    exact iff_of_true zero_lt_one rfl

/-- THE MAXIMUM'S UNIVERSAL PROPERTY, as used here: a maximum taken from a start value that is not above 0 is above 0
    exactly when some entry is. -/
theorem zero_lt_fold_max_iff {n : ℕ} (init : EReal) (hinit : ¬ 0 < init) (f : Fin n → EReal) :
    0 < (Finset.univ : Finset (Fin n)).fold max init f ↔ ∃ k, 0 < f k := by
  rw [Finset.lt_fold_max]
  constructor
  · rintro (h | ⟨k, _, hk⟩)
    · exact absurd h hinit
    · exact ⟨k, hk⟩
  · rintro ⟨k, hk⟩
    exact Or.inr ⟨k, Finset.mem_univ _, hk⟩

end Bits

/-- The maximum along the lanes of a `[64, 128]` vector, at row `r`. -/
theorem laneMax64 (x : FVec Ideal S64x128 .f32) (h : S64x128.Reduces [1] S64) (hφ : FKind.Formats .f32)
    (hacc : (0xFF800000#32 : BitVec 32) = FKind.maximumf.neutral .f32 hφ) (r : Fin 64) :
    multiReduction .maximumf [1] S64 x 0xFF800000#32 h hφ hacc (ix1 r)
      = (Finset.univ : Finset (Fin 128)).fold max (Ideal.ofBits .f32 0xFF800000#32) (fun k => x (ix2 r k)) := by
  refine (Ideal.multiReduction_maximumf_single x 0xFF800000#32 h hφ hacc (ix1 r)).trans ?_
  refine congrArg (fun f => (Finset.univ : Finset (Fin 128)).fold max (Ideal.ofBits .f32 0xFF800000#32) f) ?_
  funext k
  refine congrArg x ?_
  funext a
  match a with
  | ⟨0, _⟩ => exact Fin.ext rfl
  | ⟨1, _⟩ => exact Fin.ext rfl

/-- The maximum down the rows of a `[64, 128]` vector, at lane `j`. -/
theorem rowMax128 (x : FVec Ideal S64x128 .f32) (h : S64x128.Reduces [0] S128) (hφ : FKind.Formats .f32)
    (hacc : (0xFF800000#32 : BitVec 32) = FKind.maximumf.neutral .f32 hφ) (j : Fin 128) :
    multiReduction .maximumf [0] S128 x 0xFF800000#32 h hφ hacc (ix1 j)
      = (Finset.univ : Finset (Fin 64)).fold max (Ideal.ofBits .f32 0xFF800000#32) (fun r => x (ix2 r j)) := by
  refine (Ideal.multiReduction_maximumf_single x 0xFF800000#32 h hφ hacc (ix1 j)).trans ?_
  refine congrArg (fun f => (Finset.univ : Finset (Fin 64)).fold max (Ideal.ofBits .f32 0xFF800000#32) f) ?_
  funext r
  refine congrArg x ?_
  funext a
  match a with
  | ⟨0, _⟩ => exact Fin.ext rfl
  | ⟨1, _⟩ => exact Fin.ext rfl

/-- 1.0 where a mask bit is set, 0.0 elsewhere; -/
abbrev oneWhere (m : IVec S64x128 1) : FVec Ideal S64x128 .f32 :=
  select m (broadcast S64x128 (Scalar.ofBits (F := Ideal) .f32 0x3F800000#32))
    (broadcast S64x128 (Scalar.ofBits (F := Ideal) .f32 0x00000000#32))

/-- its maximum along row `r` is above 0 exactly when the mask is set somewhere in the row, -/
theorem rowAny_apply (m : IVec S64x128 1) (h : S64x128.Reduces [1] S64) (hφ : FKind.Formats .f32)
    (hacc : (0xFF800000#32 : BitVec 32) = FKind.maximumf.neutral .f32 hφ) (r : Fin 64) :
    FloatOps.cmpf (F := Ideal) .ogt (multiReduction .maximumf [1] S64 (oneWhere m) 0xFF800000#32 h hφ hacc (ix1 r))
        (Scalar.ofBits (F := Ideal) .f32 0x00000000#32) = 1#1
      ↔ ∃ j : Fin 128, m (ix2 r j) = 1#1 := by
  show Ideal.cmp .ogt _ (Ideal.ofBits .f32 0x00000000#32) = 1#1 ↔ _
  rw [cmp_ogt_eq_one_iff, Ideal.ofBits_zero_f32, laneMax64,
    zero_lt_fold_max_iff _ (by rw [ofBits_negInf_f32]; exact not_lt_bot)]
  exact exists_congr fun j => zero_lt_select_iff (m (ix2 r j))

/-- and its maximum down lane `j` exactly when the mask is set somewhere in the lane. -/
theorem colAny_apply (m : IVec S64x128 1) (h : S64x128.Reduces [0] S128) (hφ : FKind.Formats .f32)
    (hacc : (0xFF800000#32 : BitVec 32) = FKind.maximumf.neutral .f32 hφ) (j : Fin 128) :
    FloatOps.cmpf (F := Ideal) .ogt (multiReduction .maximumf [0] S128 (oneWhere m) 0xFF800000#32 h hφ hacc (ix1 j))
        (Scalar.ofBits (F := Ideal) .f32 0x00000000#32) = 1#1
      ↔ ∃ r : Fin 64, m (ix2 r j) = 1#1 := by
  show Ideal.cmp .ogt _ (Ideal.ofBits .f32 0x00000000#32) = 1#1 ↔ _
  rw [cmp_ogt_eq_one_iff, Ideal.ofBits_zero_f32, rowMax128,
    zero_lt_fold_max_iff _ (by rw [ofBits_negInf_f32]; exact not_lt_bot)]
  exact exists_congr fun r => zero_lt_select_iff (m (ix2 r j))

section Layout3
variable {α : Type}

/-- An `[a]` array cast to `[1, 1, a]` reads, at `(u, v, i)`, the operand at `i`. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]
    simp)

end Layout3

/-- Row r is suppressed as the weaker first lane of a flagged pair: 1 when some lane j is flagged with it and beats it. -/
theorem pay6_apply (arg0 : BitVec 32) (v83 v84 : Vec Ideal S64x128 .f32) (v86 v87 : Vec Ideal S64x1 .f32)
    (v89 v90 : Vec Ideal S128x1 .f32) (r : Fin 64)
    [Decidable (∃ j : Fin 128, k0_pay4 (F := Ideal) arg0 v83 v84 (ix2 r j) = 1#1
      ∧ k0_pay5 (F := Ideal) v86 v87 v89 v90 (ix2 r j) = 1#1)] :
    k0_pay6 (F := Ideal) arg0 v83 v84 v86 v87 v89 v90 (ix2 r (0 : Fin 1))
      = if ∃ j : Fin 128, k0_pay4 (F := Ideal) arg0 v83 v84 (ix2 r j) = 1#1
          ∧ k0_pay5 (F := Ideal) v86 v87 v89 v90 (ix2 r j) = 1#1 then (1 : EReal) else 0 := by
  dsimp only [k0_pay6]
  refine (sitofp_extui_bit _).trans ?_
  refine f01_of_iff _ _ ?_
  rw [shapeCast_a_a1_apply]
  refine (rowAny_apply _ _ _ _ r).trans ?_
  exact exists_congr fun j => andi_eq_one_iff _ _

/-- Lane j is suppressed as the not-stronger second lane of a flagged pair: 1 when some row r of this half is flagged
    with it and lane j does not beat that row. The value is the same on each of the eight sublanes s. -/
theorem pay3_pay7_apply (arg0 : BitVec 32) (v83 v84 : Vec Ideal S64x128 .f32) (v86 v87 : Vec Ideal S64x1 .f32)
    (v89 v90 : Vec Ideal S128x1 .f32) (s : Fin 8) (j : Fin 128)
    [Decidable (∃ r : Fin 64, k0_pay4 (F := Ideal) arg0 v83 v84 (ix2 r j) = 1#1
      ∧ k0_pay5 (F := Ideal) v86 v87 v89 v90 (ix2 r j) ≠ 1#1)] :
    k0_pay3 (F := Ideal) (k0_pay7 (F := Ideal) arg0 v83 v84 v86 v87 v89 v90) (ix3 (0 : Fin 1) s j)
      = if ∃ r : Fin 64, k0_pay4 (F := Ideal) arg0 v83 v84 (ix2 r j) = 1#1
          ∧ k0_pay5 (F := Ideal) v86 v87 v89 v90 (ix2 r j) ≠ 1#1 then (1 : EReal) else 0 := by
  dsimp only [k0_pay3, k0_pay7]
  rw [broadcastTo_a1c_abc_apply, shapeCast_self, shapeCast_a_11a_apply]
  refine (sitofp_extui_bit _).trans ?_
  refine f01_of_iff _ _ ?_
  refine (colAny_apply _ _ _ _ j).trans ?_
  refine exists_congr fun r => ?_
  refine (andi_eq_one_iff _ _).trans ?_
  exact and_congr Iff.rfl (xori_one_eq_one_iff _)

end Cert.KernelIdeal.Pay

end
-- ==== Proof.Spec.lean ====
/-
  The specification both programs meet: lane suppression on the last batch.

  Inputs are two arrays of shape [8, 128, 512]: per batch, 128 lanes of 512 points each, a regressed
  position `reg` and a confidence `clf` per point. Only batch 7 matters. A point is CONFIDENT when its
  confidence exceeds the threshold. For two lanes i, j let cnt i j be the number of points confident
  in both, dsum i j the sum over those points of |reg i p − reg j p|, and dmean i j their quotient
  (the operations' own quotient: whatever it answers at 0/0, it answers the same on both sides). A
  lane's own confidence conf l is the mean of clf over its confident points. The pair (i, j), i ≠ j,
  is FLAGGED when dmean i j is below the suppression threshold; a flagged pair suppresses lane i when
  conf j > conf i and lane j otherwise. The result at lane l is 1 when some pair suppresses l, else 0.
-/
import Idealize.ShloMosaic.PureOps.Ideal
import Idealize.ShloMosaic.Lib.ValueIdx

noncomputable section

namespace Cert.Spec

open Idealize.ShloMosaic

/-- The arguments' shape and the result's. -/
abbrev A3 : Shape := ⟨3, ![8, 128, 512]⟩
abbrev O1 : Shape := ⟨1, ![128]⟩

/-- The index (batch 7, lane l, point p). -/
def at7 (l : Fin 128) (p : Fin 512) : A3.Idx := ValueIdx.ix3 (7 : Fin 8) l p

variable (reg clf : A3.Idx → EReal)

/-- The confidence threshold and the suppression threshold, as the two float literals both programs share. -/
def thr : EReal := Ideal.ofBits .f32 0x3F19999A#32
def eps : EReal := Ideal.ofBits .f32 0x3D4CCCCD#32

/-- Is point p of lane l confident (a one-bit word), -/
def mk (l : Fin 128) (p : Fin 512) : BitVec 1 := Ideal.cmp .ogt (clf (at7 l p)) thr
/-- and the same as the real 0 or 1. -/
def mf (l : Fin 128) (p : Fin 512) : EReal := (((mk clf l p).toNat : ℝ) : EReal)

/-- How many points are confident in both lanes; -/
def cnt (i j : Fin 128) : EReal := ∑ p : Fin 512, mf clf i p * mf clf j p
/-- the summed distance over those points; -/
def dsum (i j : Fin 128) : EReal :=
  ∑ p : Fin 512, FloatOps.absf (F := Ideal) (φ := .f32) (reg (at7 i p) - reg (at7 j p)) * (mf clf i p * mf clf j p)
/-- their quotient. -/
def dmean (i j : Fin 128) : EReal := Ideal.div (dsum reg clf i j) (cnt clf i j)

/-- A lane's mean confidence over its confident points. -/
def cnum (l : Fin 128) : EReal := ∑ p : Fin 512, clf (at7 l p) * mf clf l p
def cden (l : Fin 128) : EReal := ∑ p : Fin 512, mf clf l p
def conf (l : Fin 128) : EReal := Ideal.div (cnum clf l) (cden clf l)

/-- The pair (i, j) is flagged: close on their common confident points, and not one lane twice. -/
def flag (i j : Fin 128) : Prop := Ideal.cmp .olt (dmean reg clf i j) eps = 1#1 ∧ i ≠ j
/-- Lane j's confidence beats lane i's. -/
def wins (i j : Fin 128) : Prop := Ideal.cmp .ogt (conf clf j) (conf clf i) = 1#1

/-- Lane l is suppressed: as the weaker first lane of a flagged pair, or as the not-stronger second lane of one. -/
def sup (l : Fin 128) : Prop :=
  (∃ j, flag reg clf l j ∧ wins clf l j) ∨ (∃ i, flag reg clf i l ∧ ¬ wins clf i l)

open Classical in
/-- THE RESULT: 1 at a suppressed lane, 0 elsewhere. -/
def G : O1.Idx → EReal := fun y => if sup reg clf (y 0) then 1 else 0

end Cert.Spec

end
-- ==== Proof.LibBlockedSum.lean ====
/-
  A finite sum cut into consecutive blocks.

  A sum over the `a * b` indices `0, 1, …, a * b - 1` is the sum, over the `a` blocks `s = 0, …, a - 1`, of the
  block's own sum over its `b` consecutive indices `s * b, s * b + 1, …, s * b + (b - 1)`. Addition is only asked
  to be commutative and associative (any additive commutative monoid: the extended reals qualify, where
  cancellation and distributivity may fail at the infinities but re-bracketing and re-ordering a sum never do).
  This is the law that joins a contraction computed one block of the contracted axis at a time with the same
  contraction computed in one go.
-/
import Mathlib.Algebra.BigOperators.Fin
import Mathlib.Logic.Equiv.Fin.Basic

open scoped BigOperators

namespace BlockedSum

/-- The `k`-th index of block `s` is an index of the whole range. -/
theorem block_index_lt {a b : ℕ} (s : Fin a) (k : Fin b) : s.val * b + k.val < a * b := by
  have hs : s.val + 1 ≤ a := s.isLt
  have hk : k.val < b := k.isLt
  calc s.val * b + k.val < s.val * b + b := Nat.add_lt_add_left hk _
    _ = (s.val + 1) * b := (Nat.succ_mul _ _).symm
    _ ≤ a * b := Nat.mul_le_mul_right b hs

/-- The `k`-th index of block `s`, as an index of the whole range. -/
def blockIndex {a b : ℕ} (s : Fin a) (k : Fin b) : Fin (a * b) := ⟨s.val * b + k.val, block_index_lt s k⟩

@[simp] theorem blockIndex_val {a b : ℕ} (s : Fin a) (k : Fin b) : (blockIndex s k).val = s.val * b + k.val := rfl

/-- A sum over `a * b` indices is the sum of its `a` consecutive blocks of `b` terms each. -/
theorem sum_eq_sum_blocks {M : Type*} [AddCommMonoid M] (a b : ℕ) (f : Fin (a * b) → M) :
    ∑ i : Fin (a * b), f i = ∑ s : Fin a, ∑ k : Fin b, f (blockIndex s k) := by
  rw [← Equiv.sum_comp finProdFinEquiv f, Fintype.sum_prod_type]
  refine Finset.sum_congr rfl fun s _ => Finset.sum_congr rfl fun k _ => congrArg f (Fin.ext ?_)
  show k.val + b * s.val = s.val * b + k.val
  rw [Nat.add_comm, Nat.mul_comm]

/-- The same with the blocks counted by a natural number below `a` (a `Finset.range` sum, the form a fold over
    consecutive steps unrolls to): `g` gives block `s`'s term at its `k`-th place, and agrees with `f` there. -/
theorem sum_range_blocks {M : Type*} [AddCommMonoid M] (a b : ℕ) (f : Fin (a * b) → M) (g : ℕ → Fin b → M)
    (hg : ∀ (s : Fin a) (k : Fin b), g s.val k = f (blockIndex s k)) :
    ∑ s ∈ Finset.range a, ∑ k : Fin b, g s k = ∑ i : Fin (a * b), f i := by
  rw [sum_eq_sum_blocks, Finset.sum_range]
  exact Finset.sum_congr rfl fun s _ => Finset.sum_congr rfl fun k _ => hg s k

end BlockedSum
-- ==== Proof.KernelIdeal.Accs.lean ====
/-
  The six accumulators at a last column chunk are the specification's sums.

  Each half of the rows (h = 0, 1) walks the four column chunks p = 0, 1, 2, 3 of 128 points each. The first
  chunk clears an accumulator and adds its own contribution, every later chunk adds its own, so after the
  fourth the accumulator holds the sum of the four contributions; a chunk's contribution is a sum over its
  128 points, and the four chunks tile the 512 points, so that is the sum over all 512 points — re-bracketing a
  finite sum, which the extended reals allow. The contributions are read off the body's pure terms at an index
  and off the input blocks' positions in the argument arrays.
-/
import proofs.«140321_j78700980732218_2_alg».proof.Proof.KernelIdeal.Points
import proofs.«140321_j78700980732218_2_alg».proof.Proof.KernelIdeal.Pieces
import proofs.«140321_j78700980732218_2_alg».proof.Proof.KernelIdeal.Blocks
import proofs.«140321_j78700980732218_2_alg».proof.Proof.KernelIdeal.Pay
import proofs.«140321_j78700980732218_2_alg».proof.Proof.Spec
import proofs.«140321_j78700980732218_2_alg».proof.Proof.LibBlockedSum

set_option maxRecDepth 16384

noncomputable section

namespace Cert.KernelIdeal.Hand

open Cert.KernelIdeal Cert.KernelIdeal.Gen Cert.KernelIdeal.Pay
open Idealize.ShloMosaic Idealize.ShloMosaic.TcCoe Idealize.ShloMosaic.ValueIdx
open Idealize.SL Idealize.SL.Sem
open scoped BigOperators

variable (m : (ℓ : Loc nD τ sig) → Buf (Elt Ideal) ℓ) (c : Dev nD)

/-! ## Four contributions tile the 512 points -/

/-- An accumulator cleared and added to at the first of four chunks and added to at the next three holds the
    sum over all 512 points, when chunk `p` contributes the sum of `F` over the points `128 p + k`. -/
theorem last_sum (a0 a1 a2 a3 : EReal) (F : Fin 512 → EReal) (ch : Fin 4 → EReal)
    (hch : ∀ p : Fin 4, ch p = ∑ k : Fin 128, F ⟨128 * p.val + k.val, by omega⟩)
    (h0 : a0 = 0 + ch 0) (h1 : a1 = a0 + ch 1) (h2 : a2 = a1 + ch 2) (h3 : a3 = a2 + ch 3) :
    a3 = ∑ q : Fin 512, F q := by
  have hs := BlockedSum.sum_eq_sum_blocks 4 128 (fun i : Fin (4 * 128) => F ⟨i.val, i.isLt⟩)
  have e : (∑ q : Fin 512, F q) = ∑ i : Fin (4 * 128), F ⟨i.val, i.isLt⟩ := rfl
  rw [e, hs, Fin.sum_univ_four, h3, h2, h1, h0, zero_add]
  have hb : ∀ p : Fin 4, (∑ k : Fin 128, F ⟨(BlockedSum.blockIndex (a := 4) p k).val, (BlockedSum.blockIndex (a := 4) p k).isLt⟩) = ch p := by
    intro p
    rw [hch p]
    refine Finset.sum_congr rfl fun k _ => congrArg F (Fin.ext ?_)
    show p.val * 128 + k.val = 128 * p.val + k.val
    omega
  rw [hb 0, hb 1, hb 2, hb 3]

/-! ## The grid points of a half -/

/-- Chunk `p` of half `h`, as a grid point; -/
def pt (h : Fin 2) (p : Fin 4) : Fin cfg0.N := ⟨4 * h.val + p.val, by have e : cfg0.N = 8 := N_0; omega⟩
/-- row `r` of half `h`, as a lane. -/
def row (h : Fin 2) (r : Fin 64) : Fin 128 := ⟨64 * h.val + r.val, by omega⟩

theorem rowOf_pt (h : Fin 2) (p : Fin 4) (r : Fin 64) : rowOf (pt h p) r = row h r := by
  apply Fin.ext; simp only [rowOf_val, pt, row]; omega
theorem colOf_pt (h : Fin 2) (p : Fin 4) (k : Fin 128) : colOf (pt h p) k = ⟨128 * p.val + k.val, by omega⟩ := by
  apply Fin.ext; simp only [colOf_val, pt]; omega
theorem pt_mod (h : Fin 2) (p : Fin 4) : (pt h p).val % 4 = p.val := by simp only [pt]; omega

/-! ## The input blocks' entries, as the specification names them -/

abbrev reg : Cert.Spec.A3.Idx → EReal := V m c main_arg0
abbrev clf : Cert.Spec.A3.Idx → EReal := V m c main_arg1

theorem pay14_blk (t : Fin cfg0.N) (r : Fin 64) (k : Fin 128) :
    k0_pay14 (iblk m c 0 t) (ix2 r k) = reg m c (Cert.Spec.at7 (rowOf t r) (colOf t k)) := by
  rw [pay14_apply]; exact iblk0_apply m c t r k
theorem pay15_blk (t : Fin cfg0.N) (j : Fin 128) (k : Fin 128) :
    k0_pay15 (iblk m c 1 t) (ix2 j k) = reg m c (Cert.Spec.at7 j (colOf t k)) := by
  rw [pay15_apply]; exact iblk1_apply m c t j k
theorem pay16_blk (t : Fin cfg0.N) (r : Fin 64) (k : Fin 128) :
    k0_pay16 (iblk m c 2 t) (ix2 r k) = clf m c (Cert.Spec.at7 (rowOf t r) (colOf t k)) := by
  rw [pay16_apply]; exact iblk2_apply m c t r k
theorem pay17_blk (t : Fin cfg0.N) (j : Fin 128) (k : Fin 128) :
    k0_pay17 (iblk m c 3 t) (ix2 j k) = clf m c (Cert.Spec.at7 j (colOf t k)) := by
  rw [pay17_apply]; exact iblk3_apply m c t j k
theorem pay20_blk (t : Fin cfg0.N) (r : Fin 64) (k : Fin 128) :
    k0_pay20 (iblk m c 2 t) (ix2 r k) = Cert.Spec.mf (clf m c) (rowOf t r) (colOf t k) := by
  rw [pay20_apply, pay18_apply, iblk2_apply m c t r k]; rfl
theorem pay21_blk (t : Fin cfg0.N) (j : Fin 128) (k : Fin 128) :
    k0_pay21 (iblk m c 3 t) (ix2 j k) = Cert.Spec.mf (clf m c) j (colOf t k) := by
  rw [pay21_apply, pay19_apply, iblk3_apply m c t j k]; rfl

/-! ## Accumulator 0 -/

theorem s0_first (t : Fin cfg0.N) (h0 : t.val % 4 = 0) :
    (stAt m c t.val t.isLt).s0 = k0_pay22 (iblk m c 2 t) (iblk m c 3 t) (k0_pay8 (F := Ideal)) := by
  have h1 : ¬ t.val % 4 = 3 := by omega
  rw [stAt_A m c t h0 h1]; exact stA_s0 ..
theorem s0_next (t : Fin cfg0.N) (h0 : ¬ t.val % 4 = 0) :
    (stAt m c t.val t.isLt).s0 = k0_pay22 (iblk m c 2 t) (iblk m c 3 t) (stAt m c (t.val - 1) (Nat.lt_of_le_of_lt (Nat.sub_le _ _) t.isLt)).s0 := by
  by_cases h1 : t.val % 4 = 3
  · rw [stAt_C m c t h0 h1]; exact stC_s0 ..
  · rw [stAt_B m c t h0 h1]; exact stB_s0 ..

/-- After the last chunk of half `h` accumulator 0 holds the number of points confident in both lane `row h r` and lane `j`. -/
theorem acc0 (h : Fin 2) (r : Fin 64) (j : Fin 128) :
    (stAt m c (pt h 3).val (pt h 3).isLt).s0 (ix2 r j) = Cert.Spec.cnt (clf m c) (row h r) j := by
  unfold Cert.Spec.cnt
  refine last_sum ((stAt m c (pt h 0).val (pt h 0).isLt).s0 (ix2 r j)) ((stAt m c (pt h 1).val (pt h 1).isLt).s0 (ix2 r j))
    ((stAt m c (pt h 2).val (pt h 2).isLt).s0 (ix2 r j)) _ (fun q => Cert.Spec.mf (clf m c) (row h r) q * Cert.Spec.mf (clf m c) j q)
    (fun p => ∑ k : Fin 128, k0_pay20 (iblk m c 2 (pt h p)) (ix2 r k) * k0_pay21 (iblk m c 3 (pt h p)) (ix2 j k)) ?_ ?_ ?_ ?_ ?_
  · intro p
    refine Finset.sum_congr rfl fun k _ => ?_
    rw [pay20_blk, pay21_blk, rowOf_pt, colOf_pt]
  · rw [s0_first m c (pt h 0) (by rw [pt_mod]; rfl), pay22_apply, pay8_apply]
  · rw [s0_next m c (pt h 1) (by rw [pt_mod]; decide), pay22_apply]; rfl
  · rw [s0_next m c (pt h 2) (by rw [pt_mod]; decide), pay22_apply]; rfl
  · rw [s0_next m c (pt h 3) (by rw [pt_mod]; decide), pay22_apply]; rfl

/-! ## Accumulator 1 -/

theorem s1_first (t : Fin cfg0.N) (h0 : t.val % 4 = 0) :
    (stAt m c t.val t.isLt).s1 = k0_pay23 (k0_pay14 (iblk m c 0 t)) (k0_pay15 (iblk m c 1 t)) (k0_pay20 (iblk m c 2 t)) (k0_pay21 (iblk m c 3 t)) (k0_pay9 (F := Ideal)) := by
  have h1 : ¬ t.val % 4 = 3 := by omega
  rw [stAt_A m c t h0 h1]; exact stA_s1 ..
theorem s1_next (t : Fin cfg0.N) (h0 : ¬ t.val % 4 = 0) :
    (stAt m c t.val t.isLt).s1 = k0_pay23 (k0_pay14 (iblk m c 0 t)) (k0_pay15 (iblk m c 1 t)) (k0_pay20 (iblk m c 2 t)) (k0_pay21 (iblk m c 3 t)) (stAt m c (t.val - 1) (Nat.lt_of_le_of_lt (Nat.sub_le _ _) t.isLt)).s1 := by
  by_cases h1 : t.val % 4 = 3
  · rw [stAt_C m c t h0 h1]; exact stC_s1 ..
  · rw [stAt_B m c t h0 h1]; exact stB_s1 ..

/-- After the last chunk of half `h` accumulator 1 holds the summed distance between lane `row h r` and lane `j` over the points confident in both. -/
theorem acc1 (h : Fin 2) (r : Fin 64) (j : Fin 128) :
    (stAt m c (pt h 3).val (pt h 3).isLt).s1 (ix2 r j) = Cert.Spec.dsum (reg m c) (clf m c) (row h r) j := by
  unfold Cert.Spec.dsum
  refine last_sum ((stAt m c (pt h 0).val (pt h 0).isLt).s1 (ix2 r j)) ((stAt m c (pt h 1).val (pt h 1).isLt).s1 (ix2 r j))
    ((stAt m c (pt h 2).val (pt h 2).isLt).s1 (ix2 r j)) _ (fun q => FloatOps.absf (F := Ideal) (φ := .f32) (reg m c (Cert.Spec.at7 (row h r) q) - reg m c (Cert.Spec.at7 j q)) * (Cert.Spec.mf (clf m c) (row h r) q * Cert.Spec.mf (clf m c) j q))
    (fun p => ∑ k : Fin 128, FloatOps.absf (F := Ideal) (φ := .f32) (k0_pay14 (iblk m c 0 (pt h p)) (ix2 r k) - k0_pay15 (iblk m c 1 (pt h p)) (ix2 j k)) * (k0_pay20 (iblk m c 2 (pt h p)) (ix2 r k) * k0_pay21 (iblk m c 3 (pt h p)) (ix2 j k))) ?_ ?_ ?_ ?_ ?_
  · intro p
    refine Finset.sum_congr rfl fun k _ => ?_
    rw [pay14_blk, pay15_blk, pay20_blk, pay21_blk, rowOf_pt, colOf_pt]
  · rw [s1_first m c (pt h 0) (by rw [pt_mod]; rfl), pay23_apply, pay9_apply]
  · rw [s1_next m c (pt h 1) (by rw [pt_mod]; decide), pay23_apply]; rfl
  · rw [s1_next m c (pt h 2) (by rw [pt_mod]; decide), pay23_apply]; rfl
  · rw [s1_next m c (pt h 3) (by rw [pt_mod]; decide), pay23_apply]; rfl

/-! ## Accumulator 2 -/

theorem s2_first (t : Fin cfg0.N) (h0 : t.val % 4 = 0) :
    (stAt m c t.val t.isLt).s2 = k0_pay24 (k0_pay16 (iblk m c 2 t)) (k0_pay20 (iblk m c 2 t)) (k0_pay10 (F := Ideal)) := by
  have h1 : ¬ t.val % 4 = 3 := by omega
  rw [stAt_A m c t h0 h1]; exact stA_s2 ..
theorem s2_next (t : Fin cfg0.N) (h0 : ¬ t.val % 4 = 0) :
    (stAt m c t.val t.isLt).s2 = k0_pay24 (k0_pay16 (iblk m c 2 t)) (k0_pay20 (iblk m c 2 t)) (stAt m c (t.val - 1) (Nat.lt_of_le_of_lt (Nat.sub_le _ _) t.isLt)).s2 := by
  by_cases h1 : t.val % 4 = 3
  · rw [stAt_C m c t h0 h1]; exact stC_s2 ..
  · rw [stAt_B m c t h0 h1]; exact stB_s2 ..

/-- After the last chunk of half `h` accumulator 2 holds the summed confidence of lane `row h r` over its confident points. -/
theorem acc2 (h : Fin 2) (r : Fin 64) :
    (stAt m c (pt h 3).val (pt h 3).isLt).s2 (ix2 r (0 : Fin 1)) = Cert.Spec.cnum (clf m c) (row h r) := by
  unfold Cert.Spec.cnum
  refine last_sum ((stAt m c (pt h 0).val (pt h 0).isLt).s2 (ix2 r (0 : Fin 1))) ((stAt m c (pt h 1).val (pt h 1).isLt).s2 (ix2 r (0 : Fin 1)))
    ((stAt m c (pt h 2).val (pt h 2).isLt).s2 (ix2 r (0 : Fin 1))) _ (fun q => clf m c (Cert.Spec.at7 (row h r) q) * Cert.Spec.mf (clf m c) (row h r) q)
    (fun p => ∑ k : Fin 128, k0_pay16 (iblk m c 2 (pt h p)) (ix2 r k) * k0_pay20 (iblk m c 2 (pt h p)) (ix2 r k)) ?_ ?_ ?_ ?_ ?_
  · intro p
    refine Finset.sum_congr rfl fun k _ => ?_
    rw [pay16_blk, pay20_blk, rowOf_pt, colOf_pt]
  · rw [s2_first m c (pt h 0) (by rw [pt_mod]; rfl), pay24_apply, pay10_apply]
  · rw [s2_next m c (pt h 1) (by rw [pt_mod]; decide), pay24_apply]; rfl
  · rw [s2_next m c (pt h 2) (by rw [pt_mod]; decide), pay24_apply]; rfl
  · rw [s2_next m c (pt h 3) (by rw [pt_mod]; decide), pay24_apply]; rfl

/-! ## Accumulator 3 -/

theorem s3_first (t : Fin cfg0.N) (h0 : t.val % 4 = 0) :
    (stAt m c t.val t.isLt).s3 = k0_pay25 (k0_pay20 (iblk m c 2 t)) (k0_pay11 (F := Ideal)) := by
  have h1 : ¬ t.val % 4 = 3 := by omega
  rw [stAt_A m c t h0 h1]; exact stA_s3 ..
theorem s3_next (t : Fin cfg0.N) (h0 : ¬ t.val % 4 = 0) :
    (stAt m c t.val t.isLt).s3 = k0_pay25 (k0_pay20 (iblk m c 2 t)) (stAt m c (t.val - 1) (Nat.lt_of_le_of_lt (Nat.sub_le _ _) t.isLt)).s3 := by
  by_cases h1 : t.val % 4 = 3
  · rw [stAt_C m c t h0 h1]; exact stC_s3 ..
  · rw [stAt_B m c t h0 h1]; exact stB_s3 ..

/-- After the last chunk of half `h` accumulator 3 holds the number of confident points of lane `row h r`. -/
theorem acc3 (h : Fin 2) (r : Fin 64) :
    (stAt m c (pt h 3).val (pt h 3).isLt).s3 (ix2 r (0 : Fin 1)) = Cert.Spec.cden (clf m c) (row h r) := by
  unfold Cert.Spec.cden
  refine last_sum ((stAt m c (pt h 0).val (pt h 0).isLt).s3 (ix2 r (0 : Fin 1))) ((stAt m c (pt h 1).val (pt h 1).isLt).s3 (ix2 r (0 : Fin 1)))
    ((stAt m c (pt h 2).val (pt h 2).isLt).s3 (ix2 r (0 : Fin 1))) _ (fun q => Cert.Spec.mf (clf m c) (row h r) q)
    (fun p => ∑ k : Fin 128, k0_pay20 (iblk m c 2 (pt h p)) (ix2 r k)) ?_ ?_ ?_ ?_ ?_
  · intro p
    refine Finset.sum_congr rfl fun k _ => ?_
    rw [pay20_blk, rowOf_pt, colOf_pt]
  · rw [s3_first m c (pt h 0) (by rw [pt_mod]; rfl), pay25_apply, pay11_apply]
  · rw [s3_next m c (pt h 1) (by rw [pt_mod]; decide), pay25_apply]; rfl
  · rw [s3_next m c (pt h 2) (by rw [pt_mod]; decide), pay25_apply]; rfl
  · rw [s3_next m c (pt h 3) (by rw [pt_mod]; decide), pay25_apply]; rfl

/-! ## Accumulator 4 -/

theorem s4_first (t : Fin cfg0.N) (h0 : t.val % 4 = 0) :
    (stAt m c t.val t.isLt).s4 = k0_pay1 (k0_pay26 (k0_pay17 (iblk m c 3 t)) (k0_pay21 (iblk m c 3 t)) (k0_pay12 (F := Ideal))) := by
  have h1 : ¬ t.val % 4 = 3 := by omega
  rw [stAt_A m c t h0 h1]; exact stA_s4 ..
theorem s4_next (t : Fin cfg0.N) (h0 : ¬ t.val % 4 = 0) :
    (stAt m c t.val t.isLt).s4 = k0_pay1 (k0_pay26 (k0_pay17 (iblk m c 3 t)) (k0_pay21 (iblk m c 3 t)) (stAt m c (t.val - 1) (Nat.lt_of_le_of_lt (Nat.sub_le _ _) t.isLt)).s4) := by
  by_cases h1 : t.val % 4 = 3
  · rw [stAt_C m c t h0 h1]; exact stC_s4 ..
  · rw [stAt_B m c t h0 h1]; exact stB_s4 ..

/-- After the last chunk of half `h` accumulator 4 holds the summed confidence of lane `j` over its confident points (every half accumulates all 128 lanes). -/
theorem acc4 (h : Fin 2) (j : Fin 128) :
    (stAt m c (pt h 3).val (pt h 3).isLt).s4 (ix2 j (0 : Fin 1)) = Cert.Spec.cnum (clf m c) j := by
  unfold Cert.Spec.cnum
  refine last_sum ((stAt m c (pt h 0).val (pt h 0).isLt).s4 (ix2 j (0 : Fin 1))) ((stAt m c (pt h 1).val (pt h 1).isLt).s4 (ix2 j (0 : Fin 1)))
    ((stAt m c (pt h 2).val (pt h 2).isLt).s4 (ix2 j (0 : Fin 1))) _ (fun q => clf m c (Cert.Spec.at7 j q) * Cert.Spec.mf (clf m c) j q)
    (fun p => ∑ k : Fin 128, k0_pay17 (iblk m c 3 (pt h p)) (ix2 j k) * k0_pay21 (iblk m c 3 (pt h p)) (ix2 j k)) ?_ ?_ ?_ ?_ ?_
  · intro p
    refine Finset.sum_congr rfl fun k _ => ?_
    rw [pay17_blk, pay21_blk, colOf_pt]
  · rw [s4_first m c (pt h 0) (by rw [pt_mod]; rfl), pay1_pay26_apply, pay12_apply]
  · rw [s4_next m c (pt h 1) (by rw [pt_mod]; decide), pay1_pay26_apply]; rfl
  · rw [s4_next m c (pt h 2) (by rw [pt_mod]; decide), pay1_pay26_apply]; rfl
  · rw [s4_next m c (pt h 3) (by rw [pt_mod]; decide), pay1_pay26_apply]; rfl

/-! ## Accumulator 5 -/

theorem s5_first (t : Fin cfg0.N) (h0 : t.val % 4 = 0) :
    (stAt m c t.val t.isLt).s5 = k0_pay2 (k0_pay21 (iblk m c 3 t)) (k0_pay13 (F := Ideal)) := by
  have h1 : ¬ t.val % 4 = 3 := by omega
  rw [stAt_A m c t h0 h1]; exact stA_s5 ..
theorem s5_next (t : Fin cfg0.N) (h0 : ¬ t.val % 4 = 0) :
    (stAt m c t.val t.isLt).s5 = k0_pay2 (k0_pay21 (iblk m c 3 t)) (stAt m c (t.val - 1) (Nat.lt_of_le_of_lt (Nat.sub_le _ _) t.isLt)).s5 := by
  by_cases h1 : t.val % 4 = 3
  · rw [stAt_C m c t h0 h1]; exact stC_s5 ..
  · rw [stAt_B m c t h0 h1]; exact stB_s5 ..

/-- After the last chunk of half `h` accumulator 5 holds the number of confident points of lane `j`. -/
theorem acc5 (h : Fin 2) (j : Fin 128) :
    (stAt m c (pt h 3).val (pt h 3).isLt).s5 (ix2 j (0 : Fin 1)) = Cert.Spec.cden (clf m c) j := by
  unfold Cert.Spec.cden
  refine last_sum ((stAt m c (pt h 0).val (pt h 0).isLt).s5 (ix2 j (0 : Fin 1))) ((stAt m c (pt h 1).val (pt h 1).isLt).s5 (ix2 j (0 : Fin 1)))
    ((stAt m c (pt h 2).val (pt h 2).isLt).s5 (ix2 j (0 : Fin 1))) _ (fun q => Cert.Spec.mf (clf m c) j q)
    (fun p => ∑ k : Fin 128, k0_pay21 (iblk m c 3 (pt h p)) (ix2 j k)) ?_ ?_ ?_ ?_ ?_
  · intro p
    refine Finset.sum_congr rfl fun k _ => ?_
    rw [pay21_blk, colOf_pt]
  · rw [s5_first m c (pt h 0) (by rw [pt_mod]; rfl), pay2_apply, pay13_apply]
  · rw [s5_next m c (pt h 1) (by rw [pt_mod]; decide), pay2_apply]; rfl
  · rw [s5_next m c (pt h 2) (by rw [pt_mod]; decide), pay2_apply]; rfl
  · rw [s5_next m c (pt h 3) (by rw [pt_mod]; decide), pay2_apply]; rfl

end Cert.KernelIdeal.Hand

end
-- ==== Proof.KernelIdeal.Tail.lean ====
/-
  The kernel program's operations after its region, read at a lane.

  The region leaves a row result of shape [128, 1] and two column results as one array of shape [2, 8, 128]. The
  thirteen operations that follow flatten the row result to 128 numbers and compare each with one half; take row 0
  of each column result, compare each of its 128 numbers with one half, and join the two comparisons lane by lane by
  a disjunction folded from 0 over the axis of extent 2; join that with the row's comparison; and convert the bit to
  0 or 1. So the value at lane l is 1 exactly when the row result at (l, 0), or column result 0 or 1 at (0, l),
  exceeds one half. One half stays the word both comparisons share and is never evaluated.
-/
import proofs.«140321_j78700980732218_2_alg».proof.Proof.Gen.KernelIdeal.Launch
import Idealize.ShloMosaic.Lib.StableHlo.Run
import Idealize.ShloMosaic.Lib.ValueIdx
import Idealize.ShloMosaic.Lib.Pipeline.Value
import Idealize.ShloMosaic.PureOps.Reduce

noncomputable section
namespace Cert.KernelIdeal.Tail
open Cert.KernelIdeal Cert.KernelIdeal.Gen Idealize.ShloMosaic Idealize.ShloMosaic.TcCoe

/-! ## One-bit words -/

/-- The disjunction of two one-bit words is 1 exactly when one of them is. -/
theorem or_eq_one (b c : BitVec 1) : b ||| c = 1#1 ↔ b = 1#1 ∨ c = 1#1 := by
  revert b c; decide

/-- A one-bit word as an extended real: 1 when it is the word 1, else 0. -/
theorem bit_toEReal (b : BitVec 1) : (((b.toNat : ℝ)) : EReal) = if b = 1#1 then 1 else 0 := by
  rcases BitVec.eq_zero_or_eq_one b with h | h <;> subst h <;> simp

/-- An or-fold of one-bit words from 0 is 1 exactly when some word is 1. -/
theorem fold_ori_eq_one {ι : Type} [DecidableEq ι] (f : ι → BitVec 1) (s : Finset ι) :
    s.fold IntOp.ori 0#1 f = 1#1 ↔ ∃ k ∈ s, f k = 1#1 := by
  induction s using Finset.induction_on with
  | empty => simp
  | insert a s ha ih =>
    rw [Finset.fold_insert ha]
    show (f a ||| _) = 1#1 ↔ _
    rw [or_eq_one, ih]
    simp

/-! ## The operations after the region -/

/-- One half, as the word both comparisons share. -/
def half : EReal := Ideal.ofBits .f32 0x3F000000#32

/-- The row result, as a vector of 128, compared with one half. -/
def rowBit (orow : (⟨S128x1, .f32⟩ : BufTy).Contents (Elt Ideal)) : (⟨S128, .i1⟩ : BufTy).Contents (Elt Ideal) :=
  cmpf .ogt (shapeCast S128 orow shapeCasts_S128x1_S128 : (⟨S128, .f32⟩ : BufTy).Contents (Elt Ideal))
    (broadcastInDim S128 ![] bcast_S_S128 (constant (F := Ideal) S_ .f32 0x3F000000#32))

/-- Row 0 of each of the two column results, as a 2 × 128 array, compared with one half. -/
def colCmp (ocol : (⟨S2x8x128, .f32⟩ : BufTy).Contents (Elt Ideal)) : (⟨S2x128, .i1⟩ : BufTy).Contents (Elt Ideal) :=
  cmpf .ogt
    (shapeCast S2x128 (extractStridedSlice S2x1x128 ![0, 0, 0] ocol slices_S2x8x128_S2x1x128_0_0_0) shapeCasts_S2x1x128_S2x128
      : (⟨S2x128, .f32⟩ : BufTy).Contents (Elt Ideal))
    (broadcastInDim S2x128 ![] bcast_S_S2x128 (constant (F := Ideal) S_ .f32 0x3F000000#32))

/-- The disjunction of the two column comparisons. -/
def colBit (ocol : (⟨S2x8x128, .f32⟩ : BufTy).Contents (Elt Ideal)) : (⟨S128, .i1⟩ : BufTy).Contents (Elt Ideal) :=
  Host.reduce IntOp.ori (colCmp ocol) (constantI S_ 1 0#1) reducesTo_S2x128_S128_d0 h_S_

/-- The thirteen operations after the region, composed: the row result and the two column results are compared with
    one half, the two column comparisons are joined by a disjunction, that is joined with the row's, and the bit is
    converted to 0 or 1. -/
def tail (orow : (⟨S128x1, .f32⟩ : BufTy).Contents (Elt Ideal)) (ocol : (⟨S2x8x128, .f32⟩ : BufTy).Contents (Elt Ideal)) :
    (⟨S128, .f32⟩ : BufTy).Contents (Elt Ideal) :=
  uitofp (F := Ideal) .f32 (ori (rowBit orow) (colBit ocol))

/-- After the thirteen operations the last buffer holds that term of the region's two results. -/
theorem after_tail (W : Valuation τ sig (Elt Ideal)) :
    StableHlo.after (hostOps1 (F := Ideal)) W (Proc.devRef .tc main_v10)
      = tail (W (Proc.devRef .tc main_v0_0)) (W (Proc.devRef .tc main_v0_1)) := by
  open Idealize.ShloMosaic.StableHlo in after_results
  rfl

open Idealize.ShloMosaic.ValueIdx

/-- The row comparison at lane l reads the row result at (l, 0). -/
theorem rowBit_at (orow : (⟨S128x1, .f32⟩ : BufTy).Contents (Elt Ideal)) (l : Fin 128) :
    rowBit orow (ix1 l) = Ideal.cmp .ogt (orow (ix2 l (0 : Fin 1))) half := by
  unfold rowBit
  show Ideal.cmp .ogt (shapeCast S128 orow shapeCasts_S128x1_S128 (ix1 l))
      (broadcastInDim S128 ![] bcast_S_S128 (constant (F := Ideal) S_ .f32 0x3F000000#32) (ix1 l)) = _
  rw [shapeCast_apply orow shapeCasts_S128x1_S128 (ix1 l) (ix2 l (0 : Fin 1))
      (by rewrite [Shape.rowMajor_val_two, Shape.rowMajor_val_one]; show l.val * 1 + 0 = l.val; omega),
    broadcastInDim_apply _ bcast_S_S128 _ (ix1 l) ix0 (fun a => a.elim0)]
  rfl

/-- A column comparison at (c, l) reads column result c at (0, l). -/
theorem colCmp_at (ocol : (⟨S2x8x128, .f32⟩ : BufTy).Contents (Elt Ideal)) (c : Fin 2) (l : Fin 128) :
    colCmp ocol (ix2 c l) = Ideal.cmp .ogt (ocol (ix3 c (0 : Fin 8) l)) half := by
  unfold colCmp
  show Ideal.cmp .ogt
      (shapeCast S2x128 (extractStridedSlice S2x1x128 ![0, 0, 0] ocol slices_S2x8x128_S2x1x128_0_0_0) shapeCasts_S2x1x128_S2x128 (ix2 c l))
      (broadcastInDim S2x128 ![] bcast_S_S2x128 (constant (F := Ideal) S_ .f32 0x3F000000#32) (ix2 c l)) = _
  rw [shapeCast_apply _ shapeCasts_S2x1x128_S2x128 (ix2 c l) (ix3 c (0 : Fin 1) l)
      (by rewrite [Shape.rowMajor_val_three, Shape.rowMajor_val_two]; show (c.val * 1 + 0) * 128 + l.val = c.val * 128 + l.val; omega),
    extractStridedSlice_apply ![0, 0, 0] ocol slices_S2x8x128_S2x1x128_0_0_0 (ix3 c (0 : Fin 1) l) (ix3 c (0 : Fin 8) l)
      (fun a => match a with
        | ⟨0, _⟩ => by show c.val = 0 + c.val; omega
        | ⟨1, _⟩ => by show 0 = 0 + 0; rfl
        | ⟨2, _⟩ => by show l.val = 0 + l.val; omega),
    broadcastInDim_apply _ bcast_S_S2x128 _ (ix2 c l) ix0 (fun a => a.elim0)]
  rfl

/-- The column bit at lane l is 1 exactly when one of the two column comparisons is. -/
theorem colBit_iff (ocol : (⟨S2x8x128, .f32⟩ : BufTy).Contents (Elt Ideal)) (l : Fin 128) :
    colBit ocol (ix1 l) = 1#1 ↔ ∃ c : Fin 2, Ideal.cmp .ogt (ocol (ix3 c (0 : Fin 8) l)) half = 1#1 := by
  have h : Shape.Reduces S2x128 [0] S128 := by decide
  have hf : colBit ocol (ix1 l) = (Finset.univ : Finset (Fin 2)).fold IntOp.ori 0#1 (fun c => colCmp ocol (ix2 c l)) := by
    unfold colBit
    refine (Host.reduce_eq_fold_single IntOp.ori _ _ reducesTo_S2x128_S128_d0 h h_S_ (ix1 l)).trans ?_
    refine congrArg (fun f : Fin 2 → BitVec 1 => Finset.fold IntOp.ori 0#1 f (Finset.univ : Finset (Fin 2))) (funext fun c : Fin 2 => ?_)
    have e : h.lift (ix1 l) c = ix2 c l :=
      funext fun a => Fin.ext (by match a with | ⟨0, _⟩ => rfl | ⟨1, _⟩ => rfl)
    show colCmp ocol (h.lift (ix1 l) c) = _
    rw [e]
  rw [hf, fold_ori_eq_one]
  exact ⟨fun ⟨c, _, hc⟩ => ⟨c, (colCmp_at ocol c l) ▸ hc⟩, fun ⟨c, hc⟩ => ⟨c, Finset.mem_univ _, (colCmp_at ocol c l).symm ▸ hc⟩⟩

open Classical in
/-- THE TAIL AT A LANE: 1 when the row result at (l, 0), or one of the two column results at (0, l), exceeds one half;
    else 0. -/
theorem tail_apply (orow : (⟨S128x1, .f32⟩ : BufTy).Contents (Elt Ideal)) (ocol : (⟨S2x8x128, .f32⟩ : BufTy).Contents (Elt Ideal))
    (l : Fin 128) :
    tail orow ocol (ix1 l)
      = (if (Ideal.cmp .ogt (orow (ix2 l (0 : Fin 1))) half = 1#1
            ∨ ∃ c : Fin 2, Ideal.cmp .ogt (ocol (ix3 c (0 : Fin 8) l)) half = 1#1) then (1 : EReal) else 0) := by
  have hiff : (rowBit orow (ix1 l) ||| colBit ocol (ix1 l)) = 1#1
      ↔ (Ideal.cmp .ogt (orow (ix2 l (0 : Fin 1))) half = 1#1
          ∨ ∃ c : Fin 2, Ideal.cmp .ogt (ocol (ix3 c (0 : Fin 8) l)) half = 1#1) := by
    rw [or_eq_one, rowBit_at, colBit_iff]
  unfold tail
  show ((((rowBit orow (ix1 l) ||| colBit ocol (ix1 l)).toNat : ℝ)) : EReal) = _
  rw [bit_toEReal]
  by_cases hP : (Ideal.cmp .ogt (orow (ix2 l (0 : Fin 1))) half = 1#1
      ∨ ∃ c : Fin 2, Ideal.cmp .ogt (ocol (ix3 c (0 : Fin 8) l)) half = 1#1)
  · rw [if_pos (hiff.2 hP), if_pos hP]
  · rw [if_neg (fun h => hP (hiff.1 h)), if_neg hP]

end Cert.KernelIdeal.Tail
end
-- ==== Proof.KernelIdeal.Outs.lean ====
/-
  The two result blocks of a last chunk, and the whole result, in the specification's words.

  Once the six running sums hold the specification's count, distance sum and confidence sums for the 64 rows of one
  half (rows 64 h + r) against all 128 lanes, the rows' result block says, per row, whether some lane is flagged with
  it and beats it, and the lanes' result block says, per lane, whether some row of this half is flagged with it and
  is not beaten by it. The operations after the region compare these 0/1 values with one half, which a value of 1
  exceeds and a value of 0 does not, and join the row's answer with the two halves' answers: a lane is suppressed
  exactly when one of them says so. Every lane number below 128 is 64 h + r for one half h and one row r.
-/
import proofs.«140321_j78700980732218_2_alg».proof.Proof.KernelIdeal.Pay
import proofs.«140321_j78700980732218_2_alg».proof.Proof.KernelIdeal.Tail
import proofs.«140321_j78700980732218_2_alg».proof.Proof.Spec

noncomputable section

namespace Cert.KernelIdeal.Outs

open Cert.KernelIdeal Cert.KernelIdeal.Gen Idealize.ShloMosaic Idealize.ShloMosaic.ValueIdx Cert.KernelIdeal.Pay
open Classical

/-- The lane that local row `r` of half `h` is. -/
def row (h : Fin 2) (r : Fin 64) : Fin 128 := ⟨64 * h.val + r.val, by have := h.isLt; have := r.isLt; omega⟩

/-- Every lane is a row of one of the two halves. -/
theorem exists_row_iff (Q : Fin 128 → Prop) : (∃ h : Fin 2, ∃ r : Fin 64, Q (row h r)) ↔ ∃ i : Fin 128, Q i := by
  constructor
  · rintro ⟨h, r, hq⟩
    exact ⟨_, hq⟩
  · rintro ⟨i, hq⟩
    have hi := i.isLt
    have e : row ⟨i.val / 64, by omega⟩ ⟨i.val % 64, by omega⟩ = i :=
      Fin.ext (by show 64 * (i.val / 64) + i.val % 64 = i.val; omega)
    exact ⟨⟨i.val / 64, by omega⟩, ⟨i.val % 64, by omega⟩, by rw [e]; exact hq⟩

/-- The word for one half denotes the real 1/2. -/
theorem half_eq : Cert.KernelIdeal.Tail.half = ((1 / 2 : ℝ) : EReal) := by
  unfold Cert.KernelIdeal.Tail.half
  simp [Ideal.ofBits, Ideal.ieee, -EReal.coe_mul]; norm_num

/-- A value that is 1 under a condition and 0 otherwise exceeds one half exactly under the condition. -/
theorem cmp_ite_half_iff (P : Prop) [Decidable P] :
    Ideal.cmp .ogt (if P then (1 : EReal) else 0) Cert.KernelIdeal.Tail.half = 1#1 ↔ P := by
  rw [cmp_ogt_eq_one_iff, half_eq]
  by_cases hp : P
  · rw [if_pos hp]
    refine iff_of_true ?_ hp
    rw [← EReal.coe_one, EReal.coe_lt_coe_iff]; norm_num
  · rw [if_neg hp]
    refine iff_of_false ?_ hp
    rw [← EReal.coe_zero, EReal.coe_lt_coe_iff]; norm_num

section Blocks

variable (reg clf : Cert.Spec.A3.Idx → EReal) (h : Fin 2) (S0 S1 : Vec Ideal S64x128 .f32)
  (S2 S3 : Vec Ideal S64x1 .f32) (S4 S5 : Vec Ideal S128x1 .f32)

/-- The kernel's flag bit of (row r of half h, lane j) is the specification's flag of that pair of lanes. -/
theorem flag_iff (h0 : ∀ r j, S0 (ix2 r j) = Cert.Spec.cnt clf (row h r) j)
    (h1 : ∀ r j, S1 (ix2 r j) = Cert.Spec.dsum reg clf (row h r) j) (r : Fin 64) (j : Fin 128) :
    k0_pay4 (F := Ideal) (BitVec.ofNat 32 h.val) S1 S0 (ix2 r j) = 1#1 ↔ Cert.Spec.flag reg clf (row h r) j := by
  rw [pay4_apply, h1, h0]
  exact and_congr Iff.rfl (not_congr (Fin.ext_iff (a := row h r) (b := j)).symm)

/-- The kernel's "lane j beats row r" bit is the specification's. -/
theorem wins_iff (h2 : ∀ r, S2 (ix2 r (0 : Fin 1)) = Cert.Spec.cnum clf (row h r))
    (h3 : ∀ r, S3 (ix2 r (0 : Fin 1)) = Cert.Spec.cden clf (row h r))
    (h4 : ∀ j : Fin 128, S4 (ix2 j (0 : Fin 1)) = Cert.Spec.cnum clf j)
    (h5 : ∀ j : Fin 128, S5 (ix2 j (0 : Fin 1)) = Cert.Spec.cden clf j) (r : Fin 64) (j : Fin 128) :
    k0_pay5 (F := Ideal) S2 S3 S4 S5 (ix2 r j) = 1#1 ↔ Cert.Spec.wins clf (row h r) j := by
  rw [pay5_apply, h4, h5, h2, h3]
  exact Iff.rfl

/-- THE ROWS' RESULT BLOCK: 1 at a row that some lane is flagged with and beats. -/
theorem out4 (h0 : ∀ r j, S0 (ix2 r j) = Cert.Spec.cnt clf (row h r) j)
    (h1 : ∀ r j, S1 (ix2 r j) = Cert.Spec.dsum reg clf (row h r) j)
    (h2 : ∀ r, S2 (ix2 r (0 : Fin 1)) = Cert.Spec.cnum clf (row h r))
    (h3 : ∀ r, S3 (ix2 r (0 : Fin 1)) = Cert.Spec.cden clf (row h r))
    (h4 : ∀ j : Fin 128, S4 (ix2 j (0 : Fin 1)) = Cert.Spec.cnum clf j)
    (h5 : ∀ j : Fin 128, S5 (ix2 j (0 : Fin 1)) = Cert.Spec.cden clf j) (r : Fin 64) :
    k0_pay6 (F := Ideal) (BitVec.ofNat 32 h.val) S1 S0 S2 S3 S4 S5 (ix2 r (0 : Fin 1))
      = if ∃ j : Fin 128, Cert.Spec.flag reg clf (row h r) j ∧ Cert.Spec.wins clf (row h r) j then (1 : EReal) else 0 := by
  rw [pay6_apply]
  exact if_congr (exists_congr fun j => and_congr (flag_iff reg clf h S0 S1 h0 h1 r j)
    (wins_iff clf h S2 S3 S4 S5 h2 h3 h4 h5 r j)) rfl rfl

/-- THE LANES' RESULT BLOCK: 1 at a lane that some row of this half is flagged with and is not beaten by. -/
theorem out5 (h0 : ∀ r j, S0 (ix2 r j) = Cert.Spec.cnt clf (row h r) j)
    (h1 : ∀ r j, S1 (ix2 r j) = Cert.Spec.dsum reg clf (row h r) j)
    (h2 : ∀ r, S2 (ix2 r (0 : Fin 1)) = Cert.Spec.cnum clf (row h r))
    (h3 : ∀ r, S3 (ix2 r (0 : Fin 1)) = Cert.Spec.cden clf (row h r))
    (h4 : ∀ j : Fin 128, S4 (ix2 j (0 : Fin 1)) = Cert.Spec.cnum clf j)
    (h5 : ∀ j : Fin 128, S5 (ix2 j (0 : Fin 1)) = Cert.Spec.cden clf j) (s : Fin 8) (j : Fin 128) :
    k0_pay3 (F := Ideal) (k0_pay7 (F := Ideal) (BitVec.ofNat 32 h.val) S1 S0 S2 S3 S4 S5) (ix3 (0 : Fin 1) s j)
      = if ∃ r : Fin 64, Cert.Spec.flag reg clf (row h r) j ∧ ¬ Cert.Spec.wins clf (row h r) j then (1 : EReal) else 0 := by
  rw [pay3_pay7_apply]
  exact if_congr (exists_congr fun r => and_congr (flag_iff reg clf h S0 S1 h0 h1 r j)
    (not_congr (wins_iff clf h S2 S3 S4 S5 h2 h3 h4 h5 r j))) rfl rfl

end Blocks

/-- THE WHOLE RESULT: the operations after the region, applied to the rows' results and the two halves' lane
    results, give the specification. -/
theorem assemble (reg clf : Cert.Spec.A3.Idx → EReal) (orow : Vec Ideal S128x1 .f32) (ocol : Vec Ideal S2x8x128 .f32)
    (hrow : ∀ l : Fin 128, orow (ix2 l (0 : Fin 1))
      = if ∃ j : Fin 128, Cert.Spec.flag reg clf l j ∧ Cert.Spec.wins clf l j then (1 : EReal) else 0)
    (hcol : ∀ (h : Fin 2) (l : Fin 128), ocol (ix3 h (0 : Fin 8) l)
      = if ∃ r : Fin 64, Cert.Spec.flag reg clf (row h r) l ∧ ¬ Cert.Spec.wins clf (row h r) l then (1 : EReal) else 0) :
    Cert.KernelIdeal.Tail.tail orow ocol = Cert.Spec.G reg clf := by
  funext y
  obtain ⟨l, rfl⟩ : ∃ l : Fin 128, y = ix1 l := ⟨y 0, eq_ix1 y⟩
  rw [Cert.KernelIdeal.Tail.tail_apply]
  unfold Cert.Spec.G
  refine if_congr ?_ rfl rfl
  unfold Cert.Spec.sup
  refine or_congr ?_ ?_
  · rw [hrow l]
    exact cmp_ite_half_iff _
  · refine Iff.trans ?_ (exists_row_iff fun i => Cert.Spec.flag reg clf i l ∧ ¬ Cert.Spec.wins clf i l)
    refine exists_congr fun c => ?_
    rw [hcol c l]
    exact cmp_ite_half_iff _

end Cert.KernelIdeal.Outs

end
-- ==== Proof.KernelIdeal.Final.lean ====
/-
  The two result arrays after the run, read at an index.

  The grid's eight points are two halves of four column chunks each; a half's results are written back once, at its
  last point 4 · h + 3. The row result [128, 1] is written in blocks of [64, 1], block h at the last point of half
  h; the column result [2, 8, 128] in blocks of [1, 8, 128], slab h at the same point. A block's coordinate on an
  axis is the block index times the block's extent plus the coordinate inside the block; so each result array is ONE
  function of the index — lane l of the row result is element l % 64 of what the last point of half l / 64 left, and
  (h, s, l) of the column result is element (0, s, l) of what the last point of half h left — each flushing point
  writes back its block of that function, and the two blocks tile the array.
-/
import proofs.«140321_j78700980732218_2_alg».proof.Proof.KernelIdeal.Points
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]
variable (m : (ℓ : Loc nD τ sig) → Buf (Elt F) ℓ)

/-! ## The flushing points -/

/-- The number of grid points. -/
theorem N_eq : cfg0.N = 8 := N_0

/-- The last point of half h, the one that writes the half's results back: 4 · h + 3. -/
def lastOf (h : Fin 2) : Fin cfg0.N := ⟨4 * h.val + 3, by have e := N_eq; have := h.isLt; omega⟩

@[simp] theorem lastOf_val (h : Fin 2) : (lastOf h).val = 4 * h.val + 3 := rfl

/-- The half a lane belongs to: l / 64. -/
def halfOf (l : Fin 128) : Fin 2 := ⟨l.val / 64, by have := l.isLt; omega⟩

@[simp] theorem halfOf_val (l : Fin 128) : (halfOf l).val = l.val / 64 := rfl

/-- The accumulation at two equal positions is the same. -/
theorem stAt_congr (c : Dev nD) {n n' : ℕ} (e : n = n') (hn : n < cfg0.N) (hn' : n' < cfg0.N) :
    stAt m c n hn = stAt m c n' hn' := by
  subst e; rfl

/-- The printed index maps of the two result windows, decided over the grid: the half on the leading axis, 0 on
    the others. -/
theorem idx_facts_out : ∀ t : Fin cfg0.N,
    (win0_4.index t (0 : Fin 2) = t.val / 4 ∧ win0_4.index t (1 : Fin 2) = 0)
    ∧ (win0_5.index t (0 : Fin 3) = t.val / 4 ∧ win0_5.index t (1 : Fin 3) = 0 ∧ win0_5.index t (2 : Fin 3) = 0) :=
  (by decide +kernel : ∀ t : Fin grid0.N, _)

/-! ## Result window 4: the row result, [128, 1] in blocks of [64, 1] -/

/-- Element r of the row block the body leaves at position n. -/
def o4At (c : Dev nD) (n : ℕ) (hn : n < cfg0.N) (r : ℕ) (hr : r < 64) : Elt F .f32 :=
  (stAt m c n hn).o4 (ix2 (⟨r, hr⟩ : Fin 64) (0 : Fin 1))

theorem o4At_congr (c : Dev nD) {n n' r r' : ℕ} (en : n = n') (er : r = r') (hn : n < cfg0.N) (hn' : n' < cfg0.N)
    (hr : r < 64) (hr' : r' < 64) : o4At m c n hn r hr = o4At m c n' hn' r' hr' := by
  subst en; subst er; rfl

/-- The whole row result as one function: lane l holds element l % 64 of what the last point of l's half left. -/
def G4 (c : Dev nD) : S128x1.Idx → Elt F .f32 := fun i =>
  o4At m c (4 * ((i 0).val / 64) + 3) (by have e := N_eq; have := idx2_lt0 i; omega) ((i 0).val % 64) (by omega)

/-- What a flushing point writes back is its block of that function. -/
theorem flushed4_eq (c : Dev nD) (t : Fin cfg0.N) (ht : t.val % 4 = 3) :
    (dats m 0 c).flushed 4 t = ((cfg0.win 4).blk t).view.read (Elt F) (G4 m c) := by
  show (cfg0.win 4).cut (grid0.coords t) ((dats m 0 c).after 4 t) = _
  rw [after4]
  funext y
  obtain ⟨r, z, rfl⟩ : ∃ (r : Fin 64) (z : Fin 1), y = ix2 r z := ⟨y 0, y 1, eq_ix2 y⟩
  obtain rfl : z = 0 := Subsingleton.elim _ _
  show o4At m c t.val t.isLt r.val r.isLt = G4 m c (((cfg0.win 4).blk t).view.emb (ix2 r (0 : Fin 1)))
  have e0 : ((((cfg0.win 4).blk t).view.emb (ix2 r (0 : Fin 1))) (0 : Fin 2)).val = win0_4.index t (0 : Fin 2) * 64 + 1 * r.val := rfl
  obtain ⟨⟨f0, f1⟩, -⟩ := idx_facts_out t
  have htl := t.isLt; have eN := N_eq; have hr := r.isLt
  unfold G4
  exact o4At_congr m c (by rw [e0, f0]; omega) (by rw [e0, f0]; omega) _ _ _ _

/-- An index of the row result is in point t's block iff each coordinate is in the block's range on its axis. -/
theorem mem_blk4 (t : Fin cfg0.N) (i : S128x1.Idx) :
    i ∈ ((cfg0.win 4).blk t).view.set ↔ ∀ a : Fin 2, win0_4.index t a * S64x1.size a ≤ (i a).val ∧ (i a).val < win0_4.index t a * S64x1.size a + S64x1.size a := by
  show i ∈ ((View.whole main_v0_0).slice (win0_4.rect t)).set ↔ _
  rw [View.set_slice_whole, Rect.mem_set_unit]
  exact Iff.rfl

/-- Every index of the row result is in the block of the last point of its half, which writes back. -/
theorem cover4 (i : S128x1.Idx) : ∃ t : Fin cfg0.N, (cfg0.win 4).flush t = true ∧ i ∈ ((cfg0.win 4).blk t).view.set := by
  have hi0 : (i 0).val < 128 := idx2_lt0 i
  have hi1 : (i 1).val < 1 := idx2_lt1 i
  refine ⟨lastOf ⟨(i 0).val / 64, by omega⟩, (flush0_4 _).2 (by show (4 * ((i 0).val / 64) + 3) % 4 = 3; omega), ?_⟩
  rw [mem_blk4]
  obtain ⟨⟨f0, f1⟩, -⟩ := idx_facts_out (lastOf ⟨(i 0).val / 64, by omega⟩)
  have hv : (lastOf ⟨(i 0).val / 64, by omega⟩).val = 4 * ((i 0).val / 64) + 3 := rfl
  intro a
  match a with
  | ⟨0, _⟩ =>
    show win0_4.index _ (0 : Fin 2) * 64 ≤ (i 0).val ∧ (i 0).val < win0_4.index _ (0 : Fin 2) * 64 + 64
    rw [f0, hv]; omega
  | ⟨1, _⟩ =>
    show win0_4.index _ (1 : Fin 2) * 1 ≤ (i 1).val ∧ (i 1).val < win0_4.index _ (1 : Fin 2) * 1 + 1
    rw [f1]; omega

/-- THE ROW RESULT after the run is that function. -/
theorem arr4 (c : Dev nD) : (dats m 0 c).arrAt 4 cfg0.N = G4 m c :=
  (dats m 0 c).arrAt_eq_of_cover 4 (G4 m c) (fun t hf => flushed4_eq m c t ((flush0_4 t).1 hf)) cover4

/-- The row result at lane l: element l % 64 of the row block the last point of l's half left. -/
theorem final4 (c : Dev nD) (l : Fin 128) :
    (dats m 0 c).arrAt 4 cfg0.N (ix2 l (0 : Fin 1))
      = (stAt m c (lastOf (halfOf l)).val (lastOf (halfOf l)).isLt).o4 (ix2 (⟨l.val % 64, by omega⟩ : Fin 64) (0 : Fin 1)) := by
  rw [arr4]; rfl

/-- The same with the point spelt as a number. -/
theorem final4' (c : Dev nD) (l : Fin 128) :
    (dats m 0 c).arrAt 4 cfg0.N (ix2 l (0 : Fin 1))
      = (stAt m c (4 * (l.val / 64) + 3) (by have e := N_eq; have := l.isLt; omega)).o4 (ix2 (⟨l.val % 64, by omega⟩ : Fin 64) (0 : Fin 1)) :=
  final4 m c l

/-! ## Result window 5: the column results, [2, 8, 128] in blocks of [1, 8, 128] -/

/-- Element (s, l) of the column block the body leaves at position n. -/
def o5At (c : Dev nD) (n : ℕ) (hn : n < cfg0.N) (s : ℕ) (hs : s < 8) (l : ℕ) (hl : l < 128) : Elt F .f32 :=
  (stAt m c n hn).o5 (ix3 (0 : Fin 1) (⟨s, hs⟩ : Fin 8) (⟨l, hl⟩ : Fin 128))

theorem o5At_congr (c : Dev nD) {n n' s s' l l' : ℕ} (en : n = n') (es : s = s') (el : l = l') (hn : n < cfg0.N) (hn' : n' < cfg0.N)
    (hs : s < 8) (hs' : s' < 8) (hl : l < 128) (hl' : l' < 128) : o5At m c n hn s hs l hl = o5At m c n' hn' s' hs' l' hl' := by
  subst en; subst es; subst el; rfl

/-- The whole column result as one function: slab h holds what the last point of half h left. -/
def G5 (c : Dev nD) : S2x8x128.Idx → Elt F .f32 := fun i =>
  o5At m c (4 * (i 0).val + 3) (by have e := N_eq; have : (i 0).val < 2 := (i 0).isLt; omega)
    (i 1).val (i 1).isLt (i 2).val (i 2).isLt

/-- What a flushing point writes back is its block of that function. -/
theorem flushed5_eq (c : Dev nD) (t : Fin cfg0.N) (ht : t.val % 4 = 3) :
    (dats m 0 c).flushed 5 t = ((cfg0.win 5).blk t).view.read (Elt F) (G5 m c) := by
  show (cfg0.win 5).cut (grid0.coords t) ((dats m 0 c).after 5 t) = _
  rw [after5]
  funext y
  obtain ⟨z, s, l, rfl⟩ : ∃ (z : Fin 1) (s : Fin 8) (l : Fin 128), y = ix3 z s l := ⟨y 0, y 1, y 2, eq_ix3 y⟩
  obtain rfl : z = 0 := Subsingleton.elim _ _
  show o5At m c t.val t.isLt s.val s.isLt l.val l.isLt = G5 m c (((cfg0.win 5).blk t).view.emb (ix3 (0 : Fin 1) s l))
  have e0 : ((((cfg0.win 5).blk t).view.emb (ix3 (0 : Fin 1) s l)) (0 : Fin 3)).val = win0_5.index t (0 : Fin 3) * 1 + 1 * 0 := rfl
  have e1 : ((((cfg0.win 5).blk t).view.emb (ix3 (0 : Fin 1) s l)) (1 : Fin 3)).val = win0_5.index t (1 : Fin 3) * 8 + 1 * s.val := rfl
  have e2 : ((((cfg0.win 5).blk t).view.emb (ix3 (0 : Fin 1) s l)) (2 : Fin 3)).val = win0_5.index t (2 : Fin 3) * 128 + 1 * l.val := rfl
  obtain ⟨-, f0, f1, f2⟩ := idx_facts_out t
  have htl := t.isLt; have eN := N_eq
  unfold G5
  exact o5At_congr m c (by rw [e0, f0]; omega) (by rw [e1, f1]; omega) (by rw [e2, f2]; omega) _ _ _ _ _ _

/-- An index of the column result is in point t's block iff each coordinate is in the block's range on its axis. -/
theorem mem_blk5 (t : Fin cfg0.N) (i : S2x8x128.Idx) :
    i ∈ ((cfg0.win 5).blk t).view.set ↔ ∀ a : Fin 3, win0_5.index t a * S1x8x128.size a ≤ (i a).val ∧ (i a).val < win0_5.index t a * S1x8x128.size a + S1x8x128.size a := by
  show i ∈ ((View.whole main_v0_1).slice (win0_5.rect t)).set ↔ _
  rw [View.set_slice_whole, Rect.mem_set_unit]
  exact Iff.rfl

/-- Every index of the column result is in the block of the last point of its slab's half, which writes back. -/
theorem cover5 (i : S2x8x128.Idx) : ∃ t : Fin cfg0.N, (cfg0.win 5).flush t = true ∧ i ∈ ((cfg0.win 5).blk t).view.set := by
  have hi0 : (i 0).val < 2 := (i 0).isLt
  have hi1 : (i 1).val < 8 := (i 1).isLt
  have hi2 : (i 2).val < 128 := (i 2).isLt
  refine ⟨lastOf ⟨(i 0).val, hi0⟩, (flush0_5 _).2 (by show (4 * (i 0).val + 3) % 4 = 3; omega), ?_⟩
  rw [mem_blk5]
  obtain ⟨-, f0, f1, f2⟩ := idx_facts_out (lastOf ⟨(i 0).val, hi0⟩)
  have hv : (lastOf ⟨(i 0).val, hi0⟩).val = 4 * (i 0).val + 3 := rfl
  intro a
  match a with
  | ⟨0, _⟩ =>
    show win0_5.index _ (0 : Fin 3) * 1 ≤ (i 0).val ∧ (i 0).val < win0_5.index _ (0 : Fin 3) * 1 + 1
    rw [f0, hv]; omega
  | ⟨1, _⟩ =>
    show win0_5.index _ (1 : Fin 3) * 8 ≤ (i 1).val ∧ (i 1).val < win0_5.index _ (1 : Fin 3) * 8 + 8
    rw [f1]; omega
  | ⟨2, _⟩ =>
    show win0_5.index _ (2 : Fin 3) * 128 ≤ (i 2).val ∧ (i 2).val < win0_5.index _ (2 : Fin 3) * 128 + 128
    rw [f2]; omega

/-- THE COLUMN RESULT after the run is that function. -/
theorem arr5 (c : Dev nD) : (dats m 0 c).arrAt 5 cfg0.N = G5 m c :=
  (dats m 0 c).arrAt_eq_of_cover 5 (G5 m c) (fun t hf => flushed5_eq m c t ((flush0_5 t).1 hf)) cover5

/-- The column result at (h, s, l): element (0, s, l) of the column block the last point of half h left. -/
theorem final5 (c : Dev nD) (h : Fin 2) (s : Fin 8) (l : Fin 128) :
    (dats m 0 c).arrAt 5 cfg0.N (ix3 h s l)
      = (stAt m c (lastOf h).val (lastOf h).isLt).o5 (ix3 (0 : Fin 1) s l) := by
  rw [arr5]; rfl

/-- The same with the point spelt as a number. -/
theorem final5' (c : Dev nD) (h : Fin 2) (s : Fin 8) (l : Fin 128) :
    (dats m 0 c).arrAt 5 cfg0.N (ix3 h s l)
      = (stAt m c (4 * h.val + 3) (by have e := N_eq; have := h.isLt; omega)).o5 (ix3 (0 : Fin 1) s l) :=
  final5 m c h s l

end Cert.KernelIdeal.Hand
end
-- ==== Proof.KernelIdeal.Body0.lean ====
/-
  What the body is called with at a grid point, and what it returns.
-/
import proofs.«140321_j78700980732218_2_alg».proof.Proof.KernelIdeal.Points

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

end Cert.KernelIdeal.Hand

end
-- ==== Proof.KernelIdeal.BodyA0.lean ====
/-
  The body obligation at the very first grid point.
-/
import proofs.«140321_j78700980732218_2_alg».proof.Proof.KernelIdeal.Body0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at the very first point: a first column chunk, the accumulators found at anything. -/
theorem sound_body_first0 (c : Dev nD) (t : Fin cfg0.N) (h0 : t.val % 4 = 0) (h1 : ¬t.val % 4 = 3) (hz : t.val = 0) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [Dat.leavesExact_idle (dats m 0 c) 4 t (idle4 t (fun h => h1 ((condLast_iff t).mp h))) (noFlush4 t (fun h => h1 ((condLast_iff t).mp h)))]
  rw [Dat.leavesExact_idle (dats m 0 c) 5 t (idle5 t (fun h => h1 ((condLast_iff t).mp h))) (noFlush5 t (fun h => h1 ((condLast_iff t).mp h)))]
  rw [stAt_A m c t h0 h1]
  unfold stA; (try dsimp only)
  rw [PhiS_castSucc m c t, PhiS_zero m c _ _ hz, scopedRest_accs]
  iintro ⟨⟨HS0, HS1, HS2, HS3, HS4, HS5⟩, Ho, ⟨%d0, H0⟩, ⟨%d1, H1⟩, ⟨%d2, H2⟩, ⟨%d3, H3⟩, ⟨%d4, H4⟩, ⟨%d5, H5⟩⟩
  iapply ((bodyRunA c (grid0.coords t) _ _ _ _ _ _ _ _ _ _ _ _ _ _ _ _ _ _ _ _ _ _ _ _ ((condFirst_iff t).mpr h0) (fun h => h1 ((condLast_iff t).mp h)) (iblk m c 0 t) (iblk m c 1 t) (iblk m c 2 t) (iblk m c 3 t)).2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, ⟨%es0, HS0⟩, ⟨%es1, HS1⟩, ⟨%es2, HS2⟩, ⟨%es3, HS3⟩, ⟨%es4, HS4⟩, ⟨%es5, HS5⟩⟩
  isplitl [HS0 HS1 HS2 HS3 HS4 HS5]
  · isplitl [HS0]
    · unfold owns; iexists _; isplitr
      swap; · iexact HS0
      ipureintro; exact View.read_writes_of_cover _ _ _ _ _ (coverA_s0 c _ _ _ _ _ _ _ _ _ _ _ _ _ _ _ _ _ _ _ _ _ _ _ _ _ _ _ _ _ _ _)
    isplitl [HS1]
    · unfold owns; iexists _; isplitr
      swap; · iexact HS1
      ipureintro; exact View.read_writes_of_cover _ _ _ _ _ (coverA_s1 c _ _ _ _ _ _ _ _ _ _ _ _ _ _ _ _ _ _ _ _ _ _ _ _ _ _ _ _ _ _ _)
    isplitl [HS2]
    · unfold owns; iexists _; isplitr
      swap; · iexact HS2
      ipureintro; exact View.read_writes_of_cover _ _ _ _ _ (coverA_s2 c _ _ _ _ _ _ _ _ _ _ _ _ _ _ _ _ _ _ _ _ _ _ _ _ _ _ _ _ _ _ _)
    isplitl [HS3]
    · unfold owns; iexists _; isplitr
      swap; · iexact HS3
      ipureintro; exact View.read_writes_of_cover _ _ _ _ _ (coverA_s3 c _ _ _ _ _ _ _ _ _ _ _ _ _ _ _ _ _ _ _ _ _ _ _ _ _ _ _ _ _ _ _)
    isplitl [HS4]
    · unfold owns; iexists _; isplitr
      swap; · iexact HS4
      ipureintro; exact View.read_writes_of_cover _ _ _ _ _ (coverA_s4 c _ _ _ _ _ _ _ _ _ _ _ _ _ _ _ _ _ _ _ _ _ _ _ _ _ _ _ _ _ _ _)
    unfold owns; iexists _; isplitr
    swap; · iexact HS5
    ipureintro; exact View.read_writes_of_cover _ _ _ _ _ (coverA_s5 c _ _ _ _ _ _ _ _ _ _ _ _ _ _ _ _ _ _ _ _ _ _ _ _ _ _ _ _ _ _ _)
  isplitl [Ho]; · iexact Ho
  isplitl [H0]; · iexact H0
  isplitl [H1]; · iexact H1
  isplitl [H2]; · iexact H2
  isplitl [H3]; · iexact H3
  isplitl [H4]; · iexists _; iexact H4
  iexists _; iexact H5

end Cert.KernelIdeal.Hand

end
-- ==== Proof.KernelIdeal.BodyA1.lean ====
/-
  The body obligation at a later first column chunk.
-/
import proofs.«140321_j78700980732218_2_alg».proof.Proof.KernelIdeal.Body0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at a later first column chunk: the accumulators found at what the point before left, cleared and added to. -/
theorem sound_body_first (c : Dev nD) (t : Fin cfg0.N) (h0 : t.val % 4 = 0) (h1 : ¬t.val % 4 = 3) (hz : ¬t.val = 0) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [Dat.leavesExact_idle (dats m 0 c) 4 t (idle4 t (fun h => h1 ((condLast_iff t).mp h))) (noFlush4 t (fun h => h1 ((condLast_iff t).mp h)))]
  rw [Dat.leavesExact_idle (dats m 0 c) 5 t (idle5 t (fun h => h1 ((condLast_iff t).mp h))) (noFlush5 t (fun h => h1 ((condLast_iff t).mp h)))]
  rw [stAt_A m c t h0 h1]
  unfold stA; (try dsimp only)
  rw [PhiS_castSucc m c t, PhiS_pos m c _ _ hz]
  iintro ⟨⟨HS0, HS1, HS2, HS3, HS4, HS5⟩, Ho, ⟨%d0, H0⟩, ⟨%d1, H1⟩, ⟨%d2, H2⟩, ⟨%d3, H3⟩, ⟨%d4, H4⟩, ⟨%d5, H5⟩⟩
  iapply ((bodyRunA c (grid0.coords t) _ _ _ _ _ _ _ _ _ _ _ _ _ _ _ _ _ _ _ _ _ _ _ _ ((condFirst_iff t).mpr h0) (fun h => h1 ((condLast_iff t).mp h)) (iblk m c 0 t) (iblk m c 1 t) (iblk m c 2 t) (iblk m c 3 t)).2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexists _; iexact HS0
  isplitl [HS1]; · iexists _; iexact HS1
  isplitl [HS2]; · iexists _; iexact HS2
  isplitl [HS3]; · iexists _; iexact HS3
  isplitl [HS4]; · iexists _; iexact HS4
  isplitl [HS5]; · iexists _; iexact HS5
  iintro ⟨H0, H1, H2, H3, H4, H5, ⟨%es0, HS0⟩, ⟨%es1, HS1⟩, ⟨%es2, HS2⟩, ⟨%es3, HS3⟩, ⟨%es4, HS4⟩, ⟨%es5, HS5⟩⟩
  isplitl [HS0 HS1 HS2 HS3 HS4 HS5]
  · isplitl [HS0]
    · unfold owns; iexists _; isplitr
      swap; · iexact HS0
      ipureintro; exact View.read_writes_of_cover _ _ _ _ _ (coverA_s0 c _ _ _ _ _ _ _ _ _ _ _ _ _ _ _ _ _ _ _ _ _ _ _ _ _ _ _ _ _ _ _)
    isplitl [HS1]
    · unfold owns; iexists _; isplitr
      swap; · iexact HS1
      ipureintro; exact View.read_writes_of_cover _ _ _ _ _ (coverA_s1 c _ _ _ _ _ _ _ _ _ _ _ _ _ _ _ _ _ _ _ _ _ _ _ _ _ _ _ _ _ _ _)
    isplitl [HS2]
    · unfold owns; iexists _; isplitr
      swap; · iexact HS2
      ipureintro; exact View.read_writes_of_cover _ _ _ _ _ (coverA_s2 c _ _ _ _ _ _ _ _ _ _ _ _ _ _ _ _ _ _ _ _ _ _ _ _ _ _ _ _ _ _ _)
    isplitl [HS3]
    · unfold owns; iexists _; isplitr
      swap; · iexact HS3
      ipureintro; exact View.read_writes_of_cover _ _ _ _ _ (coverA_s3 c _ _ _ _ _ _ _ _ _ _ _ _ _ _ _ _ _ _ _ _ _ _ _ _ _ _ _ _ _ _ _)
    isplitl [HS4]
    · unfold owns; iexists _; isplitr
      swap; · iexact HS4
      ipureintro; exact View.read_writes_of_cover _ _ _ _ _ (coverA_s4 c _ _ _ _ _ _ _ _ _ _ _ _ _ _ _ _ _ _ _ _ _ _ _ _ _ _ _ _ _ _ _)
    unfold owns; iexists _; isplitr
    swap; · iexact HS5
    ipureintro; exact View.read_writes_of_cover _ _ _ _ _ (coverA_s5 c _ _ _ _ _ _ _ _ _ _ _ _ _ _ _ _ _ _ _ _ _ _ _ _ _ _ _ _ _ _ _)
  isplitl [Ho]; · iexact Ho
  isplitl [H0]; · iexact H0
  isplitl [H1]; · iexact H1
  isplitl [H2]; · iexact H2
  isplitl [H3]; · iexact H3
  isplitl [H4]; · iexists _; iexact H4
  iexists _; iexact H5

end Cert.KernelIdeal.Hand

end
-- ==== Proof.KernelIdeal.BodyB.lean ====
/-
  The body obligation at a middle column chunk.
-/
import proofs.«140321_j78700980732218_2_alg».proof.Proof.KernelIdeal.Body0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at a middle column chunk: the accumulators added to, the result blocks handed back untouched. -/
theorem sound_body_middle (c : Dev nD) (t : Fin cfg0.N) (h0 : ¬t.val % 4 = 0) (h1 : ¬t.val % 4 = 3) (hz : ¬t.val = 0) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [Dat.leavesExact_idle (dats m 0 c) 4 t (idle4 t (fun h => h1 ((condLast_iff t).mp h))) (noFlush4 t (fun h => h1 ((condLast_iff t).mp h)))]
  rw [Dat.leavesExact_idle (dats m 0 c) 5 t (idle5 t (fun h => h1 ((condLast_iff t).mp h))) (noFlush5 t (fun h => h1 ((condLast_iff t).mp h)))]
  rw [stAt_B m c t h0 h1]
  unfold stB; (try dsimp only)
  rw [PhiS_castSucc m c t, PhiS_pos m c _ _ hz]
  iintro ⟨⟨HS0, HS1, HS2, HS3, HS4, HS5⟩, Ho, ⟨%d0, H0⟩, ⟨%d1, H1⟩, ⟨%d2, H2⟩, ⟨%d3, H3⟩, ⟨%d4, H4⟩, ⟨%d5, H5⟩⟩
  iapply ((bodyRunB c (grid0.coords t) _ _ _ _ _ _ _ _ _ _ _ _ _ _ _ _ _ _ _ _ _ _ _ _ (fun h => h0 ((condFirst_iff t).mp h)) (fun h => h1 ((condLast_iff t).mp h)) (iblk m c 0 t) (iblk m c 1 t) (iblk m c 2 t) (iblk m c 3 t) _ _ _ _ _ _).2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, ⟨%es0, HS0⟩, ⟨%es1, HS1⟩, ⟨%es2, HS2⟩, ⟨%es3, HS3⟩, ⟨%es4, HS4⟩, ⟨%es5, HS5⟩⟩
  isplitl [HS0 HS1 HS2 HS3 HS4 HS5]
  · isplitl [HS0]
    · unfold owns; iexists _; isplitr
      swap; · iexact HS0
      ipureintro; exact View.read_writes_of_cover _ _ _ _ _ (coverB_s0 c _ _ _ _ _ _ _ _ _ _ _ _ _ _ _ _ _ _ _ _ _ _ _ _ _ _ _ _ _ _ _ _ _ _ _ _ _)
    isplitl [HS1]
    · unfold owns; iexists _; isplitr
      swap; · iexact HS1
      ipureintro; exact View.read_writes_of_cover _ _ _ _ _ (coverB_s1 c _ _ _ _ _ _ _ _ _ _ _ _ _ _ _ _ _ _ _ _ _ _ _ _ _ _ _ _ _ _ _ _ _ _ _ _ _)
    isplitl [HS2]
    · unfold owns; iexists _; isplitr
      swap; · iexact HS2
      ipureintro; exact View.read_writes_of_cover _ _ _ _ _ (coverB_s2 c _ _ _ _ _ _ _ _ _ _ _ _ _ _ _ _ _ _ _ _ _ _ _ _ _ _ _ _ _ _ _ _ _ _ _ _ _)
    isplitl [HS3]
    · unfold owns; iexists _; isplitr
      swap; · iexact HS3
      ipureintro; exact View.read_writes_of_cover _ _ _ _ _ (coverB_s3 c _ _ _ _ _ _ _ _ _ _ _ _ _ _ _ _ _ _ _ _ _ _ _ _ _ _ _ _ _ _ _ _ _ _ _ _ _)
    isplitl [HS4]
    · unfold owns; iexists _; isplitr
      swap; · iexact HS4
      ipureintro; exact View.read_writes_of_cover _ _ _ _ _ (coverB_s4 c _ _ _ _ _ _ _ _ _ _ _ _ _ _ _ _ _ _ _ _ _ _ _ _ _ _ _ _ _ _ _ _ _ _ _ _ _)
    unfold owns; iexists _; isplitr
    swap; · iexact HS5
    ipureintro; exact View.read_writes_of_cover _ _ _ _ _ (coverB_s5 c _ _ _ _ _ _ _ _ _ _ _ _ _ _ _ _ _ _ _ _ _ _ _ _ _ _ _ _ _ _ _ _ _ _ _ _ _)
  isplitl [Ho]; · iexact Ho
  isplitl [H0]; · iexact H0
  isplitl [H1]; · iexact H1
  isplitl [H2]; · iexact H2
  isplitl [H3]; · iexact H3
  isplitl [H4]; · iexists _; iexact H4
  iexists _; iexact H5

end Cert.KernelIdeal.Hand

end
-- ==== Proof.KernelIdeal.BodyC.lean ====
/-
  The body obligation at a last column chunk.
-/
import proofs.«140321_j78700980732218_2_alg».proof.Proof.KernelIdeal.Body0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at a last column chunk: the accumulators added to one last time and the two result blocks written. -/
theorem sound_body_last (c : Dev nD) (t : Fin cfg0.N) (h0 : ¬t.val % 4 = 0) (h1 : t.val % 4 = 3) (hz : ¬t.val = 0) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t ((condLast_iff t).mpr h1)], after4]
  rw [show (dats m 0 c).leavesExact 5 t = owns (c : Thread nD τ) (ms5 t) fullShare ((dats m 0 c).after 5 t) from by
    unfold Dat.leavesExact; rw [live5 t ((condLast_iff t).mpr h1)], after5]
  rw [stAt_C m c t h0 h1]
  unfold stC; (try dsimp only)
  rw [PhiS_castSucc m c t, PhiS_pos m c _ _ hz]
  iintro ⟨⟨HS0, HS1, HS2, HS3, HS4, HS5⟩, Ho, ⟨%d0, H0⟩, ⟨%d1, H1⟩, ⟨%d2, H2⟩, ⟨%d3, H3⟩, ⟨%d4, H4⟩, ⟨%d5, H5⟩⟩
  iapply ((bodyRunC c (grid0.coords t) _ _ _ _ _ _ _ _ _ _ _ _ _ _ _ _ _ _ _ _ _ _ _ _ (fun h => h0 ((condFirst_iff t).mp h)) ((condLast_iff t).mpr h1) (iblk m c 0 t) (iblk m c 1 t) (iblk m c 2 t) (iblk m c 3 t) _ _ _ _ _ _).2.2.2.2.2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, ⟨%e4, H4⟩, ⟨%e5, H5⟩, ⟨%es0, HS0⟩, ⟨%es1, HS1⟩, ⟨%es2, HS2⟩, ⟨%es3, HS3⟩, ⟨%es4, HS4⟩, ⟨%es5, HS5⟩⟩
  isplitl [HS0 HS1 HS2 HS3 HS4 HS5]
  · isplitl [HS0]
    · unfold owns; iexists _; isplitr
      swap; · iexact HS0
      ipureintro; exact View.read_writes_of_cover _ _ _ _ _ (coverC_s0 c _ _ _ _ _ _ _ _ _ _ _ _ _ _ _ _ _ _ _ _ _ _ _ _ _ _ _ _ _ _ _ _ _ _ _ _ _)
    isplitl [HS1]
    · unfold owns; iexists _; isplitr
      swap; · iexact HS1
      ipureintro; exact View.read_writes_of_cover _ _ _ _ _ (coverC_s1 c _ _ _ _ _ _ _ _ _ _ _ _ _ _ _ _ _ _ _ _ _ _ _ _ _ _ _ _ _ _ _ _ _ _ _ _ _)
    isplitl [HS2]
    · unfold owns; iexists _; isplitr
      swap; · iexact HS2
      ipureintro; exact View.read_writes_of_cover _ _ _ _ _ (coverC_s2 c _ _ _ _ _ _ _ _ _ _ _ _ _ _ _ _ _ _ _ _ _ _ _ _ _ _ _ _ _ _ _ _ _ _ _ _ _)
    isplitl [HS3]
    · unfold owns; iexists _; isplitr
      swap; · iexact HS3
      ipureintro; exact View.read_writes_of_cover _ _ _ _ _ (coverC_s3 c _ _ _ _ _ _ _ _ _ _ _ _ _ _ _ _ _ _ _ _ _ _ _ _ _ _ _ _ _ _ _ _ _ _ _ _ _)
    isplitl [HS4]
    · unfold owns; iexists _; isplitr
      swap; · iexact HS4
      ipureintro; exact View.read_writes_of_cover _ _ _ _ _ (coverC_s4 c _ _ _ _ _ _ _ _ _ _ _ _ _ _ _ _ _ _ _ _ _ _ _ _ _ _ _ _ _ _ _ _ _ _ _ _ _)
    unfold owns; iexists _; isplitr
    swap; · iexact HS5
    ipureintro; exact View.read_writes_of_cover _ _ _ _ _ (coverC_s5 c _ _ _ _ _ _ _ _ _ _ _ _ _ _ _ _ _ _ _ _ _ _ _ _ _ _ _ _ _ _ _ _ _ _ _ _ _)
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (coverC_o4 c _ _ _ _ _ _ _ _ _ _ _ _ _ _ _ _ _ _ _ _ _ _ _ _ _ _ _ _ _ _ _ _ _ _ _ _ _)
  unfold owns; iexists _; isplitr
  swap; · iexact H5
  ipureintro; exact View.read_writes_of_cover _ _ _ _ _ (coverC_o5 c _ _ _ _ _ _ _ _ _ _ _ _ _ _ _ _ _ _ _ _ _ _ _ _ _ _ _ _ _ _ _ _ _ _ _ _ _)

end Cert.KernelIdeal.Hand

end
-- ==== Proof.KernelIdeal.Body.lean ====
/-
  The body obligation at every grid point, by cases on the two branch conditions.
-/
import proofs.«140321_j78700980732218_2_alg».proof.Proof.KernelIdeal.BodyA0
import proofs.«140321_j78700980732218_2_alg».proof.Proof.KernelIdeal.BodyA1
import proofs.«140321_j78700980732218_2_alg».proof.Proof.KernelIdeal.BodyB
import proofs.«140321_j78700980732218_2_alg».proof.Proof.KernelIdeal.BodyC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point: the closed forms say which of the cases the point is in. -/
theorem sound_body (c : Dev nD) (t : Fin cfg0.N) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  by_cases h0 : t.val % 4 = 0
  · have h1 : ¬t.val % 4 = 3 := by omega
    by_cases hz : t.val = 0
    · exact sound_body_first0 m c t h0 h1 hz
    · exact sound_body_first m c t h0 h1 hz
  · have hz : ¬t.val = 0 := by omega
    by_cases h1 : t.val % 4 = 3
    · exact sound_body_last m c t h0 h1 hz
    · exact sound_body_middle m c t h0 h1 hz

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.scopedRest (Ix := Unit) (Name := ℕ) (U := UR sig nD τ) (Lvl := ℕ) (Val := Elt F) spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the accumulators back, their contents forgotten. -/
theorem hout (c : Dev nD) : (dats m 0 c).Φ (Fin.last cfg0.N) ⊢ Pipeline.scopedRest (Ix := Unit) (Name := ℕ) (U := UR sig nD τ) (Lvl := ℕ) (Val := Elt F) spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 8 := N_0; omega), scopedRest_accs]
  iintro ⟨HS0, HS1, HS2, HS3, HS4, HS5⟩
  isplitl [HS0]; · iexists _; iexact HS0
  isplitl [HS1]; · iexists _; iexact HS1
  isplitl [HS2]; · iexists _; iexact HS2
  isplitl [HS3]; · iexists _; iexact HS3
  isplitl [HS4]; · iexists _; iexact HS4
  iexists _; iexact HS5

end Cert.KernelIdeal.Hand

end
-- ==== Proof.KernelIdeal.Run.lean ====
/-
  The run of @main: the kernel region, entered from the launch contents and left with the two result
  arrays written, then the thirteen host operations on what the region left; every weakly fair
  execution terminates without a fault, the arguments end unchanged, and every unscoped buffer —
  the result among them — ends at the operations' value of the region's two result arrays.
-/
import proofs.«140321_j78700980732218_2_alg».proof.Proof.KernelIdeal.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as two segments: the region, then the thirteen host operations -/

/-- The host operations after the region allocate nothing. -/
theorem hostOps1_fresh : ∀ op ∈ (hostOps1 : List (HloOp τ sig (Elt F))), op.fresh = ∅ := by
  intro _ h; (repeat (cases h with | head => rfl | tail _ h => ?_)); exact nomatch h

/-- THE HOST SEGMENT: the thirteen operations over the unscoped buffers, from the contents the region leaves. -/
def seg1 : Pipeline.HostSeg (Name := ℕ) (U := UR sig nD τ) (pcfgs (F := F)) defs₀ Variants.none L lv :=
  Pipeline.HostSeg.ofOps _ _ _ _ _ (Pipeline.ucRefs τ sig) hostOps1
    (fun op h => Pipeline.sub_ucRefs op ((List.forall_iff_forall_mem.mp hostOps1_sub) op h)) hostOps1_fresh (Wn m (dats m)) R

/-- What is left at the end: every unscoped buffer at the contents after the host operations. -/
abbrev Tn (c : Dev nD) : sProp 𝕄 :=
  StableHlo.held (c : Thread nD τ) (Pipeline.ucRefs τ sig) (StableHlo.after hostOps1 (Wn m (dats m) c))

set_option backward.isDefEq.respectTransparency.types false in
/-- THE REGION: entered from the launch contents — each argument's points-to dealt in halves to the two windows
    that read it, the accumulators into the invariant, the other buffers bypassing —, left with the halves joined
    again and the two result arrays as the pipeline wrote them. -/
def reg0 : Pipeline.RegionSeg (pcfgs (F := F)) adm (dats m) () defs₀ Variants.none L lv 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (Wn m (dats m) c) ∗ R c)
  X c := iprop(emp)
  Y c := iprop(emp)
  Z c := Pipeline.unscopedRest spec0 c (V m c)
  hentry c := by
    rw [show StableHlo.held (c : Thread nD τ) (Pipeline.ucRefs τ sig) (W0 m c) = unscopedBufs c (V m c) from (Pipeline.unscopedBufs_held c _).symm]
    have hsplit := entry_arrays m (dats m) (A_eq m) (fun _ => rfl) (fun _ => rfl) (fun _ => rfl) (fun _ => rfl) c
    iintro ⟨⟨Hub, HO⟩, -, -⟩
    ihave H := hsplit $$ Hub
    icases H with ⟨Ha, HZ⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact HZ
  hin c := by
    iintro ⟨-, -, Hr⟩
    iapply (hin m c); iexact Hr
  hout c := by
    rw [Pipeline.ownSems0_none nD τ sig (Elt F) Unit ℕ (UR sig nD τ) ℕ c]
    refine (hout m c).trans ?_
    iintro Hr
    isplitr; · iempintro
    isplitr; · iempintro
    iexact Hr
  hexit c := by
    have hx := exit_held m (dats m) (A_eq m) (fun _ => rfl) (fun _ => rfl) (fun _ => rfl) (fun _ => rfl) c
    iintro ⟨Ha, HO, -, HZ⟩
    imodintro
    isplitr [HO]
    · iapply hx; isplitl [Ha]; · iexact Ha
      iexact HZ
    · unfold Pipeline.Dat.owesAt Pipeline.owesWithin
      icases HO with ⟨%W, -, HO⟩; iexists W; iexact HO

/-- @main as the list of the two. -/
abbrev segs : List (Pipeline.Seg (pcfgs (F := F)) adm (dats m) () defs₀ Variants.none L lv) := [.region (reg0 m), .host (seg1 m)]

/-- The launch element: the pipeline library's at the staging cells. -/
def u₀ : UR sig nD τ := initOf (Pipeline.cells cfgs cellOf_inj) (Pipeline.launchToks cfgs cellOf_inj)

/-- The final state: every unscoped buffer of every core at the contents after the host operations. -/
def QC : PUnit × MemSt nD τ sig (Elt F) → Prop := fun r =>
  ∀ c : Dev nD, ∀ b ∈ Pipeline.ucRefs τ sig, r.2.mem (c, b) = StableHlo.after hostOps1 (Wn m (dats m) c) b

set_option backward.isDefEq.respectTransparency.types false in
/-- At the compiled mesh, at any float instance, from any memory with zero counters: every weakly fair execution
    of @main terminates, nothing faulting, and every unscoped buffer ends at the contents the thirteen host
    operations compute from the launch contents with the two result arrays as the pipeline wrote them. -/
theorem run_main : θ_run defs (onTc (τ := τ) (main (F := F))) (s₀ m ρ) (QC m) :=
  Pipeline.θ_run_regions_kit (pcfgs (F := F)) adm (dats m) () cellOf_inj EP defs₀ Variants.none L lv m ρ main (segs m)
    (fun c Q => by rw [main_segs adm (dats m) () Variants.none L lv (seg1 m) (reg0 m) rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tn m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c) from Pipeline.unscopedBufs_held c (W0 m c)]
      iintro ⟨⟨Hh, -, HO, -, -, -⟩, -⟩
      imodintro
      isplitl [Hh]; · iexact Hh
      iexists ∅; iexact HO)
    (QY := fun c s => ∀ b ∈ Pipeline.ucRefs τ sig, s.mem (c, b) = StableHlo.after hostOps1 (Wn m (dats m) c) b)
    (hfin := fun c s' => by
      dsimp only [Tn]; unfold StableHlo.held
      iintro ⟨Hh, HSI⟩
      ihave Hr := (pointsTo_read_all (Pipeline.ucRefs τ sig) (fun b => ((c : Thread nD τ).1, b)) (fun b => StableHlo.after hostOps1 (Wn m (dats m) c) b) s') $$ [Hh HSI]
      · isplitl [Hh] <;> iassumption
      icases Hr with ⟨%ha, HSI⟩
      imodintro
      isplitr; · ipureintro; exact ha
      iexact HSI)
    (hQ := fun _ h => h)

/-! ## What the run says of the arguments and of the result -/

/-- No host operation after the region writes an argument, and the region leaves the arguments as launched. -/
theorem kept (b : Ref sig .tc) (hb : b ≠ main_v1 ∧ b ≠ main_cst ∧ b ≠ main_v2 ∧ b ≠ main_v3 ∧ b ≠ main_v4 ∧ b ≠ main_v5 ∧ b ≠ main_cst_0 ∧ b ≠ main_v6 ∧ b ≠ main_v7 ∧ b ≠ main_c ∧ b ≠ main_v8 ∧ b ≠ main_v9 ∧ b ≠ main_v10)
    (h0 : b ≠ main_v0_0) (h1 : b ≠ main_v0_1) (c : Dev nD) :
    StableHlo.after hostOps1 (Wn m (dats m) c) (Proc.devRef .tc b) = m ((c : Thread nD τ).loc b) := by
  obtain ⟨g1, g2, g3, g4, g5, g6, g7, g8, g9, g10, g11, g12, g13⟩ := hb
  rw [StableHlo.after_of_forall_not_mem (b := Proc.devRef .tc b) hostOps1 _ (by
    intro op hop
    simp only [List.mem_cons, List.mem_nil_iff, or_false] at hop
    rcases hop with rfl | rfl | rfl | rfl | rfl | rfl | rfl | rfl | rfl | rfl | rfl | rfl | rfl <;>
      simp only [StableHlo.unary_writes, StableHlo.binary_writes, StableHlo.nullary_writes, StableHlo.reshape_writes, Finset.mem_singleton] <;>
      exact StableHlo.devRef_ne_of_ne ‹_›), Wn_of_ne m (dats m) c b h0 h1]

/-- THE FRAME: @main runs, nothing faulting, and both argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (Finset.mem_filter.mpr ⟨StableHlo.devRef_mem_tcRefs main_arg0, by decide⟩)).trans (kept m main_arg0 (by decide) (by decide) (by decide) c),
     (h c _ (Finset.mem_filter.mpr ⟨StableHlo.devRef_mem_tcRefs main_arg1, by decide⟩)).trans (kept m main_arg1 (by decide) (by decide) (by decide) c)⟩)
    (run_main m ρ)

end Cert.KernelIdeal.Hand

end
-- ==== Proof.KernelIdeal.Value.lean ====
/-
  The kernel program's result is the specification.

  At the last column chunk of half h the body computes its two result blocks from the six accumulators, which
  by then hold the specification's counts, summed distances and summed confidences: the row block says, for
  each lane of the half, whether some flagged pair suppresses it as the weaker first lane; the column block
  says, for each of the 128 lanes, whether some lane of the half suppresses it as the not-stronger second lane.
  The pipeline writes the two row blocks side by side into one array and the two column blocks into the two
  slabs of another; the host operations after the region threshold both at one half, join the two slabs by a
  disjunction and the row and column verdicts by another: 1 at a suppressed lane, 0 elsewhere.
-/
import proofs.«140321_j78700980732218_2_alg».proof.Proof.KernelIdeal.Accs
import proofs.«140321_j78700980732218_2_alg».proof.Proof.KernelIdeal.Outs
import proofs.«140321_j78700980732218_2_alg».proof.Proof.KernelIdeal.Final
import proofs.«140321_j78700980732218_2_alg».proof.Proof.KernelIdeal.Run

set_option maxRecDepth 16384

noncomputable section

namespace Cert.KernelIdeal.Hand

open Cert.KernelIdeal Cert.KernelIdeal.Gen Cert.KernelIdeal.Pay
open Idealize.ShloMosaic Idealize.ShloMosaic.TcCoe Idealize.ShloMosaic.ValueIdx
open Idealize.SL Idealize.SL.Sem
open scoped BigOperators
open Classical

variable (m : (ℓ : Loc nD τ sig) → Buf (Elt Ideal) ℓ) (c : Dev nD)

/-! ## The two result blocks at a last chunk -/

theorem pt3_not_first (h : Fin 2) : ¬ (pt h 3).val % 4 = 0 := by rw [pt_mod]; decide
theorem pt3_last (h : Fin 2) : (pt h 3).val % 4 = 3 := by rw [pt_mod]; rfl

/-- The half's number, as the 32-bit word the body computes its row numbers from. -/
theorem word_pt3 (h : Fin 2) : BitVec.ofNat 32 ((grid0.coords (pt h 3)) 0).val = BitVec.ofNat 32 h.val := by
  rw [(coords_val (pt h 3)).1]; congr 1; simp only [pt]; omega

/-- The row block at the last chunk of half `h`, from the accumulators as that chunk leaves them. -/
theorem o4_last (h : Fin 2) :
    (stAt m c (pt h 3).val (pt h 3).isLt).o4
      = k0_pay6 (BitVec.ofNat 32 h.val) (stAt m c (pt h 3).val (pt h 3).isLt).s1 (stAt m c (pt h 3).val (pt h 3).isLt).s0
          (stAt m c (pt h 3).val (pt h 3).isLt).s2 (stAt m c (pt h 3).val (pt h 3).isLt).s3
          (stAt m c (pt h 3).val (pt h 3).isLt).s4 (stAt m c (pt h 3).val (pt h 3).isLt).s5 := by
  rw [stAt_C m c (pt h 3) (pt3_not_first h) (pt3_last h)]
  rw [stC_o4, stC_s0, stC_s1, stC_s2, stC_s3, stC_s4, stC_s5, word_pt3]

/-- The column block at the last chunk of half `h`, likewise. -/
theorem o5_last (h : Fin 2) :
    (stAt m c (pt h 3).val (pt h 3).isLt).o5
      = k0_pay3 (k0_pay7 (BitVec.ofNat 32 h.val) (stAt m c (pt h 3).val (pt h 3).isLt).s1 (stAt m c (pt h 3).val (pt h 3).isLt).s0
          (stAt m c (pt h 3).val (pt h 3).isLt).s2 (stAt m c (pt h 3).val (pt h 3).isLt).s3
          (stAt m c (pt h 3).val (pt h 3).isLt).s4 (stAt m c (pt h 3).val (pt h 3).isLt).s5) := by
  rw [stAt_C m c (pt h 3) (pt3_not_first h) (pt3_last h)]
  rw [stC_o5, stC_s0, stC_s1, stC_s2, stC_s3, stC_s4, stC_s5, word_pt3]

/-- Row `r` of the row block of half `h`: is lane `row h r` suppressed as the weaker first lane of a flagged pair. -/
theorem o4_spec (h : Fin 2) (r : Fin 64) :
    (stAt m c (pt h 3).val (pt h 3).isLt).o4 (ix2 r (0 : Fin 1))
      = if ∃ j : Fin 128, Cert.Spec.flag (reg m c) (clf m c) (row h r) j ∧ Cert.Spec.wins (clf m c) (row h r) j then (1 : EReal) else 0 := by
  rw [o4_last]
  exact Cert.KernelIdeal.Outs.out4 (reg m c) (clf m c) h _ _ _ _ _ _ (acc0 m c h) (acc1 m c h) (acc2 m c h) (acc3 m c h) (acc4 m c h) (acc5 m c h) r

/-- Entry (s, j) of the column block of half `h`: is lane `j` suppressed as the not-stronger second lane of a
    flagged pair whose first lane is in the half. -/
theorem o5_spec (h : Fin 2) (s : Fin 8) (j : Fin 128) :
    (stAt m c (pt h 3).val (pt h 3).isLt).o5 (ix3 (0 : Fin 1) s j)
      = if ∃ r : Fin 64, Cert.Spec.flag (reg m c) (clf m c) (row h r) j ∧ ¬ Cert.Spec.wins (clf m c) (row h r) j then (1 : EReal) else 0 := by
  rw [o5_last]
  exact Cert.KernelIdeal.Outs.out5 (reg m c) (clf m c) h _ _ _ _ _ _ (acc0 m c h) (acc1 m c h) (acc2 m c h) (acc3 m c h) (acc4 m c h) (acc5 m c h) s j

/-! ## The result -/

/-- THE KERNEL PROGRAM'S RESULT: what the thirteen host operations compute from the two result arrays the
    pipeline wrote is the specification of the two argument arrays. -/
theorem kernel_value :
    StableHlo.after (hostOps1 (F := Ideal)) (Wn m (dats m) c) (Proc.devRef .tc main_v10) = Cert.Spec.G (reg m c) (clf m c) := by
  rw [Cert.KernelIdeal.Tail.after_tail, Wn_row, Wn_col]
  refine Cert.KernelIdeal.Outs.assemble (reg m c) (clf m c) _ _ ?_ ?_
  · intro l
    rw [final4 m c l]
    have e := o4_spec m c (halfOf l) ⟨l.val % 64, Nat.mod_lt _ (by decide)⟩
    have hrow : row (halfOf l) ⟨l.val % 64, Nat.mod_lt _ (by decide)⟩ = l := by
      apply Fin.ext; simp only [row, halfOf_val]; omega
    rw [hrow] at e
    exact e
  · intro h l
    rw [final5 m c h 0 l]
    exact o5_spec m c h 0 l

/-- An unscoped TensorCore reference is among the buffers the run reads back. -/
theorem mem_ucRefs (b : Ref sig .tc) (hb : b.isScoped = false) : Proc.devRef .tc b ∈ Pipeline.ucRefs τ sig :=
  Finset.mem_filter.mpr ⟨StableHlo.devRef_mem_tcRefs b, by simpa using hb⟩

/-- THE VALUE RUN: every weakly fair execution of @main terminates, nothing faulting, with the result at the
    specification of the two argument arrays and the arguments unchanged. -/
theorem value_run (ρ : Dev nD → PrngReg) :
    θ_run defs (onTc (τ := τ) (main (F := Ideal))) ⟨m, fun _ => 0, ρ⟩ (fun r => ∀ c : Dev nD,
      r.2.mem ((c.tc : Thread nD τ).loc main_v10) = Cert.Spec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_ucRefs main_v10 rfl)).trans (kernel_value m c),
     (h c _ (mem_ucRefs main_arg0 rfl)).trans (kept m main_arg0 (by decide) (by decide) (by decide) c),
     (h c _ (mem_ucRefs main_arg1 rfl)).trans (kept m main_arg1 (by decide) (by decide) (by decide) c)⟩)
    (run_main m ρ)

end Cert.KernelIdeal.Hand

end
-- ==== Proof.RefSpec.lean ====
/-
  The reference program is the specification.

  The reference computes, over all eight batches, the confidence mask, for every pair of lanes the number of
  points confident in both and the summed distance over them, their quotient, each lane's mean confidence,
  the flags off the diagonal, the two suppression tables and their disjunctions along a row and along a
  column; its result is batch 7 of that, one number per lane. Read at an index of batch 7, each stage is the
  quantity of the same name in the specification:

  * a one-bit word widened to 32 bits and added up over 512 points cannot wrap, so the signed value of the
    32-bit sum is the number of ones, and as an extended real it is the sum of the 0/1 values;
  * the unsigned value of a conjunction of two one-bit words is the product of their 0/1 values;
  * a disjunction folded over an axis from 0 is 1 exactly when some element is 1;
  * the comparison of a row number with a column number, both below 128, negated, is "the lanes differ".
-/
import proofs.«140321_j78700980732218_2_alg».proof.Proof.Spec
import proofs.«140321_j78700980732218_2_alg».proof.Proof.Gen.ReferenceIdeal.Read
import Idealize.ShloMosaic.Lib.ValueIdx
import Idealize.ShloMosaic.PureOps.Ideal.Laws
import Idealize.ShloMosaic.PureOps.Reduce

noncomputable section
namespace Cert.RefSpec
open Idealize.ShloMosaic Idealize.ShloMosaic.ValueIdx Cert.ReferenceIdeal

/-! ## One-bit words -/

/-- The conjunction of two one-bit words, as a number, is the product. -/
theorem and_toNat (b c : BitVec 1) : (b &&& c).toNat = b.toNat * c.toNat := by
  revert b c; decide

/-- The disjunction of two one-bit words is 1 exactly when one of them is. -/
theorem or_eq_one (b c : BitVec 1) : b ||| c = 1#1 ↔ b = 1#1 ∨ c = 1#1 := by
  revert b c; decide

theorem and_eq_one (b c : BitVec 1) : b &&& c = 1#1 ↔ b = 1#1 ∧ c = 1#1 := by
  revert b c; decide

theorem not_eq_one (b : BitVec 1) : ~~~b = 1#1 ↔ ¬ b = 1#1 := by
  revert b; decide

/-- A one-bit word as an extended real: 1 when it is the word 1, else 0. -/
theorem bit_toEReal (b : BitVec 1) : (((b.toNat : ℝ)) : EReal) = if b = 1#1 then 1 else 0 := by
  rcases BitVec.eq_zero_or_eq_one b with h | h <;> subst h <;> simp

/-- The coercion of a finite real sum is the sum of the coercions. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Adding up 32-bit words that are each a widened one-bit word, over at most 512 places, does not wrap:
    the sum's value is the number of ones. -/
theorem fold_addi_bits (b : Fin 512 → BitVec 1) (s : Finset (Fin 512)) :
    (s.fold IntOp.addi 0#32 (fun k => (b k).setWidth 32)).toNat = ∑ k ∈ s, (b k).toNat := by
  induction s using Finset.induction_on with
  | empty => simp
  | insert a s ha ih =>
    rw [Finset.fold_insert ha, Finset.sum_insert ha]
    show (((b a).setWidth 32) + _).toNat = _
    rw [BitVec.toNat_add, ih, BitVec.toNat_setWidth]
    have h1 : (b a).toNat < 2 := (b a).isLt
    have h2 : ∑ k ∈ s, (b k).toNat ≤ s.card := by
      calc ∑ k ∈ s, (b k).toNat ≤ ∑ k ∈ s, 1 := Finset.sum_le_sum (fun k _ => by have := (b k).isLt; omega)
        _ = s.card := by simp
    have h3 : s.card ≤ 512 := by simpa using Finset.card_le_univ s
    omega

/-- So, read as a signed integer and then as an extended real, it is the sum of the bits as extended reals. -/
theorem sitofp_fold_addi_bits (b : Fin 512 → BitVec 1) :
    ((((Finset.univ : Finset (Fin 512)).fold IntOp.addi 0#32 (fun k => (b k).setWidth 32)).toInt : ℝ) : EReal)
      = ∑ k : Fin 512, (((b k).toNat : ℝ) : EReal) := by
  have hn := fold_addi_bits b Finset.univ
  have hle : ∑ k : Fin 512, (b k).toNat ≤ 512 := by
    calc ∑ k : Fin 512, (b k).toNat ≤ ∑ k : Fin 512, 1 := Finset.sum_le_sum (fun k _ => by have := (b k).isLt; omega)
      _ = 512 := by simp
  rw [BitVec.toInt_eq_toNat_of_lt (by rw [hn]; omega), hn, Int.cast_natCast, Nat.cast_sum, coe_sum]

/-- An or-fold of one-bit words from 0 is 1 exactly when some word is 1. -/
theorem fold_ori_eq_one {ι : Type} [DecidableEq ι] (f : ι → BitVec 1) (s : Finset ι) :
    s.fold IntOp.ori 0#1 f = 1#1 ↔ ∃ k ∈ s, f k = 1#1 := by
  induction s using Finset.induction_on with
  | empty => simp
  | insert a s ha ih =>
    rw [Finset.fold_insert ha]
    show (f a ||| _) = 1#1 ↔ _
    rw [or_eq_one, ih]
    simp

/-! ## The reference's stages at an index of batch 7 -/

/-- An argument array's contents at the ideal values. -/
abbrev Arr : Type := (⟨S8x128x512, .f32⟩ : BufTy).Contents (Elt Ideal)

/-- Stage 1 is the confidence mask. -/
theorem v1_at (x1 : Arr) (l : Fin 128) (p : Fin 512) :
    Read.val_main_v1 (F := Ideal) x1 (ix3 (7 : Fin 8) l p) = Spec.mk x1 l p := by
  rw [Read.val_main_v1_apply, Read.val_main_v0_apply, Read.val_main_cst_apply]; rfl

/-- Stage 6 is the mask of the points confident in both lanes. -/
theorem v6_at (x1 : Arr) (i j : Fin 128) (p : Fin 512) :
    Read.val_main_v6 (F := Ideal) x1 (ix4 (7 : Fin 8) i j p) = Spec.mk x1 i p &&& Spec.mk x1 j p := by
  have e1 : Read.idx_main_v2 (Read.idx_main_v4 (ix4 (7 : Fin 8) i j p)) = ix3 (7 : Fin 8) i p :=
    funext fun a => by match a with | ⟨0, _⟩ => rfl | ⟨1, _⟩ => rfl | ⟨2, _⟩ => rfl
  have e2 : Read.idx_main_v3 (Read.idx_main_v5 (ix4 (7 : Fin 8) i j p)) = ix3 (7 : Fin 8) j p :=
    funext fun a => by match a with | ⟨0, _⟩ => rfl | ⟨1, _⟩ => rfl | ⟨2, _⟩ => rfl
  rw [Read.val_main_v6_apply, Read.val_main_v4_apply, Read.val_main_v2_apply, Read.val_main_v5_apply,
    Read.val_main_v3_apply, e1, e2, v1_at, v1_at]
  rfl

/-- A conjunction of two one-bit words, converted unsigned, is the product of the two 0/1 values. -/
theorem uitofp_and (b c : BitVec 1) :
    FloatOps.uitofp (F := Ideal) .f32 (b &&& c) = ((b.toNat : ℝ) : EReal) * ((c.toNat : ℝ) : EReal) := by
  show (((b &&& c).toNat : ℝ) : EReal) = _
  rw [and_toNat, Nat.cast_mul, EReal.coe_mul]

/-- Stage 17: the distance at a point, kept where both lanes are confident. -/
theorem v17_at (x0 x1 : Arr) (i j : Fin 128) (p : Fin 512) :
    Read.val_main_v17 (F := Ideal) x0 x1 (ix4 (7 : Fin 8) i j p)
      = FloatOps.absf (F := Ideal) (φ := .f32) (x0 (Spec.at7 i p) - x0 (Spec.at7 j p)) * (Spec.mf x1 i p * Spec.mf x1 j p) := by
  have e1 : Read.idx_main_v7 (Read.idx_main_v9 (ix4 (7 : Fin 8) i j p)) = Spec.at7 i p :=
    funext fun a => by match a with | ⟨0, _⟩ => rfl | ⟨1, _⟩ => rfl | ⟨2, _⟩ => rfl
  have e2 : Read.idx_main_v8 (Read.idx_main_v10 (ix4 (7 : Fin 8) i j p)) = Spec.at7 j p :=
    funext fun a => by match a with | ⟨0, _⟩ => rfl | ⟨1, _⟩ => rfl | ⟨2, _⟩ => rfl
  rw [Read.val_main_v17_apply, Read.val_main_v12_apply, Read.val_main_v11_apply, Read.val_main_v9_apply,
    Read.val_main_v7_apply, Read.val_main_v10_apply, Read.val_main_v8_apply, Read.val_main_v16_apply, v6_at, e1, e2,
    uitofp_and]
  rfl

/-- Stage 18 is the summed distance. -/
theorem v18_at (x0 x1 : Arr) (i j : Fin 128) :
    Read.val_main_v18 (F := Ideal) x0 x1 (ix3 (7 : Fin 8) i j) = Spec.dsum x0 x1 i j := by
  rw [Read.val_main_v18_apply, Read.val_main_cst_0_apply]
  show Ideal.ofBits .f32 0x00000000#32 + _ = _
  rw [Ideal.ofBits_zero_f32, zero_add]
  refine Finset.sum_congr rfl fun p _ => ?_
  have e : Read.idx_main_v18 (ix3 (7 : Fin 8) i j) p = ix4 (7 : Fin 8) i j p :=
    funext fun a => by match a with | ⟨0, _⟩ => rfl | ⟨1, _⟩ => rfl | ⟨2, _⟩ => rfl | ⟨3, _⟩ => rfl
  rw [e, v17_at]

/-- Stage 14, the integer count of the common confident points, is a fold over the 512 points. -/
theorem v14_at (x1 : Arr) (i j : Fin 128) :
    Read.val_main_v14 (F := Ideal) x1 (ix3 (7 : Fin 8) i j)
      = (Finset.univ : Finset (Fin 512)).fold IntOp.addi 0#32 (fun p => (Spec.mk x1 i p &&& Spec.mk x1 j p).setWidth 32) := by
  have h : Shape.Reduces S8x128x128x512 [3] S8x128x128 := by decide
  unfold Read.val_main_v14
  refine (Host.reduce_eq_fold_single IntOp.addi _ _ Gen.reducesTo_S8x128x128x512_S8x128x128_d3 h Gen.h_S_ (ix3 (7 : Fin 8) i j)).trans ?_
  refine congrArg (fun f : Fin 512 → BitVec 32 => Finset.fold IntOp.addi 0#32 f (Finset.univ : Finset (Fin 512))) (funext fun p : Fin 512 => ?_)
  have e : h.lift (ix3 (7 : Fin 8) i j) p = ix4 (7 : Fin 8) i j p :=
    funext fun a => Fin.ext (by match a with | ⟨0, _⟩ => rfl | ⟨1, _⟩ => rfl | ⟨2, _⟩ => rfl | ⟨3, _⟩ => rfl)
  show Read.val_main_v13 (F := Ideal) x1 (h.lift (ix3 (7 : Fin 8) i j) p) = _
  rw [e, Read.val_main_v13_apply, v6_at]

/-- Stage 15 is the count as an extended real. -/
theorem v15_at (x1 : Arr) (i j : Fin 128) :
    Read.val_main_v15 (F := Ideal) x1 (ix3 (7 : Fin 8) i j) = Spec.cnt x1 i j := by
  rw [Read.val_main_v15_apply, v14_at]
  show ((BitVec.toInt _ : ℝ) : EReal) = _
  rw [sitofp_fold_addi_bits]
  refine Finset.sum_congr rfl fun p _ => ?_
  rw [and_toNat, Nat.cast_mul, EReal.coe_mul]
  rfl

/-- Stage 19 is the mean distance. -/
theorem v19_at (x0 x1 : Arr) (i j : Fin 128) :
    Read.val_main_v19 (F := Ideal) x0 x1 (ix3 (7 : Fin 8) i j) = Spec.dmean x0 x1 i j := by
  rw [Read.val_main_v19_apply, v18_at, v15_at]; rfl

/-- Stage 21, the integer count of a lane's confident points, is a fold over the 512 points. -/
theorem v21_at (x1 : Arr) (l : Fin 128) :
    Read.val_main_v21 (F := Ideal) x1 (ix2 (7 : Fin 8) l)
      = (Finset.univ : Finset (Fin 512)).fold IntOp.addi 0#32 (fun p => (Spec.mk x1 l p).setWidth 32) := by
  have h : Shape.Reduces S8x128x512 [2] S8x128 := by decide
  unfold Read.val_main_v21
  refine (Host.reduce_eq_fold_single IntOp.addi _ _ Gen.reducesTo_S8x128x512_S8x128_d2 h Gen.h_S_ (ix2 (7 : Fin 8) l)).trans ?_
  refine congrArg (fun f : Fin 512 → BitVec 32 => Finset.fold IntOp.addi 0#32 f (Finset.univ : Finset (Fin 512))) (funext fun p : Fin 512 => ?_)
  have e : h.lift (ix2 (7 : Fin 8) l) p = ix3 (7 : Fin 8) l p :=
    funext fun a => Fin.ext (by match a with | ⟨0, _⟩ => rfl | ⟨1, _⟩ => rfl | ⟨2, _⟩ => rfl)
  show Read.val_main_v20 (F := Ideal) x1 (h.lift (ix2 (7 : Fin 8) l) p) = _
  rw [e, Read.val_main_v20_apply, v1_at]

/-- Stage 22 is that count as an extended real. -/
theorem v22_at (x1 : Arr) (l : Fin 128) :
    Read.val_main_v22 (F := Ideal) x1 (ix2 (7 : Fin 8) l) = Spec.cden x1 l := by
  rw [Read.val_main_v22_apply, v21_at]
  show ((BitVec.toInt _ : ℝ) : EReal) = _
  rw [sitofp_fold_addi_bits]
  rfl

/-- Stage 25 is the summed confidence over a lane's confident points. -/
theorem v25_at (x1 : Arr) (l : Fin 128) :
    Read.val_main_v25 (F := Ideal) x1 (ix2 (7 : Fin 8) l) = Spec.cnum x1 l := by
  rw [Read.val_main_v25_apply, Read.val_main_cst_2_apply]
  show Ideal.ofBits .f32 0x00000000#32 + _ = _
  rw [Ideal.ofBits_zero_f32, zero_add]
  refine Finset.sum_congr rfl fun p _ => ?_
  have e : Read.idx_main_v25 (ix2 (7 : Fin 8) l) p = ix3 (7 : Fin 8) l p :=
    funext fun a => by match a with | ⟨0, _⟩ => rfl | ⟨1, _⟩ => rfl | ⟨2, _⟩ => rfl
  rw [e, Read.val_main_v24_apply, Read.val_main_v23_apply, v1_at]
  rfl

/-- Stage 26 is a lane's mean confidence. -/
theorem v26_at (x1 : Arr) (l : Fin 128) :
    Read.val_main_v26 (F := Ideal) x1 (ix2 (7 : Fin 8) l) = Spec.conf x1 l := by
  rw [Read.val_main_v26_apply, v25_at, v22_at]; rfl

/-- Stage 28 compares the mean distance with the suppression threshold. -/
theorem v28_at (x0 x1 : Arr) (i j : Fin 128) :
    Read.val_main_v28 (F := Ideal) x0 x1 (ix3 (7 : Fin 8) i j) = Ideal.cmp .olt (Spec.dmean x0 x1 i j) Spec.eps := by
  rw [Read.val_main_v28_apply, v19_at, Read.val_main_v27_apply, Read.val_main_cst_3_apply]; rfl

/-- The word comparing a row's number with a column's, both below 128, negated: 1 exactly off the diagonal. -/
theorem iota_ne (i j : Fin 128) :
    ~~~(IntOp.cmpi .eq (IntOp.addi (BitVec.ofNat 32 i.val) 0#32) (BitVec.ofNat 32 j.val)) = 1#1 ↔ i ≠ j := by
  rw [not_eq_one]
  show ¬ BitVec.ofBool (BitVec.ofNat 32 i.val + 0#32 == BitVec.ofNat 32 j.val) = 1#1 ↔ _
  rw [BitVec.add_zero]
  by_cases h : i = j
  · subst h; simp
  · have hne : BitVec.ofNat 32 i.val ≠ BitVec.ofNat 32 j.val := fun e => h (Fin.ext (by
      have := congrArg BitVec.toNat e
      simp only [BitVec.toNat_ofNat] at this
      have hi := i.isLt; have hj := j.isLt
      omega))
    have hb : (BitVec.ofNat 32 i.val == BitVec.ofNat 32 j.val) = false := beq_eq_false_iff_ne.2 hne
    rw [hb]
    exact iff_of_true (by decide) h

/-- Stage 36 is "not one lane twice". -/
theorem v36_iff (i j : Fin 128) :
    Read.val_main_v36 (F := Ideal) (ix3 (7 : Fin 8) i j) = 1#1 ↔ i ≠ j := by
  have e : Read.idx_main_v34 (Read.idx_main_v36 (ix3 (7 : Fin 8) i j)) = ix2 i j :=
    funext fun a => by match a with | ⟨0, _⟩ => rfl | ⟨1, _⟩ => rfl
  rw [Read.val_main_v36_apply, Read.val_main_v35_apply, Read.val_main_v34_apply, e, Read.val_main_v33_apply,
    Read.val_main_v32_apply, Read.val_main_v29_apply, Read.val_main_v31_apply, Read.val_main_c_4_apply,
    Read.val_main_v30_apply]
  exact iota_ne i j

/-- Stage 37 is the flag of a pair. -/
theorem v37_iff (x0 x1 : Arr) (i j : Fin 128) :
    Read.val_main_v37 (F := Ideal) x0 x1 (ix3 (7 : Fin 8) i j) = 1#1 ↔ Spec.flag x0 x1 i j := by
  rw [Read.val_main_v37_apply]
  show (_ &&& _) = 1#1 ↔ _
  rw [and_eq_one, v28_at, v36_iff]
  rfl

/-- Stage 42 compares the two lanes' mean confidences. -/
theorem v42_iff (x1 : Arr) (i j : Fin 128) :
    Read.val_main_v42 (F := Ideal) x1 (ix3 (7 : Fin 8) i j) = 1#1 ↔ Spec.wins x1 i j := by
  have e1 : Read.idx_main_v38 (Read.idx_main_v40 (ix3 (7 : Fin 8) i j)) = ix2 (7 : Fin 8) j :=
    funext fun a => by match a with | ⟨0, _⟩ => rfl | ⟨1, _⟩ => rfl
  have e2 : Read.idx_main_v39 (Read.idx_main_v41 (ix3 (7 : Fin 8) i j)) = ix2 (7 : Fin 8) i :=
    funext fun a => by match a with | ⟨0, _⟩ => rfl | ⟨1, _⟩ => rfl
  rw [Read.val_main_v42_apply, Read.val_main_v40_apply, Read.val_main_v38_apply, e1, Read.val_main_v41_apply,
    Read.val_main_v39_apply, e2, v26_at, v26_at]
  rfl

/-- Stage 43: the pair is flagged and the second lane wins. -/
theorem v43_iff (x0 x1 : Arr) (i j : Fin 128) :
    Read.val_main_v43 (F := Ideal) x0 x1 (ix3 (7 : Fin 8) i j) = 1#1 ↔ Spec.flag x0 x1 i j ∧ Spec.wins x1 i j := by
  rw [Read.val_main_v43_apply]
  show (_ &&& _) = 1#1 ↔ _
  rw [and_eq_one, v37_iff, v42_iff]

/-- Stage 45: the pair is flagged and the second lane does not win. -/
theorem v45_iff (x0 x1 : Arr) (i j : Fin 128) :
    Read.val_main_v45 (F := Ideal) x0 x1 (ix3 (7 : Fin 8) i j) = 1#1 ↔ Spec.flag x0 x1 i j ∧ ¬ Spec.wins x1 i j := by
  rw [Read.val_main_v45_apply]
  show (_ &&& _) = 1#1 ↔ _
  rw [and_eq_one, v37_iff, Read.val_main_v44_apply, not_eq_one, v42_iff]

/-- Stage 46: some second lane suppresses lane l as a first lane. -/
theorem v46_iff (x0 x1 : Arr) (l : Fin 128) :
    Read.val_main_v46 (F := Ideal) x0 x1 (ix2 (7 : Fin 8) l) = 1#1 ↔ ∃ j, Spec.flag x0 x1 l j ∧ Spec.wins x1 l j := by
  have h : Shape.Reduces S8x128x128 [2] S8x128 := by decide
  have hf : Read.val_main_v46 (F := Ideal) x0 x1 (ix2 (7 : Fin 8) l)
      = (Finset.univ : Finset (Fin 128)).fold IntOp.ori 0#1 (fun j => Read.val_main_v43 (F := Ideal) x0 x1 (ix3 (7 : Fin 8) l j)) := by
    unfold Read.val_main_v46
    refine (Host.reduce_eq_fold_single IntOp.ori _ _ Gen.reducesTo_S8x128x128_S8x128_d2 h Gen.h_S_ (ix2 (7 : Fin 8) l)).trans ?_
    refine congrArg (fun f : Fin 128 → BitVec 1 => Finset.fold IntOp.ori 0#1 f (Finset.univ : Finset (Fin 128))) (funext fun j : Fin 128 => ?_)
    have e : h.lift (ix2 (7 : Fin 8) l) j = ix3 (7 : Fin 8) l j :=
      funext fun a => Fin.ext (by match a with | ⟨0, _⟩ => rfl | ⟨1, _⟩ => rfl | ⟨2, _⟩ => rfl)
    show Read.val_main_v43 (F := Ideal) x0 x1 (h.lift (ix2 (7 : Fin 8) l) j) = _
    rw [e]
  rw [hf, fold_ori_eq_one]
  exact ⟨fun ⟨j, _, hj⟩ => ⟨j, (v43_iff x0 x1 l j).1 hj⟩, fun ⟨j, hj⟩ => ⟨j, Finset.mem_univ _, (v43_iff x0 x1 l j).2 hj⟩⟩

/-- Stage 47: some first lane suppresses lane l as a second lane. -/
theorem v47_iff (x0 x1 : Arr) (l : Fin 128) :
    Read.val_main_v47 (F := Ideal) x0 x1 (ix2 (7 : Fin 8) l) = 1#1 ↔ ∃ i, Spec.flag x0 x1 i l ∧ ¬ Spec.wins x1 i l := by
  have h : Shape.Reduces S8x128x128 [1] S8x128 := by decide
  have hf : Read.val_main_v47 (F := Ideal) x0 x1 (ix2 (7 : Fin 8) l)
      = (Finset.univ : Finset (Fin 128)).fold IntOp.ori 0#1 (fun i => Read.val_main_v45 (F := Ideal) x0 x1 (ix3 (7 : Fin 8) i l)) := by
    unfold Read.val_main_v47
    refine (Host.reduce_eq_fold_single IntOp.ori _ _ Gen.reducesTo_S8x128x128_S8x128_d1 h Gen.h_S_ (ix2 (7 : Fin 8) l)).trans ?_
    refine congrArg (fun f : Fin 128 → BitVec 1 => Finset.fold IntOp.ori 0#1 f (Finset.univ : Finset (Fin 128))) (funext fun i : Fin 128 => ?_)
    have e : h.lift (ix2 (7 : Fin 8) l) i = ix3 (7 : Fin 8) i l :=
      funext fun a => Fin.ext (by match a with | ⟨0, _⟩ => rfl | ⟨1, _⟩ => rfl | ⟨2, _⟩ => rfl)
    show Read.val_main_v45 (F := Ideal) x0 x1 (h.lift (ix2 (7 : Fin 8) l) i) = _
    rw [e]
  rw [hf, fold_ori_eq_one]
  exact ⟨fun ⟨i, _, hi⟩ => ⟨i, (v45_iff x0 x1 i l).1 hi⟩, fun ⟨i, hi⟩ => ⟨i, Finset.mem_univ _, (v45_iff x0 x1 i l).2 hi⟩⟩

/-- Stage 48: lane l is suppressed. -/
theorem v48_iff (x0 x1 : Arr) (l : Fin 128) :
    Read.val_main_v48 (F := Ideal) x0 x1 (ix2 (7 : Fin 8) l) = 1#1 ↔ Spec.sup x0 x1 l := by
  rw [Read.val_main_v48_apply]
  show (_ ||| _) = 1#1 ↔ _
  rw [or_eq_one, v46_iff, v47_iff]
  rfl

theorem G_pos (x0 x1 : Arr) (l : Fin 128) (h : Spec.sup x0 x1 l) : Spec.G x0 x1 (ix1 l) = 1 := if_pos h
theorem G_neg (x0 x1 : Arr) (l : Fin 128) (h : ¬ Spec.sup x0 x1 l) : Spec.G x0 x1 (ix1 l) = 0 := if_neg h

/-- THE REFERENCE IS THE SPECIFICATION: its last stage, lane by lane, is 1 at a suppressed lane and 0 elsewhere. -/
theorem ref_eq (x0 x1 : (⟨Cert.ReferenceIdeal.S8x128x512, .f32⟩ : BufTy).Contents (Elt Ideal)) :
    Cert.ReferenceIdeal.Read.val_main_v51 (F := Ideal) x0 x1 = Cert.Spec.G x0 x1 := by
  funext y
  obtain ⟨l, rfl⟩ : ∃ l : Fin 128, y = ix1 l := ⟨y 0, eq_ix1 y⟩
  have e : Read.idx_main_v49 (Read.idx_main_v50 (ix1 l)) = ix2 (7 : Fin 8) l :=
    funext fun a => Fin.ext (by
      match a with
      | ⟨0, _⟩ => rfl
      | ⟨1, _⟩ => exact Nat.mod_eq_of_lt l.isLt)
  rw [Read.val_main_v51_apply, Read.val_main_v50_apply, Read.val_main_v49_apply, e]
  show (((Read.val_main_v48 (F := Ideal) x0 x1 (ix2 (7 : Fin 8) l)).toNat : ℝ) : EReal) = _
  rw [bit_toEReal]
  by_cases hs : Spec.sup x0 x1 l
  · rw [if_pos ((v48_iff x0 x1 l).2 hs), G_pos x0 x1 l hs]
  · rw [if_neg (fun h => hs ((v48_iff x0 x1 l).1 h)), G_neg x0 x1 l hs]

end Cert.RefSpec
end
-- ==== Proof.lean ====
/-
  The certificate: a lane-suppression kernel against its jnp reference, on the last batch.

  Both programs take two arrays of shape [8, 128, 512] (a regressed position and a confidence per point of each of
  128 lanes) and return, for each lane of batch 7, 1 when some other lane suppresses it and 0 otherwise
  (Proof/Spec.lean states the function). The kernel walks a 2 × 4 grid — two halves of the lanes, four chunks
  of 128 points — keeping six accumulators across the four chunks of a half: the pairwise counts of commonly
  confident points (a product of 0/1 masks on the matrix unit), the pairwise summed distances, and each lane's
  summed confidence and confident-point count; at the last chunk it divides, compares and reduces to two small
  result blocks, which a few host operations join. The reference does the same on whole arrays. At the ideal
  instance both are the same sums and the same quotients, so no finiteness of the inputs is used: the sums are
  only re-bracketed (four chunks of 128 points are the 512 points), which the extended reals allow.

  The three frames: each argument array is read by two windows of the kernel, so each argument's points-to is
  split in two half shares for the region and joined again after it (Proof/Kernel*/Launch.lean); the body is
  run once per case of its two branch conditions and the accumulators are carried in the region's invariant
  (Proof/Kernel*/RunA–C, Cases, Points, Body*); the reference's frame is its generated run with the result
  dropped. The ideal pass rewrote nothing, so `preserves` is trivial. The value claim joins the kernel's
  result (Proof/KernelIdeal/Value.lean) with the reference's (Proof/RefSpec.lean) at the specification.
-/
import proofs.«140321_j78700980732218_2_alg».proof.Defs
import proofs.«140321_j78700980732218_2_alg».proof.Proof.Gen.Kernel
import proofs.«140321_j78700980732218_2_alg».proof.Proof.Gen.KernelIdeal
import proofs.«140321_j78700980732218_2_alg».proof.Proof.Gen.ReferenceIdeal
import proofs.«140321_j78700980732218_2_alg».proof.Proof.Gen.Pre_finite_inputs
import proofs.«140321_j78700980732218_2_alg».proof.Proof.Gen.ReferenceIdeal.Run
import proofs.«140321_j78700980732218_2_alg».proof.Proof.Gen.ReferenceIdeal.Read
import proofs.«140321_j78700980732218_2_alg».proof.Proof.Kernel.Run
import proofs.«140321_j78700980732218_2_alg».proof.Proof.KernelIdeal.Value
import proofs.«140321_j78700980732218_2_alg».proof.Proof.RefSpec
import Idealize.ShloMosaic.Adequacy
import Idealize.ShloMosaic.Init

noncomputable section

namespace Cert.Proof

open Idealize.ShloMosaic Idealize.SL.Sem

theorem claim : Cert.Claim := by
  refine ⟨Cert.Kernel.Gen.facts, Cert.KernelIdeal.Gen.facts, Cert.ReferenceIdeal.Gen.facts, Cert.Pre_finite_inputs.Gen.facts, ?_, ?_, ?_, trivial, ?_⟩
  · -- the word-level kernel runs and leaves its arguments unchanged
    exact fun m ρ _ => Cert.Kernel.Hand.frame m ρ
  · -- so does the idealized kernel
    exact fun m ρ _ => Cert.KernelIdeal.Hand.frame m ρ
  · -- and the reference: its run, the result dropped
    exact fun m ρ _ => (θ_run Cert.ReferenceIdeal.defs _ _).mono (fun _ h c => (h c).2) (Cert.ReferenceIdeal.Value.run (F := Ideal) m ρ)
  · -- both results are the specification of the (agreeing) arguments
    intro m ρ m' ρ' _ hagree
    refine ⟨fun c => Cert.Spec.G (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
      Cert.KernelIdeal.Hand.value_run m ρ, ?_⟩
    refine (θ_run Cert.ReferenceIdeal.defs _ _).mono (fun _ h c => ⟨(h c).1.trans ?_, (h c).2⟩)
      (Cert.ReferenceIdeal.Value.run (F := Ideal) m' ρ')
    rw [Cert.ReferenceIdeal.Read.val_main_v51_eq, Cert.RefSpec.ref_eq, (hagree c).1, (hagree c).2]

end Cert.Proof

end
